-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x10 : Shape := ⟨2, ![128, 10]⟩
abbrev S10 : Shape := ⟨1, ![10]⟩
abbrev S10x5 : Shape := ⟨2, ![10, 5]⟩
abbrev S5 : Shape := ⟨1, ![5]⟩
abbrev S5x2 : Shape := ⟨2, ![5, 2]⟩
abbrev S2 : Shape := ⟨1, ![2]⟩
abbrev S2x2 : Shape := ⟨2, ![2, 2]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S10x5 : S_.BroadcastsInDim S10x5 (![] : Fin 0 → Fin S10x5.rank)
  reducesTo_S10x5_S_d0_1 : S10x5.ReducesTo [0, 1] S_
  bcast_S_S5 : S_.BroadcastsInDim S5 (![] : Fin 0 → Fin S5.rank)
  reducesTo_S5_S_d0 : S5.ReducesTo [0] S_
  bcast_S_S5x2 : S_.BroadcastsInDim S5x2 (![] : Fin 0 → Fin S5x2.rank)
  reducesTo_S5x2_S_d0_1 : S5x2.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_

variable [Facts]

def fn_part2 {F : FTy → Type} [FloatOps F] (main_arg8 : FVec F S2x2 .f32) (main_arg9 : FVec F S2 .f32) (main_v33 : IVec S_ 1) : IVec S_ 1 :=
  let main_v34 : FVec F S2x2 .f32 := Host.absf main_arg8
  let main_cst_12 : FVec F S_ .f32 := constant S_ .f32 0x7F800000#32
  let main_v35 : FVec F S2x2 .f32 := broadcastInDim S2x2 ![] bcast_S_S2x2 main_cst_12
  let main_v36 : IVec S2x2 1 := cmpf .olt main_v34 main_v35
  let main_c_13 : IVec S_ 1 := constantI S_ 1 1#1
  let main_v37 : IVec S_ 1 := (fun x v => Host.reduce IntOp.andi x v reducesTo_S2x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S5 .f32) (main_arg6 : FVec F S5x2 .f32) (main_arg7 : FVec F S2 .f32) (main_arg8 : FVec F S2x2 .f32) (main_arg9 : FVec F S2 .f32) (main_v13 : IVec S_ 1) (main_v16 : IVec S10x5 1) : IVec S_ 1 :=
  let main_c_5 : IVec S_ 1 := constantI S_ 1 1#1
  let main_v17 : IVec S_ 1 := (fun x v => Host.reduce IntOp.andi x v reducesTo_S10x5_S_d0_1 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x2 .f32 := Host.absf main_arg6
  let main_cst_8 : FVec F S_ .f32 := constant S_ .f32 0x7F800000#32
  let main_v25 : FVec F S5x2 .f32 := broadcastInDim S5x2 ![] bcast_S_S5x2 main_cst_8
  let main_v26 : IVec S5x2 1 := cmpf .olt main_v24 main_v25
  let main_c_9 : IVec S_ 1 := constantI S_ 1 1#1
  let main_v27 : IVec S_ 1 := (fun x v => Host.reduce IntOp.andi x v reducesTo_S5x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S200000x128 .f32) (main_arg1 : IVec S2x6400000 32) (main_arg2 : FVec F S128x10 .f32) (main_arg3 : FVec F S10 .f32) (main_arg4 : FVec F S10x5 .f32) (main_arg5 : FVec F S5 .f32) (main_arg6 : FVec F S5x2 .f32) (main_arg7 : FVec F S2 .f32) (main_arg8 : FVec F S2x2 .f32) (main_arg9 : FVec F S2 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x10 .f32 := Host.absf main_arg2
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x5 .f32 := Host.absf main_arg4
  let main_cst_4 : FVec F S_ .f32 := constant S_ .f32 0x7F800000#32
  let main_v15 : FVec F S10x5 .f32 := broadcastInDim S10x5 ![] bcast_S_S10x5 main_cst_4
  let main_v16 : IVec S10x5 1 := cmpf .olt main_v14 main_v15
  fn_part1 (F := F) main_arg5 main_arg6 main_arg7 main_arg8 main_arg9 main_v13 main_v16
-- ==== Kernel.lean ====
abbrev S200000x128 : Shape := ⟨2, ![200000, 128]⟩
abbrev S2x6400000 : Shape := ⟨2, ![2, 6400000]⟩
abbrev S128x10 : Shape := ⟨2, ![128, 10]⟩
abbrev S10 : Shape := ⟨1, ![10]⟩
abbrev S10x5 : Shape := ⟨2, ![10, 5]⟩
abbrev S5 : Shape := ⟨1, ![5]⟩
abbrev S5x2 : Shape := ⟨2, ![5, 2]⟩
abbrev S2 : Shape := ⟨1, ![2]⟩
abbrev S2x2 : Shape := ⟨2, ![2, 2]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S1x10 : Shape := ⟨2, ![1, 10]⟩
abbrev S200000x10 : Shape := ⟨2, ![200000, 10]⟩
abbrev S8000x128 : Shape := ⟨2, ![8000, 128]⟩
abbrev S8000x10 : Shape := ⟨2, ![8000, 10]⟩
abbrev S6600000x10 : Shape := ⟨2, ![6600000, 10]⟩
abbrev S1x5 : Shape := ⟨2, ![1, 5]⟩
abbrev S200000x5 : Shape := ⟨2, ![200000, 5]⟩
abbrev S8000x5 : Shape := ⟨2, ![8000, 5]⟩
abbrev S6600000x5 : Shape := ⟨2, ![6600000, 5]⟩
abbrev S1x2 : Shape := ⟨2, ![1, 2]⟩
abbrev S200000x2 : Shape := ⟨2, ![200000, 2]⟩
abbrev S8000x2 : Shape := ⟨2, ![8000, 2]⟩
abbrev S6600000x2 : Shape := ⟨2, ![6600000, 2]⟩

abbrev nBuf : Space → Nat
  | .hbm => 111
  | .vmem => 39
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x10, .f32⟩
  | .hbm, ⟨3, _⟩ => ⟨S10, .f32⟩
  | .hbm, ⟨4, _⟩ => ⟨S10x5, .f32⟩
  | .hbm, ⟨5, _⟩ => ⟨S5, .f32⟩
  | .hbm, ⟨6, _⟩ => ⟨S5x2, .f32⟩
  | .hbm, ⟨7, _⟩ => ⟨S2, .f32⟩
  | .hbm, ⟨8, _⟩ => ⟨S2x2, .f32⟩
  | .hbm, ⟨9, _⟩ => ⟨S2, .f32⟩
  | .hbm, ⟨10, _⟩ => ⟨S200000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S1x6400000, .i32⟩
  | .hbm, ⟨15, _⟩ => ⟨S6400000, .i32⟩
  | .hbm, ⟨16, _⟩ => ⟨S6600000, .i32⟩
  | .hbm, ⟨17, _⟩ => ⟨S_, .f32⟩
  | .hbm, ⟨18, _⟩ => ⟨S6600000, .f32⟩
  | .hbm, ⟨19, _⟩ => ⟨S_, .f32⟩
  | .hbm, ⟨20, _⟩ => ⟨S200000, .f32⟩
  | .hbm, ⟨21, _⟩ => ⟨S6600000x1, .i32⟩
  | .hbm, ⟨22, _⟩ => ⟨S200000, .f32⟩
  | .hbm, ⟨23, _⟩ => ⟨S200000, .f32⟩
  | .hbm, ⟨24, _⟩ => ⟨S_, .i32⟩
  | .hbm, ⟨25, _⟩ => ⟨S6600000, .i32⟩
  | .hbm, ⟨26, _⟩ => ⟨S6600000, .i1⟩
  | .hbm, ⟨27, _⟩ => ⟨S_, .i32⟩
  | .hbm, ⟨28, _⟩ => ⟨S6600000, .i32⟩
  | .hbm, ⟨29, _⟩ => ⟨S6600000, .i32⟩
  | .hbm, ⟨30, _⟩ => ⟨S6600000, .i32⟩
  | .hbm, ⟨31, _⟩ => ⟨S6600000x1, .i32⟩
  | .hbm, ⟨32, _⟩ => ⟨S6600000, .f32⟩
  | .hbm, ⟨33, _⟩ => ⟨S_, .i32⟩
  | .hbm, ⟨34, _⟩ => ⟨S6600000, .i32⟩
  | .hbm, ⟨35, _⟩ => ⟨S6600000, .i1⟩
  | .hbm, ⟨36, _⟩ => ⟨S_, .i32⟩
  | .hbm, ⟨37, _⟩ => ⟨S6600000, .i32⟩
  | .hbm, ⟨38, _⟩ => ⟨S6600000, .i32⟩
  | .hbm, ⟨39, _⟩ => ⟨S6600000, .i32⟩
  | .hbm, ⟨40, _⟩ => ⟨S6600000x1, .i32⟩
  | .hbm, ⟨41, _⟩ => ⟨S6600000, .f32⟩
  | .hbm, ⟨42, _⟩ => ⟨S6600000, .f32⟩
  | .hbm, ⟨43, _⟩ => ⟨S_, .f32⟩
  | .hbm, ⟨44, _⟩ => ⟨S10, .f32⟩
  | .hbm, ⟨45, _⟩ => ⟨S1x10, .f32⟩
  | .hbm, ⟨46, _⟩ => ⟨S200000x10, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x10, .f32⟩
  | .hbm, ⟨56, _⟩ => ⟨S6600000x1, .f32⟩
  | .hbm, ⟨57, _⟩ => ⟨S6600000x10, .f32⟩
  | .hbm, ⟨58, _⟩ => ⟨S6600000x10, .f32⟩
  | .hbm, ⟨59, _⟩ => ⟨S_, .f32⟩
  | .hbm, ⟨60, _⟩ => ⟨S200000x10, .f32⟩
  | .hbm, ⟨61, _⟩ => ⟨S6600000x1, .i32⟩
  | .hbm, ⟨62, _⟩ => ⟨S200000x10, .f32⟩
  | .hbm, ⟨63, _⟩ => ⟨S1x10, .f32⟩
  | .hbm, ⟨64, _⟩ => ⟨S200000x10, .f32⟩
  | .hbm, ⟨65, _⟩ => ⟨S_, .f32⟩
  | .hbm, ⟨66, _⟩ => ⟨S5, .f32⟩
  | .hbm, ⟨67, _⟩ => ⟨S1x5, .f32⟩
  | .hbm, ⟨68, _⟩ => ⟨S200000x5, .f32⟩
  | .hbm, ⟨69, _⟩ => ⟨S_, .i32⟩
  | .hbm, ⟨70, _⟩ => ⟨S6600000, .i32⟩
  | .hbm, ⟨71, _⟩ => ⟨S6600000, .i1⟩
  | .hbm, ⟨72, _⟩ => ⟨S_, .i32⟩
  | .hbm, ⟨73, _⟩ => ⟨S6600000, .i32⟩
  | .hbm, ⟨74, _⟩ => ⟨S6600000, .i32⟩
  | .hbm, ⟨75, _⟩ => ⟨S6600000, .i32⟩
  | .hbm, ⟨76, _⟩ => ⟨S6600000x1, .i32⟩
  | .hbm, ⟨77, _⟩ => ⟨S6600000x5, .f32⟩
  | .hbm, ⟨78, _⟩ => ⟨S6600000x1, .f32⟩
  | .hbm, ⟨79, _⟩ => ⟨S6600000x5, .f32⟩
  | .hbm, ⟨80, _⟩ => ⟨S6600000x5, .f32⟩
  | .hbm, ⟨81, _⟩ => ⟨S_, .f32⟩
  | .hbm, ⟨82, _⟩ => ⟨S200000x5, .f32⟩
  | .hbm, ⟨83, _⟩ => ⟨S6600000x1, .i32⟩
  | .hbm, ⟨84, _⟩ => ⟨S200000x5, .f32⟩
  | .hbm, ⟨85, _⟩ => ⟨S1x5, .f32⟩
  | .hbm, ⟨86, _⟩ => ⟨S200000x5, .f32⟩
  | .hbm, ⟨87, _⟩ => ⟨S_, .f32⟩
  | .hbm, ⟨88, _⟩ => ⟨S2, .f32⟩
  | .hbm, ⟨89, _⟩ => ⟨S1x2, .f32⟩
  | .hbm, ⟨90, _⟩ => ⟨S200000x2, .f32⟩
  | .hbm, ⟨91, _⟩ => ⟨S_, .i32⟩
  | .hbm, ⟨92, _⟩ => ⟨S6600000, .i32⟩
  | .hbm, ⟨93, _⟩ => ⟨S6600000, .i1⟩
  | .hbm, ⟨94, _⟩ => ⟨S_, .i32⟩
  | .hbm, ⟨95, _⟩ => ⟨S6600000, .i32⟩
  | .hbm, ⟨96, _⟩ => ⟨S6600000, .i32⟩
  | .hbm, ⟨97, _⟩ => ⟨S6600000, .i32⟩
  | .hbm, ⟨98, _⟩ => ⟨S6600000x1, .i32⟩
  | .hbm, ⟨99, _⟩ => ⟨S6600000x2, .f32⟩
  | .hbm, ⟨100, _⟩ => ⟨S6600000x1, .f32⟩
  | .hbm, ⟨101, _⟩ => ⟨S6600000x2, .f32⟩
  | .hbm, ⟨102, _⟩ => ⟨S6600000x2, .f32⟩
  | .hbm, ⟨103, _⟩ => ⟨S_, .f32⟩
  | .hbm, ⟨104, _⟩ => ⟨S200000x2, .f32⟩
  | .hbm, ⟨105, _⟩ => ⟨S6600000x1, .i32⟩
  | .hbm, ⟨106, _⟩ => ⟨S200000x2, .f32⟩
  | .hbm, ⟨107, _⟩ => ⟨S1x2, .f32⟩
  | .hbm, ⟨108, _⟩ => ⟨S200000x2, .f32⟩
  | .hbm, ⟨109, _⟩ => ⟨S1x2, .f32⟩
  | .hbm, ⟨110, _⟩ => ⟨S200000x2, .f32⟩
  | .local _ .vmem, ⟨0, _⟩ => ⟨S8000x128, .f32⟩
  | .local _ .vmem, ⟨1, _⟩ => ⟨S8000x128, .f32⟩
  | .local _ .vmem, ⟨2, _⟩ => ⟨S128x10, .f32⟩
  | .local _ .vmem, ⟨3, _⟩ => ⟨S1x10, .f32⟩
  | .local _ .vmem, ⟨4, _⟩ => ⟨S8000x10, .f32⟩
  | .local _ .vmem, ⟨5, _⟩ => ⟨S8000x10, .f32⟩
  | .local _ .vmem, ⟨6, _⟩ => ⟨S8000x10, .f32⟩
  | .local _ .vmem, ⟨7, _⟩ => ⟨S8000x10, .f32⟩
  | .local _ .vmem, ⟨8, _⟩ => ⟨S1x10, .f32⟩
  | .local _ .vmem, ⟨9, _⟩ => ⟨S8000x10, .f32⟩
  | .local _ .vmem, ⟨10, _⟩ => ⟨S8000x10, .f32⟩
  | .local _ .vmem, ⟨11, _⟩ => ⟨S8000x10, .f32⟩
  | .local _ .vmem, ⟨12, _⟩ => ⟨S8000x10, .f32⟩
  | .local _ .vmem, ⟨13, _⟩ => ⟨S10x5, .f32⟩
  | .local _ .vmem, ⟨14, _⟩ => ⟨S1x5, .f32⟩
  | .local _ .vmem, ⟨15, _⟩ => ⟨S8000x5, .f32⟩
  | .local _ .vmem, ⟨16, _⟩ => ⟨S8000x5, .f32⟩
  | .local _ .vmem, ⟨17, _⟩ => ⟨S8000x5, .f32⟩
  | .local _ .vmem, ⟨18, _⟩ => ⟨S8000x5, .f32⟩
  | .local _ .vmem, ⟨19, _⟩ => ⟨S1x5, .f32⟩
  | .local _ .vmem, ⟨20, _⟩ => ⟨S8000x5, .f32⟩
  | .local _ .vmem, ⟨21, _⟩ => ⟨S8000x5, .f32⟩
  | .local _ .vmem, ⟨22, _⟩ => ⟨S8000x5, .f32⟩
  | .local _ .vmem, ⟨23, _⟩ => ⟨S8000x5, .f32⟩
  | .local _ .vmem, ⟨24, _⟩ => ⟨S5x2, .f32⟩
  | .local _ .vmem, ⟨25, _⟩ => ⟨S1x2, .f32⟩
  | .local _ .vmem, ⟨26, _⟩ => ⟨S8000x2, .f32⟩
  | .local _ .vmem, ⟨27, _⟩ => ⟨S8000x2, .f32⟩
  | .local _ .vmem, ⟨28, _⟩ => ⟨S8000x2, .f32⟩
  | .local _ .vmem, ⟨29, _⟩ => ⟨S8000x2, .f32⟩
  | .local _ .vmem, ⟨30, _⟩ => ⟨S1x2, .f32⟩
  | .local _ .vmem, ⟨31, _⟩ => ⟨S8000x2, .f32⟩
  | .local _ .vmem, ⟨32, _⟩ => ⟨S8000x2, .f32⟩
  | .local _ .vmem, ⟨33, _⟩ => ⟨S8000x2, .f32⟩
  | .local _ .vmem, ⟨34, _⟩ => ⟨S8000x2, .f32⟩
  | .local _ .vmem, ⟨35, _⟩ => ⟨S2x2, .f32⟩
  | .local _ .vmem, ⟨36, _⟩ => ⟨S1x2, .f32⟩
  | .local _ .vmem, ⟨37, _⟩ => ⟨S8000x2, .f32⟩
  | .local _ .vmem, ⟨38, _⟩ => ⟨S8000x2, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x5 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x5 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x5 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8000x5 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x5 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S5x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S_S10 : S_.BroadcastsInDim S10 (![] : Fin 0 → Fin S10.rank)
  shapeCasts_S10_S1x10 : S10.ShapeCasts S1x10
  inb_S8000x128_S8000x128_0_0 : ∀ a, (![0, 0] : Fin 2 → Nat) a + S8000x128.size a ≤ S8000x128.size a
  h_S8000x128 : 0 < S8000x128.numel
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8000x10 : S1x10.Broadcasts S8000x10
  inb_S8000x10_S8000x10_0_0 : ∀ a, (![0, 0] : Fin 2 → Nat) a + S8000x10.size a ≤ S8000x10.size a
  h_S8000x10 : 0 < S8000x10.numel
  bcast_S6600000x1_S6600000x10_0_1 : S6600000x1.BroadcastsInDim S6600000x10 (![0, 1] : Fin 2 → Fin S6600000x10.rank)
  bcast_S_S200000x10 : S_.BroadcastsInDim S200000x10 (![] : Fin 0 → Fin S200000x10.rank)
  shapeCasts_S8000x10_S8000x10 : S8000x10.ShapeCasts S8000x10
  bcast_S_S5 : S_.BroadcastsInDim S5 (![] : Fin 0 → Fin S5.rank)
  shapeCasts_S5_S1x5 : S5.ShapeCasts S1x5
  inb_S10x5_S10x5_0_0 : ∀ a, (![0, 0] : Fin 2 → Nat) a + S10x5.size a ≤ S10x5.size a
  h_S10x5 : 0 < S10x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S8000x5 : S1x5.Broadcasts S8000x5
  inb_S8000x5_S8000x5_0_0 : ∀ a, (![0, 0] : Fin 2 → Nat) a + S8000x5.size a ≤ S8000x5.size a
  h_S8000x5 : 0 < S8000x5.numel
  bcast_S6600000x1_S6600000x5_0_1 : S6600000x1.BroadcastsInDim S6600000x5 (![0, 1] : Fin 2 → Fin S6600000x5.rank)
  bcast_S_S200000x5 : S_.BroadcastsInDim S200000x5 (![] : Fin 0 → Fin S200000x5.rank)
  shapeCasts_S8000x5_S8000x5 : S8000x5.ShapeCasts S8000x5
  bcast_S_S2 : S_.BroadcastsInDim S2 (![] : Fin 0 → Fin S2.rank)
  shapeCasts_S2_S1x2 : S2.ShapeCasts S1x2
  inb_S5x2_S5x2_0_0 : ∀ a, (![0, 0] : Fin 2 → Nat) a + S5x2.size a ≤ S5x2.size a
  h_S5x2 : 0 < S5x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  shapeCasts_S8000x2_S8000x2 : S8000x2.ShapeCasts S8000x2
  inb_S2x2_S2x2_0_0 : ∀ a, (![0, 0] : Fin 2 → Nat) a + S2x2.size a ≤ S2x2.size a
  h_S2x2 : 0 < S2x2.numel
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S8000x128_S128x10_S8000x10_1_0_0_1_n_n_wf : DotDims.WF S8000x128 S128x10 S8000x10 [1] [0] [0] [1] [] []
  gather_S200000x10_S6600000x1_S6600000x10_1_0_n_n_0_1_110_wf : GatherDims.WF S200000x10 S6600000x1 S6600000x10 [1] [0] [] [0] [] 1 ![1, 10]
  scatter_S200000x10_S6600000x1_S6600000x10_1_0_0_1_wf : ScatterDims.WF S200000x10 S6600000x1 S6600000x10 [1] [0] [0] 1
  dot_S8000x10_S10x5_S8000x5_1_0_0_1_n_n_wf : DotDims.WF S8000x10 S10x5 S8000x5 [1] [0] [0] [1] [] []
  gather_S200000x5_S6600000x1_S6600000x5_1_0_n_n_0_1_15_wf : GatherDims.WF S200000x5 S6600000x1 S6600000x5 [1] [0] [] [0] [] 1 ![1, 5]
  scatter_S200000x5_S6600000x1_S6600000x5_1_0_0_1_wf : ScatterDims.WF S200000x5 S6600000x1 S6600000x5 [1] [0] [0] 1
  dot_S8000x5_S5x2_S8000x2_1_0_0_1_n_n_wf : DotDims.WF S8000x5 S5x2 S8000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  dot_S8000x2_S2x2_S8000x2_1_0_0_1_n_n_wf : DotDims.WF S8000x2 S2x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S128x10.size a
  hwx0_1 : ∀ i : grid0.Coords, EltTy.bits .f32 = 32 ∨ (Rect.block (s := S128x10) S128x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x10.size a ≤ S200000x10.size a
  hwx0_3 : ∀ i : grid0.Coords, EltTy.bits .f32 = 32 ∨ (Rect.block (s := S200000x10) S8000x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x10.size a ≤ S200000x10.size a
  hwx1_0 : ∀ i : grid1.Coords, EltTy.bits .f32 = 32 ∨ (Rect.block (s := S200000x10) S8000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x10.size a ≤ S1x10.size a
  hwx1_1 : ∀ i : grid1.Coords, EltTy.bits .f32 = 32 ∨ (Rect.block (s := S1x10) S1x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x10.size a ≤ S200000x10.size a
  hwx1_2 : ∀ i : grid1.Coords, EltTy.bits .f32 = 32 ∨ (Rect.block (s := S200000x10) S8000x10.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x10.size a ≤ S200000x10.size a
  hwx2_0 : ∀ i : grid2.Coords, EltTy.bits .f32 = 32 ∨ (Rect.block (s := S200000x10) S8000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x5.size a ≤ S10x5.size a
  hwx2_1 : ∀ i : grid2.Coords, EltTy.bits .f32 = 32 ∨ (Rect.block (s := S10x5) S10x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x5.size a ≤ S1x5.size a
  hwx2_2 : ∀ i : grid2.Coords, EltTy.bits .f32 = 32 ∨ (Rect.block (s := S1x5) S1x5.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x5.size a ≤ S200000x5.size a
  hwx2_3 : ∀ i : grid2.Coords, EltTy.bits .f32 = 32 ∨ (Rect.block (s := S200000x5) S8000x5.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x5.size a ≤ S200000x5.size a
  hwx3_0 : ∀ i : grid3.Coords, EltTy.bits .f32 = 32 ∨ (Rect.block (s := S200000x5) S8000x5.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x5.size a ≤ S1x5.size a
  hwx3_1 : ∀ i : grid3.Coords, EltTy.bits .f32 = 32 ∨ (Rect.block (s := S1x5) S1x5.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x5.size a ≤ S200000x5.size a
  hwx3_2 : ∀ i : grid3.Coords, EltTy.bits .f32 = 32 ∨ (Rect.block (s := S200000x5) S8000x5.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x5.size a ≤ S200000x5.size a
  hwx4_0 : ∀ i : grid4.Coords, EltTy.bits .f32 = 32 ∨ (Rect.block (s := S200000x5) S8000x5.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S5x2.size a ≤ S5x2.size a
  hwx4_1 : ∀ i : grid4.Coords, EltTy.bits .f32 = 32 ∨ (Rect.block (s := S5x2) S5x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x2.size a ≤ S200000x2.size a
  hwx4_3 : ∀ i : grid4.Coords, EltTy.bits .f32 = 32 ∨ (Rect.block (s := S200000x2) S8000x2.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x2.size a ≤ S200000x2.size a
  hwx5_0 : ∀ i : grid5.Coords, EltTy.bits .f32 = 32 ∨ (Rect.block (s := S200000x2) S8000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x2.size a ≤ S200000x2.size a
  hwx5_2 : ∀ i : grid5.Coords, EltTy.bits .f32 = 32 ∨ (Rect.block (s := S200000x2) S8000x2.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x2.size a ≤ S200000x2.size a
  hwx6_0 : ∀ i : grid6.Coords, EltTy.bits .f32 = 32 ∨ (Rect.block (s := S200000x2) S8000x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2x2.size a ≤ S2x2.size a
  hwx6_1 : ∀ i : grid6.Coords, EltTy.bits .f32 = 32 ∨ (Rect.block (s := S2x2) S2x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x2.size a ≤ S200000x2.size a
  hwx6_3 : ∀ i : grid6.Coords, EltTy.bits .f32 = 32 ∨ (Rect.block (s := S200000x2) S8000x2.size (cc6_transform_3 i) (hinb6_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S8000x128_S128x10_S8000x10_1_0_0_1_n_n : DotDims S8000x128 S128x10 S8000x10 where
  lhsContracting := [1]
  rhsContracting := [0]
  lhsNonContracting := [0]
  rhsNonContracting := [1]
  lhsBatch := []
  rhsBatch := []
  wf := dot_S8000x128_S128x10_S8000x10_1_0_0_1_n_n_wf
def gather_S200000x10_S6600000x1_S6600000x10_1_0_n_n_0_1_110 : GatherDims S200000x10 S6600000x1 S6600000x10 where
  offsetDims := [1]
  collapsedSliceDims := [0]
  operandBatchingDims := []
  startIndicesBatchingDims := []
  startIndexMap := [0]
  indexVectorDim := 1
  sliceSizes := ![1, 10]
  wf := gather_S200000x10_S6600000x1_S6600000x10_1_0_n_n_0_1_110_wf
def scatter_S200000x10_S6600000x1_S6600000x10_1_0_0_1 : ScatterDims S200000x10 S6600000x1 S6600000x10 where
  updateWindowDims := [1]
  insertedWindowDims := [0]
  scatterDimsToOperandDims := [0]
  indexVectorDim := 1
  wf := scatter_S200000x10_S6600000x1_S6600000x10_1_0_0_1_wf
def dot_S8000x10_S10x5_S8000x5_1_0_0_1_n_n : DotDims S8000x10 S10x5 S8000x5 where
  lhsContracting := [1]
  rhsContracting := [0]
  lhsNonContracting := [0]
  rhsNonContracting := [1]
  lhsBatch := []
  rhsBatch := []
  wf := dot_S8000x10_S10x5_S8000x5_1_0_0_1_n_n_wf
def gather_S200000x5_S6600000x1_S6600000x5_1_0_n_n_0_1_15 : GatherDims S200000x5 S6600000x1 S6600000x5 where
  offsetDims := [1]
  collapsedSliceDims := [0]
  operandBatchingDims := []
  startIndicesBatchingDims := []
  startIndexMap := [0]
  indexVectorDim := 1
  sliceSizes := ![1, 5]
  wf := gather_S200000x5_S6600000x1_S6600000x5_1_0_n_n_0_1_15_wf
def scatter_S200000x5_S6600000x1_S6600000x5_1_0_0_1 : ScatterDims S200000x5 S6600000x1 S6600000x5 where
  updateWindowDims := [1]
  insertedWindowDims := [0]
  scatterDimsToOperandDims := [0]
  indexVectorDim := 1
  wf := scatter_S200000x5_S6600000x1_S6600000x5_1_0_0_1_wf
def dot_S8000x5_S5x2_S8000x2_1_0_0_1_n_n : DotDims S8000x5 S5x2 S8000x2 where
  lhsContracting := [1]
  rhsContracting := [0]
  lhsNonContracting := [0]
  rhsNonContracting := [1]
  lhsBatch := []
  rhsBatch := []
  wf := dot_S8000x5_S5x2_S8000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf
def dot_S8000x2_S2x2_S8000x2_1_0_0_1_n_n : DotDims S8000x2 S2x2 S8000x2 where
  lhsContracting := [1]
  rhsContracting := [0]
  lhsNonContracting := [0]
  rhsNonContracting := [1]
  lhsBatch := []
  rhsBatch := []
  wf := dot_S8000x2_S2x2_S8000x2_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S8000x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S8000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S8000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S8000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S10x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S8000x5.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S8000x5.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x5.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S8000x5.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S8000x5.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S5x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S8000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v78) S8000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S8000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S8000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S2x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S8000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x10 : Shape := ⟨2, ![128, 10]⟩
abbrev S10 : Shape := ⟨1, ![10]⟩
abbrev S10x5 : Shape := ⟨2, ![10, 5]⟩
abbrev S5 : Shape := ⟨1, ![5]⟩
abbrev S5x2 : Shape := ⟨2, ![5, 2]⟩
abbrev S2 : Shape := ⟨1, ![2]⟩
abbrev S2x2 : Shape := ⟨2, ![2, 2]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x10 : Shape := ⟨2, ![200000, 10]⟩
abbrev S6600000x10 : Shape := ⟨2, ![6600000, 10]⟩
abbrev S1x10 : Shape := ⟨2, ![1, 10]⟩
abbrev S200000x5 : Shape := ⟨2, ![200000, 5]⟩
abbrev S6600000x5 : Shape := ⟨2, ![6600000, 5]⟩
abbrev S1x5 : Shape := ⟨2, ![1, 5]⟩
abbrev S200000x2 : Shape := ⟨2, ![200000, 2]⟩
abbrev S6600000x2 : Shape := ⟨2, ![6600000, 2]⟩
abbrev S1x2 : Shape := ⟨2, ![1, 2]⟩

abbrev nBuf : Space → Nat
  | .hbm => 110
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x10, .f32⟩
  | .hbm, ⟨3, _⟩ => ⟨S10, .f32⟩
  | .hbm, ⟨4, _⟩ => ⟨S10x5, .f32⟩
  | .hbm, ⟨5, _⟩ => ⟨S5, .f32⟩
  | .hbm, ⟨6, _⟩ => ⟨S5x2, .f32⟩
  | .hbm, ⟨7, _⟩ => ⟨S2, .f32⟩
  | .hbm, ⟨8, _⟩ => ⟨S2x2, .f32⟩
  | .hbm, ⟨9, _⟩ => ⟨S2, .f32⟩
  | .hbm, ⟨10, _⟩ => ⟨S200000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S1x6400000, .i32⟩
  | .hbm, ⟨15, _⟩ => ⟨S6400000, .i32⟩
  | .hbm, ⟨16, _⟩ => ⟨S6600000, .i32⟩
  | .hbm, ⟨17, _⟩ => ⟨S_, .f32⟩
  | .hbm, ⟨18, _⟩ => ⟨S6600000, .f32⟩
  | .hbm, ⟨19, _⟩ => ⟨S_, .f32⟩
  | .hbm, ⟨20, _⟩ => ⟨S200000, .f32⟩
  | .hbm, ⟨21, _⟩ => ⟨S6600000x1, .i32⟩
  | .hbm, ⟨22, _⟩ => ⟨S200000, .f32⟩
  | .hbm, ⟨23, _⟩ => ⟨S200000, .f32⟩
  | .hbm, ⟨24, _⟩ => ⟨S_, .i32⟩
  | .hbm, ⟨25, _⟩ => ⟨S6600000, .i32⟩
  | .hbm, ⟨26, _⟩ => ⟨S6600000, .i1⟩
  | .hbm, ⟨27, _⟩ => ⟨S_, .i32⟩
  | .hbm, ⟨28, _⟩ => ⟨S6600000, .i32⟩
  | .hbm, ⟨29, _⟩ => ⟨S6600000, .i32⟩
  | .hbm, ⟨30, _⟩ => ⟨S6600000, .i32⟩
  | .hbm, ⟨31, _⟩ => ⟨S6600000x1, .i32⟩
  | .hbm, ⟨32, _⟩ => ⟨S6600000, .f32⟩
  | .hbm, ⟨33, _⟩ => ⟨S_, .i32⟩
  | .hbm, ⟨34, _⟩ => ⟨S6600000, .i32⟩
  | .hbm, ⟨35, _⟩ => ⟨S6600000, .i1⟩
  | .hbm, ⟨36, _⟩ => ⟨S_, .i32⟩
  | .hbm, ⟨37, _⟩ => ⟨S6600000, .i32⟩
  | .hbm, ⟨38, _⟩ => ⟨S6600000, .i32⟩
  | .hbm, ⟨39, _⟩ => ⟨S6600000, .i32⟩
  | .hbm, ⟨40, _⟩ => ⟨S6600000x1, .i32⟩
  | .hbm, ⟨41, _⟩ => ⟨S6600000, .f32⟩
  | .hbm, ⟨42, _⟩ => ⟨S6600000, .f32⟩
  | .hbm, ⟨43, _⟩ => ⟨S200000x10, .f32⟩
  | .hbm, ⟨44, _⟩ => ⟨S_, .i32⟩
  | .hbm, ⟨45, _⟩ => ⟨S6600000, .i32⟩
  | .hbm, ⟨46, _⟩ => ⟨S6600000, .i1⟩
  | .hbm, ⟨47, _⟩ => ⟨S_, .i32⟩
  | .hbm, ⟨48, _⟩ => ⟨S6600000, .i32⟩
  | .hbm, ⟨49, _⟩ => ⟨S6600000, .i32⟩
  | .hbm, ⟨50, _⟩ => ⟨S6600000, .i32⟩
  | .hbm, ⟨51, _⟩ => ⟨S6600000x1, .i32⟩
  | .hbm, ⟨52, _⟩ => ⟨S6600000x10, .f32⟩
  | .hbm, ⟨53, _⟩ => ⟨S6600000x1, .f32⟩
  | .hbm, ⟨54, _⟩ => ⟨S6600000x10, .f32⟩
  | .hbm, ⟨55, _⟩ => ⟨S6600000x10, .f32⟩
  | .hbm, ⟨56, _⟩ => ⟨S_, .f32⟩
  | .hbm, ⟨57, _⟩ => ⟨S200000x10, .f32⟩
  | .hbm, ⟨58, _⟩ => ⟨S6600000x1, .i32⟩
  | .hbm, ⟨59, _⟩ => ⟨S200000x10, .f32⟩
  | .hbm, ⟨60, _⟩ => ⟨S1x10, .f32⟩
  | .hbm, ⟨61, _⟩ => ⟨S200000x10, .f32⟩
  | .hbm, ⟨62, _⟩ => ⟨S200000x10, .f32⟩
  | .hbm, ⟨63, _⟩ => ⟨S200000x10, .f32⟩
  | .hbm, ⟨64, _⟩ => ⟨S200000x5, .f32⟩
  | .hbm, ⟨65, _⟩ => ⟨S_, .i32⟩
  | .hbm, ⟨66, _⟩ => ⟨S6600000, .i32⟩
  | .hbm, ⟨67, _⟩ => ⟨S6600000, .i1⟩
  | .hbm, ⟨68, _⟩ => ⟨S_, .i32⟩
  | .hbm, ⟨69, _⟩ => ⟨S6600000, .i32⟩
  | .hbm, ⟨70, _⟩ => ⟨S6600000, .i32⟩
  | .hbm, ⟨71, _⟩ => ⟨S6600000, .i32⟩
  | .hbm, ⟨72, _⟩ => ⟨S6600000x1, .i32⟩
  | .hbm, ⟨73, _⟩ => ⟨S6600000x5, .f32⟩
  | .hbm, ⟨74, _⟩ => ⟨S6600000x1, .f32⟩
  | .hbm, ⟨75, _⟩ => ⟨S6600000x5, .f32⟩
  | .hbm, ⟨76, _⟩ => ⟨S6600000x5, .f32⟩
  | .hbm, ⟨77, _⟩ => ⟨S_, .f32⟩
  | .hbm, ⟨78, _⟩ => ⟨S200000x5, .f32⟩
  | .hbm, ⟨79, _⟩ => ⟨S6600000x1, .i32⟩
  | .hbm, ⟨80, _⟩ => ⟨S200000x5, .f32⟩
  | .hbm, ⟨81, _⟩ => ⟨S1x5, .f32⟩
  | .hbm, ⟨82, _⟩ => ⟨S200000x5, .f32⟩
  | .hbm, ⟨83, _⟩ => ⟨S200000x5, .f32⟩
  | .hbm, ⟨84, _⟩ => ⟨S200000x5, .f32⟩
  | .hbm, ⟨85, _⟩ => ⟨S200000x2, .f32⟩
  | .hbm, ⟨86, _⟩ => ⟨S_, .i32⟩
  | .hbm, ⟨87, _⟩ => ⟨S6600000, .i32⟩
  | .hbm, ⟨88, _⟩ => ⟨S6600000, .i1⟩
  | .hbm, ⟨89, _⟩ => ⟨S_, .i32⟩
  | .hbm, ⟨90, _⟩ => ⟨S6600000, .i32⟩
  | .hbm, ⟨91, _⟩ => ⟨S6600000, .i32⟩
  | .hbm, ⟨92, _⟩ => ⟨S6600000, .i32⟩
  | .hbm, ⟨93, _⟩ => ⟨S6600000x1, .i32⟩
  | .hbm, ⟨94, _⟩ => ⟨S6600000x2, .f32⟩
  | .hbm, ⟨95, _⟩ => ⟨S6600000x1, .f32⟩
  | .hbm, ⟨96, _⟩ => ⟨S6600000x2, .f32⟩
  | .hbm, ⟨97, _⟩ => ⟨S6600000x2, .f32⟩
  | .hbm, ⟨98, _⟩ => ⟨S_, .f32⟩
  | .hbm, ⟨99, _⟩ => ⟨S200000x2, .f32⟩
  | .hbm, ⟨100, _⟩ => ⟨S6600000x1, .i32⟩
  | .hbm, ⟨101, _⟩ => ⟨S200000x2, .f32⟩
  | .hbm, ⟨102, _⟩ => ⟨S1x2, .f32⟩
  | .hbm, ⟨103, _⟩ => ⟨S200000x2, .f32⟩
  | .hbm, ⟨104, _⟩ => ⟨S200000x2, .f32⟩
  | .hbm, ⟨105, _⟩ => ⟨S200000x2, .f32⟩
  | .hbm, ⟨106, _⟩ => ⟨S200000x2, .f32⟩
  | .hbm, ⟨107, _⟩ => ⟨S1x2, .f32⟩
  | .hbm, ⟨108, _⟩ => ⟨S200000x2, .f32⟩
  | .hbm, ⟨109, _⟩ => ⟨S200000x2, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_10 : Ref sig .tc := ⟨.hbm, 86, rfl⟩
abbrev main_v64 : Ref sig .tc := ⟨.hbm, 87, rfl⟩
abbrev main_v65 : Ref sig .tc := ⟨.hbm, 88, rfl⟩
abbrev main_c_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x10_0_1 : S6600000x1.BroadcastsInDim S6600000x10 (![0, 1] : Fin 2 → Fin S6600000x10.rank)
  bcast_S_S200000x10 : S_.BroadcastsInDim S200000x10 (![] : Fin 0 → Fin S200000x10.rank)
  bcast_S10_S1x10_1 : S10.BroadcastsInDim S1x10 (![1] : Fin 1 → Fin S1x10.rank)
  bcast_S1x10_S200000x10_0_1 : S1x10.BroadcastsInDim S200000x10 (![0, 1] : Fin 2 → Fin S200000x10.rank)
  bcast_S6600000x1_S6600000x5_0_1 : S6600000x1.BroadcastsInDim S6600000x5 (![0, 1] : Fin 2 → Fin S6600000x5.rank)
  bcast_S_S200000x5 : S_.BroadcastsInDim S200000x5 (![] : Fin 0 → Fin S200000x5.rank)
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x128_S128x10_S200000x10_1_0_0_1_n_n_wf : DotDims.WF S200000x128 S128x10 S200000x10 [1] [0] [0] [1] [] []
  gather_S200000x10_S6600000x1_S6600000x10_1_0_n_n_0_1_110_wf : GatherDims.WF S200000x10 S6600000x1 S6600000x10 [1] [0] [] [0] [] 1 ![1, 10]
  scatter_S200000x10_S6600000x1_S6600000x10_1_0_0_1_wf : ScatterDims.WF S200000x10 S6600000x1 S6600000x10 [1] [0] [0] 1
  dot_S200000x10_S10x5_S200000x5_1_0_0_1_n_n_wf : DotDims.WF S200000x10 S10x5 S200000x5 [1] [0] [0] [1] [] []
  gather_S200000x5_S6600000x1_S6600000x5_1_0_n_n_0_1_15_wf : GatherDims.WF S200000x5 S6600000x1 S6600000x5 [1] [0] [] [0] [] 1 ![1, 5]
  scatter_S200000x5_S6600000x1_S6600000x5_1_0_0_1_wf : ScatterDims.WF S200000x5 S6600000x1 S6600000x5 [1] [0] [0] 1
  dot_S200000x5_S5x2_S200000x2_1_0_0_1_n_n_wf : DotDims.WF S200000x5 S5x2 S200000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  dot_S200000x2_S2x2_S200000x2_1_0_0_1_n_n_wf : DotDims.WF S200000x2 S2x2 S200000x2 [1] [0] [0] [1] [] []

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x128_S128x10_S200000x10_1_0_0_1_n_n : DotDims S200000x128 S128x10 S200000x10 where
  lhsContracting := [1]
  rhsContracting := [0]
  lhsNonContracting := [0]
  rhsNonContracting := [1]
  lhsBatch := []
  rhsBatch := []
  wf := dot_S200000x128_S128x10_S200000x10_1_0_0_1_n_n_wf
def gather_S200000x10_S6600000x1_S6600000x10_1_0_n_n_0_1_110 : GatherDims S200000x10 S6600000x1 S6600000x10 where
  offsetDims := [1]
  collapsedSliceDims := [0]
  operandBatchingDims := []
  startIndicesBatchingDims := []
  startIndexMap := [0]
  indexVectorDim := 1
  sliceSizes := ![1, 10]
  wf := gather_S200000x10_S6600000x1_S6600000x10_1_0_n_n_0_1_110_wf
def scatter_S200000x10_S6600000x1_S6600000x10_1_0_0_1 : ScatterDims S200000x10 S6600000x1 S6600000x10 where
  updateWindowDims := [1]
  insertedWindowDims := [0]
  scatterDimsToOperandDims := [0]
  indexVectorDim := 1
  wf := scatter_S200000x10_S6600000x1_S6600000x10_1_0_0_1_wf
def dot_S200000x10_S10x5_S200000x5_1_0_0_1_n_n : DotDims S200000x10 S10x5 S200000x5 where
  lhsContracting := [1]
  rhsContracting := [0]
  lhsNonContracting := [0]
  rhsNonContracting := [1]
  lhsBatch := []
  rhsBatch := []
  wf := dot_S200000x10_S10x5_S200000x5_1_0_0_1_n_n_wf
def gather_S200000x5_S6600000x1_S6600000x5_1_0_n_n_0_1_15 : GatherDims S200000x5 S6600000x1 S6600000x5 where
  offsetDims := [1]
  collapsedSliceDims := [0]
  operandBatchingDims := []
  startIndicesBatchingDims := []
  startIndexMap := [0]
  indexVectorDim := 1
  sliceSizes := ![1, 5]
  wf := gather_S200000x5_S6600000x1_S6600000x5_1_0_n_n_0_1_15_wf
def scatter_S200000x5_S6600000x1_S6600000x5_1_0_0_1 : ScatterDims S200000x5 S6600000x1 S6600000x5 where
  updateWindowDims := [1]
  insertedWindowDims := [0]
  scatterDimsToOperandDims := [0]
  indexVectorDim := 1
  wf := scatter_S200000x5_S6600000x1_S6600000x5_1_0_0_1_wf
def dot_S200000x5_S5x2_S200000x2_1_0_0_1_n_n : DotDims S200000x5 S5x2 S200000x2 where
  lhsContracting := [1]
  rhsContracting := [0]
  lhsNonContracting := [0]
  rhsNonContracting := [1]
  lhsBatch := []
  rhsBatch := []
  wf := dot_S200000x5_S5x2_S200000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf
def dot_S200000x2_S2x2_S200000x2_1_0_0_1_n_n : DotDims S200000x2 S2x2 S200000x2 where
  lhsContracting := [1]
  rhsContracting := [0]
  lhsNonContracting := [0]
  rhsNonContracting := [1]
  lhsBatch := []
  rhsBatch := []
  wf := dot_S200000x2_S2x2_S200000x2_1_0_0_1_n_n_wf

class Facts : Prop extends Facts₀ where

variable [Facts]
-- ==== Proof.RunW.lean ====
/-
  The idealized kernel program's run, with its two results named.

  The program is seven regions among stretches of host operations. The generated frame follows the buffer contents
  through them as a fold from the launch memory: `W14 m ρ c` is what every unscoped buffer of core `c` holds when the
  last region has written back. The launch theorem for a chain of host stretches and regions ends in a state whose
  unscoped buffers are read against the final memory; here both result buffers are read there as well as the
  arguments, so every execution ends with `main_v82` and `main_v80` at `W14` and the arguments as launched.
-/
import proofs.«109775_j67156108640501_1_alg».proof.Proof.Gen.KernelIdeal.Frame

set_option maxRecDepth 16384

noncomputable section

namespace Cert.KernelIdeal.RunW

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, each result buffer holding the last boundary's
    contents `W14` at it and each argument as launched. -/
theorem run : θ_run defs (onTc (τ := τ) (main (F := F))) ⟨m, fun _ => 0, ρ⟩ (fun r => ∀ c : Dev nD,
      r.2.mem ((c.tc : Thread nD τ).loc main_v82) = W14 m ρ c (Proc.devRef .tc main_v82)
      ∧ r.2.mem ((c.tc : Thread nD τ).loc main_v80) = W14 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v82 (by decide)),
       h c _ (mem_uc main_v80 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.RunW

end
-- ==== Proof.Layer.lean ====
/-
  The layers of the graph network as whole-array functions over the extended reals, index by index.

  A node-feature array has one row per node. Three kinds of step act on it row by row:
  * a projection: row `i` of `x` times the weight matrix, entry `(i, j)` being `∑ k, x (i, k) * W (k, j)` (`mm`),
    optionally plus a bias (`lin` with the bias as a one-row matrix, `linB` with the bias as a vector);
  * an activation: `tanh (a (i, j) + b j)` (`actRow` with the bias as a one-row matrix, `act` with it as a vector).
  Between a projection and an activation both programs apply the same edge aggregation, which this file does not open.

  Adding a bias that is zero everywhere changes nothing, on every extended real (`x + 0 = x` also at the infinities):
  `lin_of_zero`. A one-row bias read at row `0` is the vector it was cast or broadcast from: `lin_row`, `actRow_row`.
-/
import Idealize.ShloMosaic.PureOps.Ideal
import Idealize.ShloMosaic.Lib.ValueIdx

noncomputable section

namespace Cert.Layer

open Idealize.ShloMosaic Idealize.ShloMosaic.ValueIdx

/-- The index type of an `a × b` array. -/
abbrev I2 (a b : Nat) : Type := (⟨2, ![a, b]⟩ : Shape).Idx
/-- The index type of a vector of length `a`. -/
abbrev I1 (a : Nat) : Type := (⟨1, ![a]⟩ : Shape).Idx

/-- Rows of `x` times `W`: entry `(i, j)` is `∑ k, x (i, k) * W (k, j)`. -/
def mm (N K D : Nat) (x : I2 N K → EReal) (W : I2 K D → EReal) : I2 N D → EReal :=
  fun i => ∑ k : Fin K, x (ix2 (i 0) k) * W (ix2 k (i 1))

/-- Rows of `x` times `W` plus the one row of `b`. -/
def lin (N K D : Nat) (x : I2 N K → EReal) (W : I2 K D → EReal) (b : I2 1 D → EReal) : I2 N D → EReal :=
  fun i => mm N K D x W i + b (ix2 0 (i 1))

/-- Rows of `x` times `W` plus the vector `b`. -/
def linB (N K D : Nat) (x : I2 N K → EReal) (W : I2 K D → EReal) (b : I1 D → EReal) : I2 N D → EReal :=
  fun i => mm N K D x W i + b (ix1 (i 1))

/-- `tanh` of each entry plus the one row of `b`. -/
def actRow (N D : Nat) (a : I2 N D → EReal) (b : I2 1 D → EReal) : I2 N D → EReal :=
  fun i => Ideal.tanh (a i + b (ix2 0 (i 1)))

/-- `tanh` of each entry plus the vector `b`. -/
def act (N D : Nat) (a : I2 N D → EReal) (b : I1 D → EReal) : I2 N D → EReal :=
  fun i => Ideal.tanh (a i + b (ix1 (i 1)))

theorem mm_apply (N K D : Nat) (x : I2 N K → EReal) (W : I2 K D → EReal) (p : Fin N) (q : Fin D) :
    mm N K D x W (ix2 p q) = ∑ k : Fin K, x (ix2 p k) * W (ix2 k q) := rfl

theorem lin_apply (N K D : Nat) (x : I2 N K → EReal) (W : I2 K D → EReal) (b : I2 1 D → EReal) (p : Fin N) (q : Fin D) :
    lin N K D x W b (ix2 p q) = (∑ k : Fin K, x (ix2 p k) * W (ix2 k q)) + b (ix2 0 q) := rfl

theorem actRow_apply (N D : Nat) (a : I2 N D → EReal) (b : I2 1 D → EReal) (p : Fin N) (q : Fin D) :
    actRow N D a b (ix2 p q) = Ideal.tanh (a (ix2 p q) + b (ix2 0 q)) := rfl

/-- A bias row that is zero everywhere adds nothing: `x + 0 = x` on every extended real. -/
theorem lin_of_zero (N K D : Nat) (x : I2 N K → EReal) (W : I2 K D → EReal) (b : I2 1 D → EReal)
    (hb : ∀ j, b j = 0) : lin N K D x W b = mm N K D x W := by
  funext i
  show mm N K D x W i + b (ix2 0 (i 1)) = mm N K D x W i
  rw [hb, add_zero]

/-- A bias row that reads a vector (`b (0, j) = v j`) adds that vector. -/
theorem lin_row (N K D : Nat) (x : I2 N K → EReal) (W : I2 K D → EReal) (b : I2 1 D → EReal) (v : I1 D → EReal)
    (hb : ∀ q : Fin D, b (ix2 0 q) = v (ix1 q)) : lin N K D x W b = linB N K D x W v := by
  funext i
  exact congrArg (mm N K D x W i + ·) (hb (i 1))

/-- A bias row that reads a vector (`b (0, j) = v j`) activates with that vector. -/
theorem actRow_row (N D : Nat) (a : I2 N D → EReal) (b : I2 1 D → EReal) (v : I1 D → EReal)
    (hb : ∀ q : Fin D, b (ix2 0 q) = v (ix1 q)) : actRow N D a b = act N D a v := by
  funext i
  exact congrArg (fun z => Ideal.tanh (a i + z)) (hb (i 1))

end Cert.Layer

end
-- ==== Proof.KGlue.lean ====
/-
  The edge aggregation that both programs apply between a projection and an activation, named once so that no proof
  ever has to open it.

  From the edge list `e` (row 0 the sources, row 1 the destinations): `src e` and `dst e` append one self loop per node;
  `col s` is an index vector with a negative entry wrapped by the node count, as a column; `deg d` is
  `1 / sqrt` of each node's in-degree (a scatter-add of ones over the destinations); `norm s d` is the edge weight
  `deg[src] * deg[dst]`; and `aggD proj s d n` sums, into each destination node, the source node's row of `proj` times the
  edge weight — a gather of rows, a product with the weight broadcast along the row, a scatter-add of rows into zeros.
-/
import proofs.«109775_j67156108640501_1_alg».proof.Proof.Gen.KernelIdeal

noncomputable section

namespace Cert.KernelIdeal.Glue

open Cert.KernelIdeal Cert.KernelIdeal.Gen Idealize.ShloMosaic

variable {F : FTy → Type} [FloatOps F]

/-- The source node of every message: the edge list's row 0, then one self loop per node. -/
def src (e : (⟨S2x6400000, .i32⟩ : BufTy).Contents (Elt F)) : (⟨S6600000, .i32⟩ : BufTy).Contents (Elt F) :=
  concatenate S6600000 0 [⟨S6400000, (shapeCast _ (extractStridedSlice S1x6400000 ![0, 0] e slices_S2x6400000_S1x6400000_0_0) shapeCasts_S1x6400000_S6400000)⟩, ⟨S200000, (iotaInDim S200000 32 0)⟩] concatenates_S6400000_S200000_S6600000_d0

/-- The destination node of every message: the edge list's row 1, then one self loop per node. -/
def dst (e : (⟨S2x6400000, .i32⟩ : BufTy).Contents (Elt F)) : (⟨S6600000, .i32⟩ : BufTy).Contents (Elt F) :=
  concatenate S6600000 0 [⟨S6400000, (shapeCast _ (extractStridedSlice S1x6400000 ![1, 0] e slices_S2x6400000_S1x6400000_1_0) shapeCasts_S1x6400000_S6400000)⟩, ⟨S200000, (iotaInDim S200000 32 0)⟩] concatenates_S6400000_S200000_S6600000_d0

/-- A node index vector as a column of gather indices, a negative index wrapped by the node count. -/
def col (s : (⟨S6600000, .i32⟩ : BufTy).Contents (Elt F)) : (⟨S6600000x1, .i32⟩ : BufTy).Contents (Elt F) :=
  broadcastInDim S6600000x1 ![0] bcast_S6600000_S6600000x1_0 (select (cmpi .slt s (broadcastInDim S6600000 ![] bcast_S_S6600000 (constantI S_ 32 0#32))) (addi s (broadcastInDim S6600000 ![] bcast_S_S6600000 (constantI S_ 32 200000#32))) s)

/-- `1 / sqrt` of each node's in-degree: ones scatter-added over the destinations, then `rsqrt`. -/
def deg (d : (⟨S6600000, .i32⟩ : BufTy).Contents (Elt F)) : (⟨S200000, .f32⟩ : BufTy).Contents (Elt F) :=
  Host.rsqrt (Host.scatterAdd scatter_S200000_S6600000x1_S6600000_n_0_0_1 (broadcastInDim S200000 ![] bcast_S_S200000 (constant S_ .f32 0x00000000#32)) (broadcastInDim S6600000x1 ![0] bcast_S6600000_S6600000x1_0 d) (broadcastInDim S6600000 ![] bcast_S_S6600000 (constant S_ .f32 0x3F800000#32)))

/-- The weight of every message: `deg[src] * deg[dst]`. -/
def norm (s d : (⟨S6600000, .i32⟩ : BufTy).Contents (Elt F)) : (⟨S6600000, .f32⟩ : BufTy).Contents (Elt F) :=
  mulf (Host.gather gather_S200000_S6600000x1_S6600000_n_0_n_n_0_1_1 (deg d) (col s)) (Host.gather gather_S200000_S6600000x1_S6600000_n_0_n_n_0_1_1 (deg d) (col d))

/-- Width 10: each destination node's sum of its messages, a message being the source node's row times the edge weight. -/
def agg10 (proj : (⟨S200000x10, .f32⟩ : BufTy).Contents (Elt F)) (s d : (⟨S6600000, .i32⟩ : BufTy).Contents (Elt F))
    (n : (⟨S6600000, .f32⟩ : BufTy).Contents (Elt F)) : (⟨S200000x10, .f32⟩ : BufTy).Contents (Elt F) :=
  Host.scatterAdd scatter_S200000x10_S6600000x1_S6600000x10_1_0_0_1 (broadcastInDim S200000x10 ![] bcast_S_S200000x10 (constant S_ .f32 0x00000000#32)) (broadcastInDim S6600000x1 ![0] bcast_S6600000_S6600000x1_0 d) (mulf (Host.gather gather_S200000x10_S6600000x1_S6600000x10_1_0_n_n_0_1_110 proj (col s)) (broadcastInDim S6600000x10 ![0, 1] bcast_S6600000x1_S6600000x10_0_1 (broadcastInDim S6600000x1 ![0] bcast_S6600000_S6600000x1_0 n)))

/-- Width 5: the same aggregation. -/
def agg5 (proj : (⟨S200000x5, .f32⟩ : BufTy).Contents (Elt F)) (s d : (⟨S6600000, .i32⟩ : BufTy).Contents (Elt F))
    (n : (⟨S6600000, .f32⟩ : BufTy).Contents (Elt F)) : (⟨S200000x5, .f32⟩ : BufTy).Contents (Elt F) :=
  Host.scatterAdd scatter_S200000x5_S6600000x1_S6600000x5_1_0_0_1 (broadcastInDim S200000x5 ![] bcast_S_S200000x5 (constant S_ .f32 0x00000000#32)) (broadcastInDim S6600000x1 ![0] bcast_S6600000_S6600000x1_0 d) (mulf (Host.gather gather_S200000x5_S6600000x1_S6600000x5_1_0_n_n_0_1_15 proj (col s)) (broadcastInDim S6600000x5 ![0, 1] bcast_S6600000x1_S6600000x5_0_1 (broadcastInDim S6600000x1 ![0] bcast_S6600000_S6600000x1_0 n)))

/-- Width 2: the same aggregation. -/
def agg2 (proj : (⟨S200000x2, .f32⟩ : BufTy).Contents (Elt F)) (s d : (⟨S6600000, .i32⟩ : BufTy).Contents (Elt F))
    (n : (⟨S6600000, .f32⟩ : BufTy).Contents (Elt F)) : (⟨S200000x2, .f32⟩ : BufTy).Contents (Elt F) :=
  Host.scatterAdd scatter_S200000x2_S6600000x1_S6600000x2_1_0_0_1 (broadcastInDim S200000x2 ![] bcast_S_S200000x2 (constant S_ .f32 0x00000000#32)) (broadcastInDim S6600000x1 ![0] bcast_S6600000_S6600000x1_0 d) (mulf (Host.gather gather_S200000x2_S6600000x1_S6600000x2_1_0_n_n_0_1_12 proj (col s)) (broadcastInDim S6600000x2 ![0, 1] bcast_S6600000x1_S6600000x2_0_1 (broadcastInDim S6600000x1 ![0] bcast_S6600000_S6600000x1_0 n)))

end Cert.KernelIdeal.Glue

end
-- ==== Proof.KStage.lean ====
/-
  What each stretch of host operations leaves in the buffers that the next region reads, as a function of the
  contents at the boundary before the stretch.

  The first stretch computes, from the edge list, the message sources, the message destinations and the edge weights,
  and a bias row of zeros for the first projection. Each later stretch that follows a projection aggregates the
  projected rows over the edges (the shared edge aggregation, kept as one named function of the projected array, the
  sources, the destinations and the weights) and recasts a bias vector as a one-row matrix; each stretch that follows an
  activation only prepares the next projection's bias row of zeros (or, for the classifier, recasts its bias vector).
  Every equation is the stretch's operations read off one after the other at the buffer in question.
-/
import proofs.«109775_j67156108640501_1_alg».proof.Proof.Gen.KernelIdeal.Frame
import proofs.«109775_j67156108640501_1_alg».proof.Proof.KGlue
import Idealize.ShloMosaic.Lib.StableHlo.Run

noncomputable section

namespace Cert.KernelIdeal.Stage

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-! ## The first stretch: sources, destinations, weights, and a zero bias row -/

/-- The message sources are computed from the edge list. -/
theorem src_at_1 : W1 m ρ c (Proc.devRef .tc main_v3) = Glue.src (m ((c : Thread nD τ).loc main_arg1)) := by
  show StableHlo.after hostOps0 (W0 m ρ c) (Proc.devRef .tc main_v3) = _
  after_results_simp
  try rfl

/-- The message destinations are computed from the edge list. -/
theorem dst_at_1 : W1 m ρ c (Proc.devRef .tc main_v6) = Glue.dst (m ((c : Thread nD τ).loc main_arg1)) := by
  show StableHlo.after hostOps0 (W0 m ρ c) (Proc.devRef .tc main_v6) = _
  after_results_simp
  try rfl

set_option maxRecDepth 8192 in
/-- The edge weights: the inverse square roots of the two end nodes' degrees, multiplied. -/
theorem norm_at_1 : W1 m ρ c (Proc.devRef .tc main_v26) = Glue.norm (Glue.src (m ((c : Thread nD τ).loc main_arg1))) (Glue.dst (m ((c : Thread nD τ).loc main_arg1))) := by
  show StableHlo.after hostOps0 (W0 m ρ c) (Proc.devRef .tc main_v26) = _
  after_results_simp
  try rfl

/-- The first projection's bias row is zeros. -/
theorem zrow10_at_1 : W1 m ρ c (Proc.devRef .tc main_v28) = shapeCast _ (broadcastInDim S10 ![] bcast_S_S10 (constant (F := F) S_ .f32 0x00000000#32)) shapeCasts_S10_S1x10 := by
  show StableHlo.after hostOps0 (W0 m ρ c) (Proc.devRef .tc main_v28) = _
  after_results_simp
  try rfl

/-! ## After the first projection -/

/-- The projected rows aggregated over the edges. -/
theorem agg_at_3 : W3 m ρ c (Proc.devRef .tc main_v42) = Glue.agg10 (W2 m ρ c (Proc.devRef .tc main_v29)) (W2 m ρ c (Proc.devRef .tc main_v3)) (W2 m ρ c (Proc.devRef .tc main_v6)) (W2 m ρ c (Proc.devRef .tc main_v26)) := by
  show StableHlo.after hostOps1 (W2 m ρ c) (Proc.devRef .tc main_v42) = _
  after_results_simp
  try rfl

/-- The first bias vector as a one-row matrix. -/
theorem brow_at_3 : W3 m ρ c (Proc.devRef .tc main_v43) = shapeCast _ (W2 m ρ c (Proc.devRef .tc main_arg3)) shapeCasts_S10_S1x10 := by
  show StableHlo.after hostOps1 (W2 m ρ c) (Proc.devRef .tc main_v43) = _
  after_results_simp
  try rfl

/-- The second projection's bias row is zeros. -/
theorem zrow5_at_5 : W5 m ρ c (Proc.devRef .tc main_v46) = shapeCast _ (broadcastInDim S5 ![] bcast_S_S5 (constant (F := F) S_ .f32 0x00000000#32)) shapeCasts_S5_S1x5 := by
  show StableHlo.after hostOps2 (W4 m ρ c) (Proc.devRef .tc main_v46) = _
  after_results_simp
  try rfl

/-! ## After the second projection -/

/-- The projected rows aggregated over the edges. -/
theorem agg_at_7 : W7 m ρ c (Proc.devRef .tc main_v60) = Glue.agg5 (W6 m ρ c (Proc.devRef .tc main_v47)) (W6 m ρ c (Proc.devRef .tc main_v3)) (W6 m ρ c (Proc.devRef .tc main_v6)) (W6 m ρ c (Proc.devRef .tc main_v26)) := by
  show StableHlo.after hostOps3 (W6 m ρ c) (Proc.devRef .tc main_v60) = _
  after_results_simp
  try rfl

/-- The second bias vector as a one-row matrix. -/
theorem brow_at_7 : W7 m ρ c (Proc.devRef .tc main_v61) = shapeCast _ (W6 m ρ c (Proc.devRef .tc main_arg5)) shapeCasts_S5_S1x5 := by
  show StableHlo.after hostOps3 (W6 m ρ c) (Proc.devRef .tc main_v61) = _
  after_results_simp
  try rfl

/-- The third projection's bias row is zeros. -/
theorem zrow2_at_9 : W9 m ρ c (Proc.devRef .tc main_v64) = shapeCast _ (broadcastInDim S2 ![] bcast_S_S2 (constant (F := F) S_ .f32 0x00000000#32)) shapeCasts_S2_S1x2 := by
  show StableHlo.after hostOps4 (W8 m ρ c) (Proc.devRef .tc main_v64) = _
  after_results_simp
  try rfl

/-! ## After the third projection -/

/-- The projected rows aggregated over the edges. -/
theorem agg_at_11 : W11 m ρ c (Proc.devRef .tc main_v78) = Glue.agg2 (W10 m ρ c (Proc.devRef .tc main_v65)) (W10 m ρ c (Proc.devRef .tc main_v3)) (W10 m ρ c (Proc.devRef .tc main_v6)) (W10 m ρ c (Proc.devRef .tc main_v26)) := by
  show StableHlo.after hostOps5 (W10 m ρ c) (Proc.devRef .tc main_v78) = _
  after_results_simp
  try rfl

/-- The third bias vector as a one-row matrix. -/
theorem brow_at_11 : W11 m ρ c (Proc.devRef .tc main_v79) = shapeCast _ (W10 m ρ c (Proc.devRef .tc main_arg7)) shapeCasts_S2_S1x2 := by
  show StableHlo.after hostOps5 (W10 m ρ c) (Proc.devRef .tc main_v79) = _
  after_results_simp
  try rfl

/-- The classifier's bias vector as a one-row matrix. -/
theorem crow_at_13 : W13 m ρ c (Proc.devRef .tc main_v81) = shapeCast _ (W12 m ρ c (Proc.devRef .tc main_arg9)) shapeCasts_S2_S1x2 := by
  show StableHlo.after hostOps6 (W12 m ρ c) (Proc.devRef .tc main_v81) = _
  after_results_simp
  try rfl

end Cert.KernelIdeal.Stage

end
-- ==== Proof.KKeep.lean ====
/-
  Which buffers of the kernel's @main still hold, at a later point of the run, what they held earlier.

  The run alternates stretches of host operations with pipelined regions. A host operation rewrites exactly one
  buffer, its result, and leaves every other buffer as it was; a region rewrites the arrays of its own windows
  (its inputs it leaves as entered, its output it fills) and nothing else. So a buffer that is the result of no
  operation in a stretch passes that stretch unchanged, and a buffer that is no window's array of a region passes
  that region unchanged. Composing these one boundary at a time gives, for every buffer a LATER stretch or region
  reads, an equation between its contents where it is read and its contents where it was last written:

  * the two index vectors `main_v3`, `main_v6` and the weight vector `main_v26`, computed once by the first
    stretch and read again by the stretches before regions 1, 3 and 5: nothing after the first stretch writes
    them, so at each of those stretches' entries they are what the first stretch left;
  * the arguments `main_arg0`, `main_arg2` … `main_arg9`: no host operation has an argument as its result, and a region has
    an argument at most as an INPUT window, and only from the boundary where that argument is first read, so up to
    that boundary each argument is the launch memory's;
  * the three region outputs `main_v44`, `main_v62`, `main_v80`, each carried across the short stretch between
    the region that produces it and the region that consumes it.
-/
import proofs.«109775_j67156108640501_1_alg».proof.Proof.Gen.KernelIdeal.Frame
import Idealize.ShloMosaic.Lib.StableHlo.Run
noncomputable section
namespace Cert.KernelIdeal.Keep
open Cert.KernelIdeal Cert.KernelIdeal.Gen Idealize.ShloMosaic Idealize.ShloMosaic.TcCoe Idealize.SL.Sem Idealize.ShloMosaic.StableHlo
variable {F : FTy → Type} [FloatOps F] (m : (ℓ : Loc nD τ sig) → Buf (Elt F) ℓ) (ρ : Dev nD → PrngReg) (c : Dev nD)

/-! ## The vectors of the first stretch

`main_v3`, `main_v6` and `main_v26` are results of the first stretch only. From its exit (boundary 1) on, every
stretch writes other buffers and every region's windows are other arrays, so the contents at boundary 1 are still
there at each later boundary; the chain is taken as far as boundary 10, the entry of the last stretch that reads
them. -/

theorem v3_at_2 : W2 m ρ c (Proc.devRef .tc main_v3) = W1 m ρ c (Proc.devRef .tc main_v3) :=
  (W2_of_ne m ρ c main_v3 (by decide))
theorem v3_at_3 : W3 m ρ c (Proc.devRef .tc main_v3) = W1 m ρ c (Proc.devRef .tc main_v3) := by
  refine Eq.trans ?_ (v3_at_2 m ρ c)
  show StableHlo.after hostOps1 (W2 m ρ c) (Proc.devRef .tc main_v3) = _
  after_results_simp
theorem v3_at_4 : W4 m ρ c (Proc.devRef .tc main_v3) = W1 m ρ c (Proc.devRef .tc main_v3) :=
  (W4_of_ne m ρ c main_v3 (by decide)).trans (v3_at_3 m ρ c)
theorem v3_at_5 : W5 m ρ c (Proc.devRef .tc main_v3) = W1 m ρ c (Proc.devRef .tc main_v3) := by
  refine Eq.trans ?_ (v3_at_4 m ρ c)
  show StableHlo.after hostOps2 (W4 m ρ c) (Proc.devRef .tc main_v3) = _
  after_results_simp
theorem v3_at_6 : W6 m ρ c (Proc.devRef .tc main_v3) = W1 m ρ c (Proc.devRef .tc main_v3) :=
  (W6_of_ne m ρ c main_v3 (by decide)).trans (v3_at_5 m ρ c)
theorem v3_at_7 : W7 m ρ c (Proc.devRef .tc main_v3) = W1 m ρ c (Proc.devRef .tc main_v3) := by
  refine Eq.trans ?_ (v3_at_6 m ρ c)
  show StableHlo.after hostOps3 (W6 m ρ c) (Proc.devRef .tc main_v3) = _
  after_results_simp
theorem v3_at_8 : W8 m ρ c (Proc.devRef .tc main_v3) = W1 m ρ c (Proc.devRef .tc main_v3) :=
  (W8_of_ne m ρ c main_v3 (by decide)).trans (v3_at_7 m ρ c)
theorem v3_at_9 : W9 m ρ c (Proc.devRef .tc main_v3) = W1 m ρ c (Proc.devRef .tc main_v3) := by
  refine Eq.trans ?_ (v3_at_8 m ρ c)
  show StableHlo.after hostOps4 (W8 m ρ c) (Proc.devRef .tc main_v3) = _
  after_results_simp
theorem v3_at_10 : W10 m ρ c (Proc.devRef .tc main_v3) = W1 m ρ c (Proc.devRef .tc main_v3) :=
  (W10_of_ne m ρ c main_v3 (by decide)).trans (v3_at_9 m ρ c)

theorem v6_at_2 : W2 m ρ c (Proc.devRef .tc main_v6) = W1 m ρ c (Proc.devRef .tc main_v6) :=
  (W2_of_ne m ρ c main_v6 (by decide))
theorem v6_at_3 : W3 m ρ c (Proc.devRef .tc main_v6) = W1 m ρ c (Proc.devRef .tc main_v6) := by
  refine Eq.trans ?_ (v6_at_2 m ρ c)
  show StableHlo.after hostOps1 (W2 m ρ c) (Proc.devRef .tc main_v6) = _
  after_results_simp
theorem v6_at_4 : W4 m ρ c (Proc.devRef .tc main_v6) = W1 m ρ c (Proc.devRef .tc main_v6) :=
  (W4_of_ne m ρ c main_v6 (by decide)).trans (v6_at_3 m ρ c)
theorem v6_at_5 : W5 m ρ c (Proc.devRef .tc main_v6) = W1 m ρ c (Proc.devRef .tc main_v6) := by
  refine Eq.trans ?_ (v6_at_4 m ρ c)
  show StableHlo.after hostOps2 (W4 m ρ c) (Proc.devRef .tc main_v6) = _
  after_results_simp
theorem v6_at_6 : W6 m ρ c (Proc.devRef .tc main_v6) = W1 m ρ c (Proc.devRef .tc main_v6) :=
  (W6_of_ne m ρ c main_v6 (by decide)).trans (v6_at_5 m ρ c)
theorem v6_at_7 : W7 m ρ c (Proc.devRef .tc main_v6) = W1 m ρ c (Proc.devRef .tc main_v6) := by
  refine Eq.trans ?_ (v6_at_6 m ρ c)
  show StableHlo.after hostOps3 (W6 m ρ c) (Proc.devRef .tc main_v6) = _
  after_results_simp
theorem v6_at_8 : W8 m ρ c (Proc.devRef .tc main_v6) = W1 m ρ c (Proc.devRef .tc main_v6) :=
  (W8_of_ne m ρ c main_v6 (by decide)).trans (v6_at_7 m ρ c)
theorem v6_at_9 : W9 m ρ c (Proc.devRef .tc main_v6) = W1 m ρ c (Proc.devRef .tc main_v6) := by
  refine Eq.trans ?_ (v6_at_8 m ρ c)
  show StableHlo.after hostOps4 (W8 m ρ c) (Proc.devRef .tc main_v6) = _
  after_results_simp
theorem v6_at_10 : W10 m ρ c (Proc.devRef .tc main_v6) = W1 m ρ c (Proc.devRef .tc main_v6) :=
  (W10_of_ne m ρ c main_v6 (by decide)).trans (v6_at_9 m ρ c)

theorem v26_at_2 : W2 m ρ c (Proc.devRef .tc main_v26) = W1 m ρ c (Proc.devRef .tc main_v26) :=
  (W2_of_ne m ρ c main_v26 (by decide))
theorem v26_at_3 : W3 m ρ c (Proc.devRef .tc main_v26) = W1 m ρ c (Proc.devRef .tc main_v26) := by
  refine Eq.trans ?_ (v26_at_2 m ρ c)
  show StableHlo.after hostOps1 (W2 m ρ c) (Proc.devRef .tc main_v26) = _
  after_results_simp
theorem v26_at_4 : W4 m ρ c (Proc.devRef .tc main_v26) = W1 m ρ c (Proc.devRef .tc main_v26) :=
  (W4_of_ne m ρ c main_v26 (by decide)).trans (v26_at_3 m ρ c)
theorem v26_at_5 : W5 m ρ c (Proc.devRef .tc main_v26) = W1 m ρ c (Proc.devRef .tc main_v26) := by
  refine Eq.trans ?_ (v26_at_4 m ρ c)
  show StableHlo.after hostOps2 (W4 m ρ c) (Proc.devRef .tc main_v26) = _
  after_results_simp
theorem v26_at_6 : W6 m ρ c (Proc.devRef .tc main_v26) = W1 m ρ c (Proc.devRef .tc main_v26) :=
  (W6_of_ne m ρ c main_v26 (by decide)).trans (v26_at_5 m ρ c)
theorem v26_at_7 : W7 m ρ c (Proc.devRef .tc main_v26) = W1 m ρ c (Proc.devRef .tc main_v26) := by
  refine Eq.trans ?_ (v26_at_6 m ρ c)
  show StableHlo.after hostOps3 (W6 m ρ c) (Proc.devRef .tc main_v26) = _
  after_results_simp
theorem v26_at_8 : W8 m ρ c (Proc.devRef .tc main_v26) = W1 m ρ c (Proc.devRef .tc main_v26) :=
  (W8_of_ne m ρ c main_v26 (by decide)).trans (v26_at_7 m ρ c)
theorem v26_at_9 : W9 m ρ c (Proc.devRef .tc main_v26) = W1 m ρ c (Proc.devRef .tc main_v26) := by
  refine Eq.trans ?_ (v26_at_8 m ρ c)
  show StableHlo.after hostOps4 (W8 m ρ c) (Proc.devRef .tc main_v26) = _
  after_results_simp
theorem v26_at_10 : W10 m ρ c (Proc.devRef .tc main_v26) = W1 m ρ c (Proc.devRef .tc main_v26) :=
  (W10_of_ne m ρ c main_v26 (by decide)).trans (v26_at_9 m ρ c)

/-! ## The arguments

At launch an argument's buffer is the launch memory's (by definition of the launch contents). No host operation
writes an argument, and before the boundary named in each final statement no region has that argument among its
windows: the contents there are the launch memory's. -/

theorem arg0_at_1 : W1 m ρ c (Proc.devRef .tc main_arg0) = m ((c : Thread nD τ).loc main_arg0) := by
  refine Eq.trans ?_ (rfl : W0 m ρ c (Proc.devRef .tc main_arg0) = m ((c : Thread nD τ).loc main_arg0))
  show StableHlo.after hostOps0 (W0 m ρ c) (Proc.devRef .tc main_arg0) = _
  after_results_simp

theorem arg2_at_1 : W1 m ρ c (Proc.devRef .tc main_arg2) = m ((c : Thread nD τ).loc main_arg2) := by
  refine Eq.trans ?_ (rfl : W0 m ρ c (Proc.devRef .tc main_arg2) = m ((c : Thread nD τ).loc main_arg2))
  show StableHlo.after hostOps0 (W0 m ρ c) (Proc.devRef .tc main_arg2) = _
  after_results_simp

theorem arg3_at_1 : W1 m ρ c (Proc.devRef .tc main_arg3) = m ((c : Thread nD τ).loc main_arg3) := by
  refine Eq.trans ?_ (rfl : W0 m ρ c (Proc.devRef .tc main_arg3) = m ((c : Thread nD τ).loc main_arg3))
  show StableHlo.after hostOps0 (W0 m ρ c) (Proc.devRef .tc main_arg3) = _
  after_results_simp
theorem arg3_at_2 : W2 m ρ c (Proc.devRef .tc main_arg3) = m ((c : Thread nD τ).loc main_arg3) :=
  (W2_of_ne m ρ c main_arg3 (by decide)).trans (arg3_at_1 m ρ c)

theorem arg4_at_1 : W1 m ρ c (Proc.devRef .tc main_arg4) = m ((c : Thread nD τ).loc main_arg4) := by
  refine Eq.trans ?_ (rfl : W0 m ρ c (Proc.devRef .tc main_arg4) = m ((c : Thread nD τ).loc main_arg4))
  show StableHlo.after hostOps0 (W0 m ρ c) (Proc.devRef .tc main_arg4) = _
  after_results_simp
theorem arg4_at_2 : W2 m ρ c (Proc.devRef .tc main_arg4) = m ((c : Thread nD τ).loc main_arg4) :=
  (W2_of_ne m ρ c main_arg4 (by decide)).trans (arg4_at_1 m ρ c)
theorem arg4_at_3 : W3 m ρ c (Proc.devRef .tc main_arg4) = m ((c : Thread nD τ).loc main_arg4) := by
  refine Eq.trans ?_ (arg4_at_2 m ρ c)
  show StableHlo.after hostOps1 (W2 m ρ c) (Proc.devRef .tc main_arg4) = _
  after_results_simp
theorem arg4_at_4 : W4 m ρ c (Proc.devRef .tc main_arg4) = m ((c : Thread nD τ).loc main_arg4) :=
  (W4_of_ne m ρ c main_arg4 (by decide)).trans (arg4_at_3 m ρ c)
theorem arg4_at_5 : W5 m ρ c (Proc.devRef .tc main_arg4) = m ((c : Thread nD τ).loc main_arg4) := by
  refine Eq.trans ?_ (arg4_at_4 m ρ c)
  show StableHlo.after hostOps2 (W4 m ρ c) (Proc.devRef .tc main_arg4) = _
  after_results_simp

theorem arg5_at_1 : W1 m ρ c (Proc.devRef .tc main_arg5) = m ((c : Thread nD τ).loc main_arg5) := by
  refine Eq.trans ?_ (rfl : W0 m ρ c (Proc.devRef .tc main_arg5) = m ((c : Thread nD τ).loc main_arg5))
  show StableHlo.after hostOps0 (W0 m ρ c) (Proc.devRef .tc main_arg5) = _
  after_results_simp
theorem arg5_at_2 : W2 m ρ c (Proc.devRef .tc main_arg5) = m ((c : Thread nD τ).loc main_arg5) :=
  (W2_of_ne m ρ c main_arg5 (by decide)).trans (arg5_at_1 m ρ c)
theorem arg5_at_3 : W3 m ρ c (Proc.devRef .tc main_arg5) = m ((c : Thread nD τ).loc main_arg5) := by
  refine Eq.trans ?_ (arg5_at_2 m ρ c)
  show StableHlo.after hostOps1 (W2 m ρ c) (Proc.devRef .tc main_arg5) = _
  after_results_simp
theorem arg5_at_4 : W4 m ρ c (Proc.devRef .tc main_arg5) = m ((c : Thread nD τ).loc main_arg5) :=
  (W4_of_ne m ρ c main_arg5 (by decide)).trans (arg5_at_3 m ρ c)
theorem arg5_at_5 : W5 m ρ c (Proc.devRef .tc main_arg5) = m ((c : Thread nD τ).loc main_arg5) := by
  refine Eq.trans ?_ (arg5_at_4 m ρ c)
  show StableHlo.after hostOps2 (W4 m ρ c) (Proc.devRef .tc main_arg5) = _
  after_results_simp
theorem arg5_at_6 : W6 m ρ c (Proc.devRef .tc main_arg5) = m ((c : Thread nD τ).loc main_arg5) :=
  (W6_of_ne m ρ c main_arg5 (by decide)).trans (arg5_at_5 m ρ c)

theorem arg6_at_1 : W1 m ρ c (Proc.devRef .tc main_arg6) = m ((c : Thread nD τ).loc main_arg6) := by
  refine Eq.trans ?_ (rfl : W0 m ρ c (Proc.devRef .tc main_arg6) = m ((c : Thread nD τ).loc main_arg6))
  show StableHlo.after hostOps0 (W0 m ρ c) (Proc.devRef .tc main_arg6) = _
  after_results_simp
theorem arg6_at_2 : W2 m ρ c (Proc.devRef .tc main_arg6) = m ((c : Thread nD τ).loc main_arg6) :=
  (W2_of_ne m ρ c main_arg6 (by decide)).trans (arg6_at_1 m ρ c)
theorem arg6_at_3 : W3 m ρ c (Proc.devRef .tc main_arg6) = m ((c : Thread nD τ).loc main_arg6) := by
  refine Eq.trans ?_ (arg6_at_2 m ρ c)
  show StableHlo.after hostOps1 (W2 m ρ c) (Proc.devRef .tc main_arg6) = _
  after_results_simp
theorem arg6_at_4 : W4 m ρ c (Proc.devRef .tc main_arg6) = m ((c : Thread nD τ).loc main_arg6) :=
  (W4_of_ne m ρ c main_arg6 (by decide)).trans (arg6_at_3 m ρ c)
theorem arg6_at_5 : W5 m ρ c (Proc.devRef .tc main_arg6) = m ((c : Thread nD τ).loc main_arg6) := by
  refine Eq.trans ?_ (arg6_at_4 m ρ c)
  show StableHlo.after hostOps2 (W4 m ρ c) (Proc.devRef .tc main_arg6) = _
  after_results_simp
theorem arg6_at_6 : W6 m ρ c (Proc.devRef .tc main_arg6) = m ((c : Thread nD τ).loc main_arg6) :=
  (W6_of_ne m ρ c main_arg6 (by decide)).trans (arg6_at_5 m ρ c)
theorem arg6_at_7 : W7 m ρ c (Proc.devRef .tc main_arg6) = m ((c : Thread nD τ).loc main_arg6) := by
  refine Eq.trans ?_ (arg6_at_6 m ρ c)
  show StableHlo.after hostOps3 (W6 m ρ c) (Proc.devRef .tc main_arg6) = _
  after_results_simp
theorem arg6_at_8 : W8 m ρ c (Proc.devRef .tc main_arg6) = m ((c : Thread nD τ).loc main_arg6) :=
  (W8_of_ne m ρ c main_arg6 (by decide)).trans (arg6_at_7 m ρ c)
theorem arg6_at_9 : W9 m ρ c (Proc.devRef .tc main_arg6) = m ((c : Thread nD τ).loc main_arg6) := by
  refine Eq.trans ?_ (arg6_at_8 m ρ c)
  show StableHlo.after hostOps4 (W8 m ρ c) (Proc.devRef .tc main_arg6) = _
  after_results_simp

theorem arg7_at_1 : W1 m ρ c (Proc.devRef .tc main_arg7) = m ((c : Thread nD τ).loc main_arg7) := by
  refine Eq.trans ?_ (rfl : W0 m ρ c (Proc.devRef .tc main_arg7) = m ((c : Thread nD τ).loc main_arg7))
  show StableHlo.after hostOps0 (W0 m ρ c) (Proc.devRef .tc main_arg7) = _
  after_results_simp
theorem arg7_at_2 : W2 m ρ c (Proc.devRef .tc main_arg7) = m ((c : Thread nD τ).loc main_arg7) :=
  (W2_of_ne m ρ c main_arg7 (by decide)).trans (arg7_at_1 m ρ c)
theorem arg7_at_3 : W3 m ρ c (Proc.devRef .tc main_arg7) = m ((c : Thread nD τ).loc main_arg7) := by
  refine Eq.trans ?_ (arg7_at_2 m ρ c)
  show StableHlo.after hostOps1 (W2 m ρ c) (Proc.devRef .tc main_arg7) = _
  after_results_simp
theorem arg7_at_4 : W4 m ρ c (Proc.devRef .tc main_arg7) = m ((c : Thread nD τ).loc main_arg7) :=
  (W4_of_ne m ρ c main_arg7 (by decide)).trans (arg7_at_3 m ρ c)
theorem arg7_at_5 : W5 m ρ c (Proc.devRef .tc main_arg7) = m ((c : Thread nD τ).loc main_arg7) := by
  refine Eq.trans ?_ (arg7_at_4 m ρ c)
  show StableHlo.after hostOps2 (W4 m ρ c) (Proc.devRef .tc main_arg7) = _
  after_results_simp
theorem arg7_at_6 : W6 m ρ c (Proc.devRef .tc main_arg7) = m ((c : Thread nD τ).loc main_arg7) :=
  (W6_of_ne m ρ c main_arg7 (by decide)).trans (arg7_at_5 m ρ c)
theorem arg7_at_7 : W7 m ρ c (Proc.devRef .tc main_arg7) = m ((c : Thread nD τ).loc main_arg7) := by
  refine Eq.trans ?_ (arg7_at_6 m ρ c)
  show StableHlo.after hostOps3 (W6 m ρ c) (Proc.devRef .tc main_arg7) = _
  after_results_simp
theorem arg7_at_8 : W8 m ρ c (Proc.devRef .tc main_arg7) = m ((c : Thread nD τ).loc main_arg7) :=
  (W8_of_ne m ρ c main_arg7 (by decide)).trans (arg7_at_7 m ρ c)
theorem arg7_at_9 : W9 m ρ c (Proc.devRef .tc main_arg7) = m ((c : Thread nD τ).loc main_arg7) := by
  refine Eq.trans ?_ (arg7_at_8 m ρ c)
  show StableHlo.after hostOps4 (W8 m ρ c) (Proc.devRef .tc main_arg7) = _
  after_results_simp
theorem arg7_at_10 : W10 m ρ c (Proc.devRef .tc main_arg7) = m ((c : Thread nD τ).loc main_arg7) :=
  (W10_of_ne m ρ c main_arg7 (by decide)).trans (arg7_at_9 m ρ c)

theorem arg9_at_1 : W1 m ρ c (Proc.devRef .tc main_arg9) = m ((c : Thread nD τ).loc main_arg9) := by
  refine Eq.trans ?_ (rfl : W0 m ρ c (Proc.devRef .tc main_arg9) = m ((c : Thread nD τ).loc main_arg9))
  show StableHlo.after hostOps0 (W0 m ρ c) (Proc.devRef .tc main_arg9) = _
  after_results_simp
theorem arg9_at_2 : W2 m ρ c (Proc.devRef .tc main_arg9) = m ((c : Thread nD τ).loc main_arg9) :=
  (W2_of_ne m ρ c main_arg9 (by decide)).trans (arg9_at_1 m ρ c)
theorem arg9_at_3 : W3 m ρ c (Proc.devRef .tc main_arg9) = m ((c : Thread nD τ).loc main_arg9) := by
  refine Eq.trans ?_ (arg9_at_2 m ρ c)
  show StableHlo.after hostOps1 (W2 m ρ c) (Proc.devRef .tc main_arg9) = _
  after_results_simp
theorem arg9_at_4 : W4 m ρ c (Proc.devRef .tc main_arg9) = m ((c : Thread nD τ).loc main_arg9) :=
  (W4_of_ne m ρ c main_arg9 (by decide)).trans (arg9_at_3 m ρ c)
theorem arg9_at_5 : W5 m ρ c (Proc.devRef .tc main_arg9) = m ((c : Thread nD τ).loc main_arg9) := by
  refine Eq.trans ?_ (arg9_at_4 m ρ c)
  show StableHlo.after hostOps2 (W4 m ρ c) (Proc.devRef .tc main_arg9) = _
  after_results_simp
theorem arg9_at_6 : W6 m ρ c (Proc.devRef .tc main_arg9) = m ((c : Thread nD τ).loc main_arg9) :=
  (W6_of_ne m ρ c main_arg9 (by decide)).trans (arg9_at_5 m ρ c)
theorem arg9_at_7 : W7 m ρ c (Proc.devRef .tc main_arg9) = m ((c : Thread nD τ).loc main_arg9) := by
  refine Eq.trans ?_ (arg9_at_6 m ρ c)
  show StableHlo.after hostOps3 (W6 m ρ c) (Proc.devRef .tc main_arg9) = _
  after_results_simp
theorem arg9_at_8 : W8 m ρ c (Proc.devRef .tc main_arg9) = m ((c : Thread nD τ).loc main_arg9) :=
  (W8_of_ne m ρ c main_arg9 (by decide)).trans (arg9_at_7 m ρ c)
theorem arg9_at_9 : W9 m ρ c (Proc.devRef .tc main_arg9) = m ((c : Thread nD τ).loc main_arg9) := by
  refine Eq.trans ?_ (arg9_at_8 m ρ c)
  show StableHlo.after hostOps4 (W8 m ρ c) (Proc.devRef .tc main_arg9) = _
  after_results_simp
theorem arg9_at_10 : W10 m ρ c (Proc.devRef .tc main_arg9) = m ((c : Thread nD τ).loc main_arg9) :=
  (W10_of_ne m ρ c main_arg9 (by decide)).trans (arg9_at_9 m ρ c)
theorem arg9_at_11 : W11 m ρ c (Proc.devRef .tc main_arg9) = m ((c : Thread nD τ).loc main_arg9) := by
  refine Eq.trans ?_ (arg9_at_10 m ρ c)
  show StableHlo.after hostOps5 (W10 m ρ c) (Proc.devRef .tc main_arg9) = _
  after_results_simp
theorem arg9_at_12 : W12 m ρ c (Proc.devRef .tc main_arg9) = m ((c : Thread nD τ).loc main_arg9) :=
  (W12_of_ne m ρ c main_arg9 (by decide)).trans (arg9_at_11 m ρ c)

theorem arg8_at_1 : W1 m ρ c (Proc.devRef .tc main_arg8) = m ((c : Thread nD τ).loc main_arg8) := by
  refine Eq.trans ?_ (rfl : W0 m ρ c (Proc.devRef .tc main_arg8) = m ((c : Thread nD τ).loc main_arg8))
  show StableHlo.after hostOps0 (W0 m ρ c) (Proc.devRef .tc main_arg8) = _
  after_results_simp
theorem arg8_at_2 : W2 m ρ c (Proc.devRef .tc main_arg8) = m ((c : Thread nD τ).loc main_arg8) :=
  (W2_of_ne m ρ c main_arg8 (by decide)).trans (arg8_at_1 m ρ c)
theorem arg8_at_3 : W3 m ρ c (Proc.devRef .tc main_arg8) = m ((c : Thread nD τ).loc main_arg8) := by
  refine Eq.trans ?_ (arg8_at_2 m ρ c)
  show StableHlo.after hostOps1 (W2 m ρ c) (Proc.devRef .tc main_arg8) = _
  after_results_simp
theorem arg8_at_4 : W4 m ρ c (Proc.devRef .tc main_arg8) = m ((c : Thread nD τ).loc main_arg8) :=
  (W4_of_ne m ρ c main_arg8 (by decide)).trans (arg8_at_3 m ρ c)
theorem arg8_at_5 : W5 m ρ c (Proc.devRef .tc main_arg8) = m ((c : Thread nD τ).loc main_arg8) := by
  refine Eq.trans ?_ (arg8_at_4 m ρ c)
  show StableHlo.after hostOps2 (W4 m ρ c) (Proc.devRef .tc main_arg8) = _
  after_results_simp
theorem arg8_at_6 : W6 m ρ c (Proc.devRef .tc main_arg8) = m ((c : Thread nD τ).loc main_arg8) :=
  (W6_of_ne m ρ c main_arg8 (by decide)).trans (arg8_at_5 m ρ c)
theorem arg8_at_7 : W7 m ρ c (Proc.devRef .tc main_arg8) = m ((c : Thread nD τ).loc main_arg8) := by
  refine Eq.trans ?_ (arg8_at_6 m ρ c)
  show StableHlo.after hostOps3 (W6 m ρ c) (Proc.devRef .tc main_arg8) = _
  after_results_simp
theorem arg8_at_8 : W8 m ρ c (Proc.devRef .tc main_arg8) = m ((c : Thread nD τ).loc main_arg8) :=
  (W8_of_ne m ρ c main_arg8 (by decide)).trans (arg8_at_7 m ρ c)
theorem arg8_at_9 : W9 m ρ c (Proc.devRef .tc main_arg8) = m ((c : Thread nD τ).loc main_arg8) := by
  refine Eq.trans ?_ (arg8_at_8 m ρ c)
  show StableHlo.after hostOps4 (W8 m ρ c) (Proc.devRef .tc main_arg8) = _
  after_results_simp
theorem arg8_at_10 : W10 m ρ c (Proc.devRef .tc main_arg8) = m ((c : Thread nD τ).loc main_arg8) :=
  (W10_of_ne m ρ c main_arg8 (by decide)).trans (arg8_at_9 m ρ c)
theorem arg8_at_11 : W11 m ρ c (Proc.devRef .tc main_arg8) = m ((c : Thread nD τ).loc main_arg8) := by
  refine Eq.trans ?_ (arg8_at_10 m ρ c)
  show StableHlo.after hostOps5 (W10 m ρ c) (Proc.devRef .tc main_arg8) = _
  after_results_simp
theorem arg8_at_12 : W12 m ρ c (Proc.devRef .tc main_arg8) = m ((c : Thread nD τ).loc main_arg8) :=
  (W12_of_ne m ρ c main_arg8 (by decide)).trans (arg8_at_11 m ρ c)
theorem arg8_at_13 : W13 m ρ c (Proc.devRef .tc main_arg8) = m ((c : Thread nD τ).loc main_arg8) := by
  refine Eq.trans ?_ (arg8_at_12 m ρ c)
  show StableHlo.after hostOps6 (W12 m ρ c) (Proc.devRef .tc main_arg8) = _
  after_results_simp

/-! ## A region's output across the stretch before its consumer

The stretch between regions 1 and 2 (respectively 3 and 4, 5 and 6) only prepares a bias row in buffers of its
own; the output of the earlier region is not among its results. -/

theorem v44_at_5 : W5 m ρ c (Proc.devRef .tc main_v44) = W4 m ρ c (Proc.devRef .tc main_v44) := by
  show StableHlo.after hostOps2 (W4 m ρ c) (Proc.devRef .tc main_v44) = _
  after_results_simp
theorem v62_at_9 : W9 m ρ c (Proc.devRef .tc main_v62) = W8 m ρ c (Proc.devRef .tc main_v62) := by
  show StableHlo.after hostOps4 (W8 m ρ c) (Proc.devRef .tc main_v62) = _
  after_results_simp
theorem v80_at_13 : W13 m ρ c (Proc.devRef .tc main_v80) = W12 m ρ c (Proc.devRef .tc main_v80) := by
  show StableHlo.after hostOps6 (W12 m ρ c) (Proc.devRef .tc main_v80) = _
  after_results_simp

end Cert.KernelIdeal.Keep
-- ==== Proof.KRows.lean ====
/-
  The one-row bias matrices that the stretches of host operations hand to the regions, read entry by entry.

  Two kinds occur. A projection takes a bias row of ZEROS: the scalar constant whose word is the single-precision
  zero, spread over a vector of the layer's width and recast as a 1-by-width matrix. Spreading and recasting only
  choose which entry of the operand is read, and a constant has the same value at every entry, so every entry of
  the row is the extended real the word encodes, which is 0. An activation takes its layer's BIAS VECTOR recast as
  a 1-by-width matrix: a recast keeps the row-major position, and entry (0, q) of a 1-by-width matrix sits at
  position q, so it is entry q of the vector. Both facts are stated at the three widths the layers have: 10, 5
  and 2.
-/
import proofs.«109775_j67156108640501_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Rows
open Cert.KernelIdeal Cert.KernelIdeal.Gen Idealize.ShloMosaic Idealize.ShloMosaic.ValueIdx

/-! ## A row of zeros -/

/-- Every entry of the zero row of width 10 is 0. -/
theorem zrow10 (j : S1x10.Idx) : (shapeCast _ (broadcastInDim S10 ![] bcast_S_S10 (constant (F := Ideal) S_ .f32 0x00000000#32)) shapeCasts_S10_S1x10 : S1x10.Idx → EReal) j = 0 :=
  Ideal.ofBits_zero_f32

/-- Every entry of the zero row of width 5 is 0. -/
theorem zrow5 (j : S1x5.Idx) : (shapeCast _ (broadcastInDim S5 ![] bcast_S_S5 (constant (F := Ideal) S_ .f32 0x00000000#32)) shapeCasts_S5_S1x5 : S1x5.Idx → EReal) j = 0 :=
  Ideal.ofBits_zero_f32

/-- Every entry of the zero row of width 2 is 0. -/
theorem zrow2 (j : S1x2.Idx) : (shapeCast _ (broadcastInDim S2 ![] bcast_S_S2 (constant (F := Ideal) S_ .f32 0x00000000#32)) shapeCasts_S2_S1x2 : S1x2.Idx → EReal) j = 0 :=
  Ideal.ofBits_zero_f32

/-! ## A vector as a one-row matrix -/

/-- Entry (0, q) of a vector of length 10 recast as a 1-by-10 matrix is the vector's entry q. -/
theorem brow10 (v : S10.Idx → EReal) (q : Fin 10) : (shapeCast _ v shapeCasts_S10_S1x10 : S1x10.Idx → EReal) (ix2 0 q) = v (ix1 q) :=
  shapeCast_a_1a_apply v shapeCasts_S10_S1x10 0 q

/-- Entry (0, q) of a vector of length 5 recast as a 1-by-5 matrix is the vector's entry q. -/
theorem brow5 (v : S5.Idx → EReal) (q : Fin 5) : (shapeCast _ v shapeCasts_S5_S1x5 : S1x5.Idx → EReal) (ix2 0 q) = v (ix1 q) :=
  shapeCast_a_1a_apply v shapeCasts_S5_S1x5 0 q

/-- Entry (0, q) of a vector of length 2 recast as a 1-by-2 matrix is the vector's entry q. -/
theorem brow2 (v : S2.Idx → EReal) (q : Fin 2) : (shapeCast _ v shapeCasts_S2_S1x2 : S1x2.Idx → EReal) (ix2 0 q) = v (ix1 q) :=
  shapeCast_a_1a_apply v shapeCasts_S2_S1x2 0 q

end Cert.KernelIdeal.Rows
-- ==== Proof.KChain.lean ====
/-
  The idealized kernel program's two results as functions of its arguments.

  Walking the boundaries of @main in order: the first stretch leaves the message sources `S`, destinations `D` and edge
  weights `Nw`, which no later operation or region writes. Then three times: a projection region (rows times a weight
  matrix, plus a bias row that is all zeros, which adds nothing), the edge aggregation of the projected rows, and an
  activation region (`tanh` of the aggregate plus a bias vector, recast as a one-row matrix on the way). The last region is
  the classifier: the third layer's features times a weight matrix plus a bias vector. So the second result is the third
  layer's features `h3`, and the first is `h3` projected by the classifier.

  What each region leaves in its output array, as a whole-array function of the arrays it reads, is taken here as a
  hypothesis (`RegionValues`): it is proved region by region elsewhere, from the blocks the grid points write.
-/
import proofs.«109775_j67156108640501_1_alg».proof.Proof.Gen.KernelIdeal.Frame
import proofs.«109775_j67156108640501_1_alg».proof.Proof.Layer
import proofs.«109775_j67156108640501_1_alg».proof.Proof.KGlue
import proofs.«109775_j67156108640501_1_alg».proof.Proof.KStage
import proofs.«109775_j67156108640501_1_alg».proof.Proof.KKeep
import proofs.«109775_j67156108640501_1_alg».proof.Proof.KRows

noncomputable section

namespace Cert.KernelIdeal.Chain

open Cert.KernelIdeal Cert.KernelIdeal.Gen Idealize.ShloMosaic Idealize.ShloMosaic.TcCoe Idealize.SL.Sem
open Idealize.ShloMosaic.Pipeline (Dat)

/-- What each region leaves in its output array, for any contents `V` at the region's entry: a projection region the
    rows of its first input times its second plus the one row of its third, an activation region `tanh` of its first
    input plus the one row of its second. -/
structure RegionValues : Prop where
  lin0 : ∀ (V : (c : Dev nD) → (b : Ref sig .tc) → Buf (Elt Ideal) ((c : Thread nD τ).loc b)) (c : Dev nD), (dat0 (F := Ideal) V c).arrAt 3 cfg0.N = Cert.Layer.lin 200000 128 10 (V c main_arg0) (V c main_arg2) (V c main_v28)
  act1 : ∀ (V : (c : Dev nD) → (b : Ref sig .tc) → Buf (Elt Ideal) ((c : Thread nD τ).loc b)) (c : Dev nD), (dat1 (F := Ideal) V c).arrAt 2 cfg1.N = Cert.Layer.actRow 200000 10 (V c main_v42) (V c main_v43)
  lin2 : ∀ (V : (c : Dev nD) → (b : Ref sig .tc) → Buf (Elt Ideal) ((c : Thread nD τ).loc b)) (c : Dev nD), (dat2 (F := Ideal) V c).arrAt 3 cfg2.N = Cert.Layer.lin 200000 10 5 (V c main_v44) (V c main_arg4) (V c main_v46)
  act3 : ∀ (V : (c : Dev nD) → (b : Ref sig .tc) → Buf (Elt Ideal) ((c : Thread nD τ).loc b)) (c : Dev nD), (dat3 (F := Ideal) V c).arrAt 2 cfg3.N = Cert.Layer.actRow 200000 5 (V c main_v60) (V c main_v61)
  lin4 : ∀ (V : (c : Dev nD) → (b : Ref sig .tc) → Buf (Elt Ideal) ((c : Thread nD τ).loc b)) (c : Dev nD), (dat4 (F := Ideal) V c).arrAt 3 cfg4.N = Cert.Layer.lin 200000 5 2 (V c main_v62) (V c main_arg6) (V c main_v64)
  act5 : ∀ (V : (c : Dev nD) → (b : Ref sig .tc) → Buf (Elt Ideal) ((c : Thread nD τ).loc b)) (c : Dev nD), (dat5 (F := Ideal) V c).arrAt 2 cfg5.N = Cert.Layer.actRow 200000 2 (V c main_v78) (V c main_v79)
  lin6 : ∀ (V : (c : Dev nD) → (b : Ref sig .tc) → Buf (Elt Ideal) ((c : Thread nD τ).loc b)) (c : Dev nD), (dat6 (F := Ideal) V c).arrAt 3 cfg6.N = Cert.Layer.lin 200000 2 2 (V c main_v80) (V c main_arg8) (V c main_v81)

variable (m : (ℓ : Loc nD τ sig) → Buf (Elt Ideal) ℓ) (ρ : Dev nD → PrngReg) (c : Dev nD)

/-- The message sources. -/
def S : (⟨S6600000, .i32⟩ : BufTy).Contents (Elt Ideal) := Glue.src (F := Ideal) (m ((c : Thread nD τ).loc main_arg1))
/-- The message destinations. -/
def D : (⟨S6600000, .i32⟩ : BufTy).Contents (Elt Ideal) := Glue.dst (F := Ideal) (m ((c : Thread nD τ).loc main_arg1))
/-- The edge weights. -/
def Nw : (⟨S6600000, .f32⟩ : BufTy).Contents (Elt Ideal) := Glue.norm (F := Ideal) (S m c) (D m c)
/-- The first layer's node features. -/
def h1 : (⟨S200000x10, .f32⟩ : BufTy).Contents (Elt Ideal) :=
  Cert.Layer.act 200000 10 (Glue.agg10 (F := Ideal) (Cert.Layer.mm 200000 128 10 (m ((c : Thread nD τ).loc main_arg0)) (m ((c : Thread nD τ).loc main_arg2))) (S m c) (D m c) (Nw m c)) (m ((c : Thread nD τ).loc main_arg3))
/-- The second layer's node features. -/
def h2 : (⟨S200000x5, .f32⟩ : BufTy).Contents (Elt Ideal) :=
  Cert.Layer.act 200000 5 (Glue.agg5 (F := Ideal) (Cert.Layer.mm 200000 10 5 (h1 m c) (m ((c : Thread nD τ).loc main_arg4))) (S m c) (D m c) (Nw m c)) (m ((c : Thread nD τ).loc main_arg5))
/-- The third layer's node features. -/
def h3 : (⟨S200000x2, .f32⟩ : BufTy).Contents (Elt Ideal) :=
  Cert.Layer.act 200000 2 (Glue.agg2 (F := Ideal) (Cert.Layer.mm 200000 5 2 (h2 m c) (m ((c : Thread nD τ).loc main_arg6))) (S m c) (D m c) (Nw m c)) (m ((c : Thread nD τ).loc main_arg7))

variable (R : RegionValues)
include R

/-! ## The first layer -/

theorem proj1 : W2 m ρ c (Proc.devRef .tc main_v29) = Cert.Layer.mm 200000 128 10 (m ((c : Thread nD τ).loc main_arg0)) (m ((c : Thread nD τ).loc main_arg2)) := by
  refine ((W2_arr m ρ c 3).trans (R.lin0 (V1 m ρ) c)).trans ?_
  show Cert.Layer.lin 200000 128 10 (W1 m ρ c (Proc.devRef .tc main_arg0)) (W1 m ρ c (Proc.devRef .tc main_arg2)) (W1 m ρ c (Proc.devRef .tc main_v28)) = _
  rw [Keep.arg0_at_1 m ρ c, Keep.arg2_at_1 m ρ c, Stage.zrow10_at_1 m ρ c]
  exact Cert.Layer.lin_of_zero _ _ _ _ _ _ Rows.zrow10

theorem agg1 : W3 m ρ c (Proc.devRef .tc main_v42) = Glue.agg10 (F := Ideal) (Cert.Layer.mm 200000 128 10 (m ((c : Thread nD τ).loc main_arg0)) (m ((c : Thread nD τ).loc main_arg2))) (S m c) (D m c) (Nw m c) := by
  rw [Stage.agg_at_3 m ρ c, proj1 m ρ c R, Keep.v3_at_2 m ρ c, Keep.v6_at_2 m ρ c, Keep.v26_at_2 m ρ c,
    Stage.src_at_1 m ρ c, Stage.dst_at_1 m ρ c, Stage.norm_at_1 m ρ c]
  rfl

theorem hid1 : W4 m ρ c (Proc.devRef .tc main_v44) = h1 m c := by
  refine ((W4_arr m ρ c 2).trans (R.act1 (V3 m ρ) c)).trans ?_
  show Cert.Layer.actRow 200000 10 (W3 m ρ c (Proc.devRef .tc main_v42)) (W3 m ρ c (Proc.devRef .tc main_v43)) = _
  rw [agg1 m ρ c R, Stage.brow_at_3 m ρ c, Keep.arg3_at_2 m ρ c]
  exact Cert.Layer.actRow_row _ _ _ _ _ (Rows.brow10 _)

/-! ## The second layer -/

theorem proj2 : W6 m ρ c (Proc.devRef .tc main_v47) = Cert.Layer.mm 200000 10 5 (h1 m c) (m ((c : Thread nD τ).loc main_arg4)) := by
  refine ((W6_arr m ρ c 3).trans (R.lin2 (V5 m ρ) c)).trans ?_
  show Cert.Layer.lin 200000 10 5 (W5 m ρ c (Proc.devRef .tc main_v44)) (W5 m ρ c (Proc.devRef .tc main_arg4)) (W5 m ρ c (Proc.devRef .tc main_v46)) = _
  rw [Keep.v44_at_5 m ρ c, hid1 m ρ c R, Keep.arg4_at_5 m ρ c, Stage.zrow5_at_5 m ρ c]
  exact Cert.Layer.lin_of_zero _ _ _ _ _ _ Rows.zrow5

theorem agg2 : W7 m ρ c (Proc.devRef .tc main_v60) = Glue.agg5 (F := Ideal) (Cert.Layer.mm 200000 10 5 (h1 m c) (m ((c : Thread nD τ).loc main_arg4))) (S m c) (D m c) (Nw m c) := by
  rw [Stage.agg_at_7 m ρ c, proj2 m ρ c R, Keep.v3_at_6 m ρ c, Keep.v6_at_6 m ρ c, Keep.v26_at_6 m ρ c,
    Stage.src_at_1 m ρ c, Stage.dst_at_1 m ρ c, Stage.norm_at_1 m ρ c]
  rfl

theorem hid2 : W8 m ρ c (Proc.devRef .tc main_v62) = h2 m c := by
  refine ((W8_arr m ρ c 2).trans (R.act3 (V7 m ρ) c)).trans ?_
  show Cert.Layer.actRow 200000 5 (W7 m ρ c (Proc.devRef .tc main_v60)) (W7 m ρ c (Proc.devRef .tc main_v61)) = _
  rw [agg2 m ρ c R, Stage.brow_at_7 m ρ c, Keep.arg5_at_6 m ρ c]
  exact Cert.Layer.actRow_row _ _ _ _ _ (Rows.brow5 _)

/-! ## The third layer -/

theorem proj3 : W10 m ρ c (Proc.devRef .tc main_v65) = Cert.Layer.mm 200000 5 2 (h2 m c) (m ((c : Thread nD τ).loc main_arg6)) := by
  refine ((W10_arr m ρ c 3).trans (R.lin4 (V9 m ρ) c)).trans ?_
  show Cert.Layer.lin 200000 5 2 (W9 m ρ c (Proc.devRef .tc main_v62)) (W9 m ρ c (Proc.devRef .tc main_arg6)) (W9 m ρ c (Proc.devRef .tc main_v64)) = _
  rw [Keep.v62_at_9 m ρ c, hid2 m ρ c R, Keep.arg6_at_9 m ρ c, Stage.zrow2_at_9 m ρ c]
  exact Cert.Layer.lin_of_zero _ _ _ _ _ _ Rows.zrow2

theorem agg3 : W11 m ρ c (Proc.devRef .tc main_v78) = Glue.agg2 (F := Ideal) (Cert.Layer.mm 200000 5 2 (h2 m c) (m ((c : Thread nD τ).loc main_arg6))) (S m c) (D m c) (Nw m c) := by
  rw [Stage.agg_at_11 m ρ c, proj3 m ρ c R, Keep.v3_at_10 m ρ c, Keep.v6_at_10 m ρ c, Keep.v26_at_10 m ρ c,
    Stage.src_at_1 m ρ c, Stage.dst_at_1 m ρ c, Stage.norm_at_1 m ρ c]
  rfl

theorem hid3 : W12 m ρ c (Proc.devRef .tc main_v80) = h3 m c := by
  refine ((W12_arr m ρ c 2).trans (R.act5 (V11 m ρ) c)).trans ?_
  show Cert.Layer.actRow 200000 2 (W11 m ρ c (Proc.devRef .tc main_v78)) (W11 m ρ c (Proc.devRef .tc main_v79)) = _
  rw [agg3 m ρ c R, Stage.brow_at_11 m ρ c, Keep.arg7_at_10 m ρ c]
  exact Cert.Layer.actRow_row _ _ _ _ _ (Rows.brow2 _)

/-! ## The results -/

/-- The second result: the third layer's features, which the classifier region reads and does not write. -/
theorem out1 : W14 m ρ c (Proc.devRef .tc main_v80) = h3 m c :=
  ((W14_arr m ρ c 0).trans (((dat6 (V13 m ρ) c).arrAt_in 0 rfl _).trans (A_eq6 (V13 m ρ) c 0))).trans
    ((Keep.v80_at_13 m ρ c).trans (hid3 m ρ c R))

/-- The first result: the classifier applied to the third layer's features. -/
theorem out0 : W14 m ρ c (Proc.devRef .tc main_v82) = Cert.Layer.linB 200000 2 2 (h3 m c) (m ((c : Thread nD τ).loc main_arg8)) (m ((c : Thread nD τ).loc main_arg9)) := by
  refine ((W14_arr m ρ c 3).trans (R.lin6 (V13 m ρ) c)).trans ?_
  show Cert.Layer.lin 200000 2 2 (W13 m ρ c (Proc.devRef .tc main_v80)) (W13 m ρ c (Proc.devRef .tc main_arg8)) (W13 m ρ c (Proc.devRef .tc main_v81)) = _
  rw [Keep.v80_at_13 m ρ c, hid3 m ρ c R, Keep.arg8_at_13 m ρ c, Stage.crow_at_13 m ρ c, Keep.arg9_at_12 m ρ c]
  exact Cert.Layer.lin_row _ _ _ _ _ _ _ (Rows.brow2 _)

end Cert.KernelIdeal.Chain

end
-- ==== Proof.Lin0.lean ====
/-
  The first linear layer, from blocks of rows to the whole array.

  The region walks a grid of 25 points. Point `t` sees rows `8000·t … 8000·t + 7999` of the 200000 × 128 feature
  array as a block of 8000 rows, together with the whole 128 × 10 weight matrix and the whole 1 × 10 bias row, and
  writes rows `8000·t … 8000·t + 7999` of the 200000 × 10 result: entry `(p, q)` of its block is
  `∑ k, x (8000·t + p, k) * W (k, q) + b (0, q)`.

  So the entry of the result in row `r` depends only on row `r` of the features (and on all of `W` and `b`),
  whichever point writes it: every block is the restriction, to its rows, of ONE function of the whole arrays, the
  layer `lin` of `Proof/Layer.lean`. Row `r` lies in the block of point `r / 8000`, and `25 · 8000 = 200000`, so the
  blocks fill the array, and the array ends holding `lin` of the arrays the region was entered with.

  In order: the product's operand indices at an entry (`lhs_row` … `rhs_col`), the product and the body's arithmetic
  at an entry (`rows_mul_apply`, `payload_apply`), the block indices of the four windows over the grid
  (`block_index`), what a point writes back (`flushed_eq`), the cover (`mem_block`, `row_cover`), the array (`final`).
-/
import proofs.«109775_j67156108640501_1_alg».proof.Proof.Gen.KernelIdeal.Frame
import proofs.«109775_j67156108640501_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The left operand of the product at output entry `i` and summation position `s` sits in row `i 0`. -/
theorem lhs_row (i : S8000x10.Idx) (s : dot_S8000x128_S128x10_S8000x10_1_0_0_1_n_n.contr.Idx) :
    (dot_S8000x128_S128x10_S8000x10_1_0_0_1_n_n.lhsIdx i s 0).val = (i 0).val := by
  unfold DotDims.lhsIdx
  rw [dif_neg (show ¬(0 : Fin S8000x128.rank) ∈ dot_S8000x128_S128x10_S8000x10_1_0_0_1_n_n.lhsBatch by decide), dif_pos (show (0 : Fin S8000x128.rank) ∈ dot_S8000x128_S128x10_S8000x10_1_0_0_1_n_n.lhsNonContracting by decide)]
  rfl
/-- Its column is the summation position. -/
theorem lhs_col (i : S8000x10.Idx) (s : dot_S8000x128_S128x10_S8000x10_1_0_0_1_n_n.contr.Idx) :
    (dot_S8000x128_S128x10_S8000x10_1_0_0_1_n_n.lhsIdx i s 1).val = (s ⟨0, by decide⟩).val :=
  dot_S8000x128_S128x10_S8000x10_1_0_0_1_n_n.lhsIdx_val_of_single rfl i s
/-- The right operand sits in the row of the summation position, -/
theorem rhs_row (i : S8000x10.Idx) (s : dot_S8000x128_S128x10_S8000x10_1_0_0_1_n_n.contr.Idx) :
    (dot_S8000x128_S128x10_S8000x10_1_0_0_1_n_n.rhsIdx i s 0).val = (s ⟨0, by decide⟩).val :=
  dot_S8000x128_S128x10_S8000x10_1_0_0_1_n_n.rhsIdx_val_of_single rfl i s
/-- and in column `i 1`. -/
theorem rhs_col (i : S8000x10.Idx) (s : dot_S8000x128_S128x10_S8000x10_1_0_0_1_n_n.contr.Idx) :
    (dot_S8000x128_S128x10_S8000x10_1_0_0_1_n_n.rhsIdx i s 1).val = (i 1).val := by
  unfold DotDims.rhsIdx
  rw [dif_neg (show ¬(1 : Fin S128x10.rank) ∈ dot_S8000x128_S128x10_S8000x10_1_0_0_1_n_n.rhsBatch by decide), dif_pos (show (1 : Fin S128x10.rank) ∈ dot_S8000x128_S128x10_S8000x10_1_0_0_1_n_n.rhsNonContracting by decide)]
  rfl

set_option maxHeartbeats 400000 in
/-- The product of a block of rows with the weights, read at an entry. -/
theorem rows_mul_apply (x0 : FVec Ideal S8000x128 .f32) (x1 : FVec Ideal S128x10 .f32) (p : Fin 8000) (q : Fin 10) :
    matmul (F := Ideal) (φ₁ := .f32) (φ₂ := .f32) dot_S8000x128_S128x10_S8000x10_1_0_0_1_n_n none x0 x1 (constant (F := Ideal) S8000x10 .f32 0x00000000#32) (ix2 p q)
      = ∑ k : Fin 128, x0 (ix2 p k) * x1 (ix2 k q) := by
  refine (Ideal.matmul_constant_zero_apply dot_S8000x128_S128x10_S8000x10_1_0_0_1_n_n none x0 x1 (ix2 p q)).trans ?_
  rw [← Equiv.sum_comp (ValueIdx.contrEquiv1 dot_S8000x128_S128x10_S8000x10_1_0_0_1_n_n 128 rfl rfl).symm]
  refine Finset.sum_congr rfl fun k _ => ?_
  have hk := ValueIdx.contrEquiv1_symm_val dot_S8000x128_S128x10_S8000x10_1_0_0_1_n_n 128 rfl rfl k
  have el : dot_S8000x128_S128x10_S8000x10_1_0_0_1_n_n.lhsIdx (ix2 p q) ((ValueIdx.contrEquiv1 dot_S8000x128_S128x10_S8000x10_1_0_0_1_n_n 128 rfl rfl).symm k) = ix2 p k := funext fun a => Fin.ext (by
    match a with
    | ⟨0, _⟩ => exact lhs_row _ _
    | ⟨1, _⟩ => exact (lhs_col _ _).trans hk)
  have er : dot_S8000x128_S128x10_S8000x10_1_0_0_1_n_n.rhsIdx (ix2 p q) ((ValueIdx.contrEquiv1 dot_S8000x128_S128x10_S8000x10_1_0_0_1_n_n 128 rfl rfl).symm k) = ix2 k q := funext fun a => Fin.ext (by
    match a with
    | ⟨0, _⟩ => exact (rhs_row _ _).trans hk
    | ⟨1, _⟩ => exact rhs_col _ _)
  rw [el, er]

set_option maxHeartbeats 400000 in
/-- The body's arithmetic at an entry of the block. -/
theorem payload_apply (x0 : Vec Ideal S8000x128 .f32) (x1 : Vec Ideal S128x10 .f32) (x2 : Vec Ideal S1x10 .f32) (p : Fin 8000) (q : Fin 10) :
    k0_pay1 x0 x1 x2 (ix2 p q) = (∑ k : Fin 128, x0 (ix2 p k) * x1 (ix2 k q)) + x2 (ix2 0 q) := by
  unfold k0_pay1
  refine (addf_apply _ _ _).trans ?_
  rw [rows_mul_apply, broadcastTo_1b_ab_apply, shapeCast_self]

/-- The printed index maps, decided once over the 25 points: the row-blocked windows (the features and the
    result) are at block `(t, 0)`, the weights and the bias at block `(0, 0)`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 400000 in
/-- What point `t` writes back is block `t` of the layer's whole-array function of the arrays the region finds. -/
theorem flushed_eq (c : Dev nD) (t : Fin cfg0.N) :
    (dat0 V c).flushed 3 t = ((cfg0.win 3).blk t).view.read (Elt Ideal)
      (Cert.Layer.lin 200000 128 10 (V c main_arg0) (V c main_arg2) (V c main_v28)) := by
  show (cfg0.win 3).cut (grid0.coords t) ((dat0 V c).after 3 t) = _
  rw [after0_3]
  unfold out0_3
  rw [View.canon_unit_zero zero_offsets]
  simp only [View.ld_unit_zero (S := S8000x128) zero_offsets, View.ld_unit_zero (S := S128x10) zero_offsets,
    View.ld_unit_zero (S := S1x10) zero_offsets]
  obtain ⟨e00, e01, e10, e11, e20, e21, e30, e31⟩ := block_index t
  have hN : cfg0.N = 25 := N_0
  have ht : t.val < 25 := by have := t.isLt; omega
  funext j
  obtain ⟨p, q, rfl⟩ : ∃ (p : Fin 8000) (q : Fin 10), j = ix2 p q := ⟨j 0, j 1, eq_ix2 j⟩
  refine (payload_apply (iblk0 V c 0 t) (iblk0 V c 1 t) (iblk0 V c 2 t) p q).trans ?_
  have hp : p.val < 8000 := p.isLt
  have h0 : ∀ k : Fin 128, iblk0 V c 0 t (ix2 p k)
      = V c main_arg0 (ix2 (⟨t.val * 8000 + p.val, by omega⟩ : Fin 200000) k) := fun k => by
    show V c main_arg0 (((cfg0.win 0).blk t).view.emb (ix2 p k)) = V c main_arg0 _
    refine congrArg (V c main_arg0) (funext fun a => Fin.ext ?_)
    match a with
    | ⟨0, _⟩ => show win0_0.index t (0 : Fin 2) * 8000 + 1 * p.val = t.val * 8000 + p.val; omega
    | ⟨1, _⟩ => show win0_0.index t (1 : Fin 2) * 128 + 1 * k.val = k.val; omega
  have h1 : ∀ k : Fin 128, iblk0 V c 1 t (ix2 k q) = V c main_arg2 (ix2 k q) := fun k => by
    show V c main_arg2 (((cfg0.win 1).blk t).view.emb (ix2 k q)) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 10 + 1 * q.val = q.val; omega
  have h2 : iblk0 V c 2 t (ix2 (0 : Fin 1) q) = V c main_v28 (ix2 (0 : Fin 1) q) := by
    show V c main_v28 (((cfg0.win 2).blk t).view.emb (ix2 (0 : Fin 1) q)) = V c main_v28 _
    refine congrArg (V c main_v28) (funext fun a => Fin.ext ?_)
    match a with
    | ⟨0, _⟩ => show win0_2.index t (0 : Fin 2) * 1 + 1 * 0 = 0; omega
    | ⟨1, _⟩ => show win0_2.index t (1 : Fin 2) * 10 + 1 * q.val = q.val; omega
  have h3 : ((cfg0.win 3).blk t).view.emb (ix2 p q) = ix2 (⟨t.val * 8000 + p.val, by omega⟩ : Fin 200000) q :=
    funext fun a => Fin.ext (by
      match a with
      | ⟨0, _⟩ => show win0_3.index t (0 : Fin 2) * 8000 + 1 * p.val = t.val * 8000 + p.val; omega
      | ⟨1, _⟩ => show win0_3.index t (1 : Fin 2) * 10 + 1 * q.val = q.val; omega)
  rw [View.read_apply, h3, Cert.Layer.lin_apply, h2]
  refine congrArg (· + _) (Finset.sum_congr rfl fun k _ => ?_)
  rw [h0 k, h1 k]

/-- An index of the result array is in point `t`'s block iff each coordinate is in the block's range on its axis. -/
theorem mem_block (t : Fin cfg0.N) (i : S200000x10.Idx) :
    i ∈ ((cfg0.win 3).blk t).view.set ↔ ∀ a : Fin 2, win0_3.index t a * S8000x10.size a ≤ (i a).val ∧ (i a).val < win0_3.index t a * S8000x10.size a + S8000x10.size a := by
  show i ∈ ((View.whole main_v29).slice (win0_3.rect t)).set ↔ _
  rw [View.set_slice_whole, Rect.mem_set_unit]
  exact Iff.rfl

set_option maxHeartbeats 400000 in
/-- Row `r` of the result lies in the block of point `r / 8000`: the 25 blocks of 8000 rows fill the 200000 rows. -/
theorem row_cover (i : S200000x10.Idx) :
    ∃ t : Fin cfg0.N, (cfg0.win 3).flush t = true ∧ i ∈ ((cfg0.win 3).blk t).view.set := by
  have hN : cfg0.N = 25 := N_0
  have hi0 : (i 0).val < 200000 := (i 0).isLt
  have hi1 : (i 1).val < 10 := (i 1).isLt
  have hlt : (i 0).val / 8000 < cfg0.N := by rw [hN]; omega
  obtain ⟨-, -, -, -, -, -, e30, e31⟩ := block_index ⟨(i 0).val / 8000, hlt⟩
  have e30' : win0_3.index ⟨(i 0).val / 8000, hlt⟩ (0 : Fin 2) = (i 0).val / 8000 := e30
  refine ⟨⟨(i 0).val / 8000, hlt⟩, flush0_3 _, ?_⟩
  rw [mem_block]
  intro a
  match a with
  | ⟨0, _⟩ => show win0_3.index ⟨(i 0).val / 8000, hlt⟩ (0 : Fin 2) * 8000 ≤ (i 0).val ∧ (i 0).val < win0_3.index ⟨(i 0).val / 8000, hlt⟩ (0 : Fin 2) * 8000 + 8000; omega
  | ⟨1, _⟩ => show win0_3.index ⟨(i 0).val / 8000, hlt⟩ (1 : Fin 2) * 10 ≤ (i 1).val ∧ (i 1).val < win0_3.index ⟨(i 0).val / 8000, hlt⟩ (1 : Fin 2) * 10 + 10; omega

/-- The result array after the region: the linear layer of the arrays the region finds, entry by entry. -/
theorem final (c : Dev nD) : (dat0 (F := Ideal) V c).arrAt 3 cfg0.N
    = Cert.Layer.lin 200000 128 10 (V c main_arg0) (V c main_arg2) (V c main_v28) :=
  (dat0 V c).arrAt_eq_of_cover 3 _ (fun t _ => flushed_eq V c t) row_cover

end Cert.KernelIdeal.Lin0

end
-- ==== Proof.Act1.lean ====
/-
  The first activation step, from its row blocks to the whole array.

  The step adds a one-row bias to a 200000 x 10 array and applies tanh, entry by entry. It runs over 25 grid points;
  point t handles the block of rows 8000 t, ..., 8000 t + 7999 (all 10 columns) and sees the whole one-row bias. Inside
  a block, entry (p, q) of the result is tanh (a (p, q) + b (0, q)) of the block's own entry (p, q) and the bias entry
  in column q: an output entry depends on the input entry at the same place and on one bias entry, nothing else. Entry
  (p, q) of block t is entry (8000 t + p, q) of the array, for the input as for the output, so what point t writes back
  is block t of the one function (r, q) |-> tanh (a (r, q) + b (0, q)) of the whole arrays. Row r lies in block r / 8000,
  and 25 * 8000 = 200000, so the blocks fill the array and the array ends holding that function everywhere.
-/
import proofs.«109775_j67156108640501_1_alg».proof.Proof.Gen.KernelIdeal.Frame
import proofs.«109775_j67156108640501_1_alg».proof.Proof.Layer
import Idealize.ShloMosaic.Lib.Pipeline.Value
import Idealize.ShloMosaic.Lib.ValueIdx
import Idealize.ShloMosaic.Lib.ValueLayout

noncomputable section

namespace Cert.KernelIdeal.Act1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's loads and its store start at the block's corner. -/
theorem corner : (![0, 0] : Fin 2 → Nat) = fun _ => 0 := funext fun a => by fin_cases a <;> rfl

/-- Inside a block: entry (p, q) of the result is tanh of the block's entry (p, q) plus the bias entry of column q. -/
theorem payload_apply (x0 : Vec Ideal S8000x10 .f32) (x1 : Vec Ideal S1x10 .f32) (p : Fin 8000) (q : Fin 10) :
    k1_pay1 x0 x1 (ix2 p q) = Ideal.tanh (x0 (ix2 p q) + x1 (ix2 (0 : Fin 1) q)) := by
  unfold k1_pay1
  show FloatOps.tanh (addf (F := Ideal) (shapeCast (α := Ideal .f32) S8000x10 x0 shapeCasts_S8000x10_S8000x10)
    (broadcastTo (α := Ideal .f32) S8000x10 (shapeCast (α := Ideal .f32) S1x10 x1 shapeCasts_S1x10_S1x10) broadcasts_S1x10_S8000x10)
    (ix2 p q)) = _
  rw [Ideal.tanh_def, addf_apply, shapeCast_self, shapeCast_self]
  exact congrArg (fun z => Ideal.tanh (x0 (ix2 p q) + z)) (broadcastTo_1b_ab_apply x1 broadcasts_S1x10_S8000x10 p q)

/-- The index maps over the grid: the row-blocked windows sit at block (t, 0), the bias window at block (0, 0). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of a row block at point t is entry (8000 t + p, q) of its array. -/
theorem in_block_emb (t : Fin cfg1.N) (p : Fin 8000) (q : Fin 10) (r : Fin 200000) (hr : r.val = 8000 * t.val + p.val) :
    ((cfg1.win 0).blk t).view.emb (ix2 p q) = ix2 r q := by
  obtain ⟨e0, e1, -, -, -, -⟩ := block_index t
  funext a; apply Fin.ext
  match a with
  | ⟨0, _⟩ => show win1_0.index t (0 : Fin 2) * 8000 + 1 * p.val = r.val; omega
  | ⟨1, _⟩ => show win1_0.index t (1 : Fin 2) * 10 + 1 * q.val = q.val; omega

/-- The same for the output's block. -/
theorem out_block_emb (t : Fin cfg1.N) (p : Fin 8000) (q : Fin 10) (r : Fin 200000) (hr : r.val = 8000 * t.val + p.val) :
    ((cfg1.win 2).blk t).view.emb (ix2 p q) = ix2 r q := by
  obtain ⟨-, -, -, -, e4, e5⟩ := block_index t
  funext a; apply Fin.ext
  match a with
  | ⟨0, _⟩ => show win1_2.index t (0 : Fin 2) * 8000 + 1 * p.val = r.val; omega
  | ⟨1, _⟩ => show win1_2.index t (1 : Fin 2) * 10 + 1 * q.val = q.val; omega

/-- The bias window's block is the whole one-row array at every point. -/
theorem bias_block_emb (t : Fin cfg1.N) (q : Fin 10) :
    ((cfg1.win 1).blk t).view.emb (ix2 (0 : Fin 1) q) = ix2 (0 : Fin 1) q := by
  obtain ⟨-, -, e2, e3, -, -⟩ := block_index t
  funext a; apply Fin.ext
  match a with
  | ⟨0, _⟩ => show win1_1.index t (0 : Fin 2) * 1 + 1 * 0 = 0; omega
  | ⟨1, _⟩ => show win1_1.index t (1 : Fin 2) * 10 + 1 * q.val = q.val; omega

/-- At point t, for any two arrays: the activation of the input block's entry (p, q) and the bias block's entry (0, q) is
    the whole-array function at the place of the output block's entry (p, q). -/
theorem block_entry (a : S200000x10.Idx → EReal) (b : S1x10.Idx → EReal) (t : Fin cfg1.N) (p : Fin 8000) (q : Fin 10) :
    Ideal.tanh (a (((cfg1.win 0).blk t).view.emb (ix2 p q)) + b (((cfg1.win 1).blk t).view.emb (ix2 (0 : Fin 1) q)))
      = Cert.Layer.actRow 200000 10 a b (((cfg1.win 2).blk t).view.emb (ix2 p q)) := by
  have hN : cfg1.N = 25 := N_1
  have ht : t.val < 25 := by have := t.isLt; omega
  obtain ⟨r, hr⟩ : ∃ r : Fin 200000, r.val = 8000 * t.val + p.val :=
    ⟨⟨8000 * t.val + p.val, by have := p.isLt; omega⟩, rfl⟩
  rw [out_block_emb t p q r hr, in_block_emb t p q r hr, bias_block_emb t q]
  exact (Cert.Layer.actRow_apply 200000 10 a b r q).symm

/-- What point t writes back is block t of the whole-array function. -/
theorem block_rows (c : Dev nD) (t : Fin cfg1.N) :
    (dat1 (F := Ideal) V c).flushed 2 t = ((cfg1.win 2).blk t).view.read (Elt Ideal)
      (Cert.Layer.actRow 200000 10 (V c main_v42) (V c main_v43)) := by
  show (cfg1.win 2).cut (grid1.coords t) ((dat1 V c).after 2 t) = _
  rw [after1_2]
  unfold out1_2
  rw [View.canon_unit_zero corner]
  simp only [View.ld_unit_zero (S := S8000x10) corner, View.ld_unit_zero (S := S1x10) corner]
  funext j
  obtain ⟨p, q, rfl⟩ : ∃ (p : Fin 8000) (q : Fin 10), j = ix2 p q := ⟨j 0, j 1, eq_ix2 j⟩
  show k1_pay1 (iblk1 V c 0 t) (iblk1 V c 1 t) (ix2 p q)
    = Cert.Layer.actRow 200000 10 (V c main_v42) (V c main_v43) (((cfg1.win 2).blk t).view.emb (ix2 p q))
  refine (payload_apply (iblk1 V c 0 t) (iblk1 V c 1 t) p q).trans ?_
  exact block_entry (V c main_v42) (V c main_v43) t p q

/-- An entry of the array is in point t's block iff each coordinate is in the block's range on its axis. -/
theorem mem_block (t : Fin cfg1.N) (i : S200000x10.Idx) :
    i ∈ ((cfg1.win 2).blk t).view.set ↔ ∀ a : Fin 2, win1_2.index t a * S8000x10.size a ≤ (i a).val ∧ (i a).val < win1_2.index t a * S8000x10.size a + S8000x10.size a := by
  show i ∈ ((View.whole main_v44).slice (win1_2.rect t)).set ↔ _
  rw [View.set_slice_whole, Rect.mem_set_unit]
  exact Iff.rfl

/-- Row r lies in the block of point r / 8000: the 25 blocks of 8000 rows fill the 200000 rows. -/
theorem row_cover (i : S200000x10.Idx) :
    ∃ t : Fin cfg1.N, (cfg1.win 2).flush t = true ∧ i ∈ ((cfg1.win 2).blk t).view.set := by
  have hi0 : (i 0).val < 200000 := (i 0).isLt
  have hi1 : (i 1).val < 10 := (i 1).isLt
  have hN : cfg1.N = 25 := N_1
  obtain ⟨t, ht⟩ : ∃ t : Fin cfg1.N, t.val = (i 0).val / 8000 := ⟨⟨(i 0).val / 8000, by rw [hN]; omega⟩, rfl⟩
  obtain ⟨-, -, -, -, e4, e5⟩ := block_index t
  refine ⟨t, flush1_2 t, ?_⟩
  rw [mem_block]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 10 ≤ (i 1).val ∧ (i 1).val < win1_2.index t (1 : Fin 2) * 10 + 10; omega

/-- The array after the step is the activation of the whole input array. -/
theorem final (c : Dev nD) :
    (dat1 (F := Ideal) V c).arrAt 2 cfg1.N = Cert.Layer.actRow 200000 10 (V c main_v42) (V c main_v43) :=
  (dat1 (F := Ideal) V c).arrAt_eq_of_cover 2 _ (fun t _ => block_rows V c t) row_cover

end Cert.KernelIdeal.Act1

end
-- ==== Proof.Lin2.lean ====
/-
  The second linear layer, from blocks of rows to the whole array.

  The region walks a grid of 25 points. Point `t` sees rows `8000·t … 8000·t + 7999` of the 200000 × 10 feature
  array as a block of 8000 rows, together with the whole 10 × 5 weight matrix and the whole 1 × 5 bias row, and
  writes rows `8000·t … 8000·t + 7999` of the 200000 × 5 result: entry `(p, q)` of its block is
  `∑ k, x (8000·t + p, k) * W (k, q) + b (0, q)` (the body first casts its block of features to the shape it
  already has, which changes nothing).

  So the entry of the result in row `r` depends only on row `r` of the features (and on all of `W` and `b`),
  whichever point writes it: every block is the restriction, to its rows, of ONE function of the whole arrays, the
  layer `lin` of `Proof/Layer.lean`. Row `r` lies in the block of point `r / 8000`, and `25 · 8000 = 200000`, so the
  blocks fill the array, and the array ends holding `lin` of the arrays the region was entered with.

  In order: the product's operand indices at an entry (`lhs_row` … `rhs_col`), the product and the body's arithmetic
  at an entry (`rows_mul_apply`, `payload_apply`), the block indices of the four windows over the grid
  (`block_index`), what a point writes back (`flushed_eq`), the cover (`mem_block`, `row_cover`), the array (`final`).
-/
import proofs.«109775_j67156108640501_1_alg».proof.Proof.Gen.KernelIdeal.Frame
import proofs.«109775_j67156108640501_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The left operand of the product at output entry `i` and summation position `s` sits in row `i 0`. -/
theorem lhs_row (i : S8000x5.Idx) (s : dot_S8000x10_S10x5_S8000x5_1_0_0_1_n_n.contr.Idx) :
    (dot_S8000x10_S10x5_S8000x5_1_0_0_1_n_n.lhsIdx i s 0).val = (i 0).val := by
  unfold DotDims.lhsIdx
  rw [dif_neg (show ¬(0 : Fin S8000x10.rank) ∈ dot_S8000x10_S10x5_S8000x5_1_0_0_1_n_n.lhsBatch by decide), dif_pos (show (0 : Fin S8000x10.rank) ∈ dot_S8000x10_S10x5_S8000x5_1_0_0_1_n_n.lhsNonContracting by decide)]
  rfl
/-- Its column is the summation position. -/
theorem lhs_col (i : S8000x5.Idx) (s : dot_S8000x10_S10x5_S8000x5_1_0_0_1_n_n.contr.Idx) :
    (dot_S8000x10_S10x5_S8000x5_1_0_0_1_n_n.lhsIdx i s 1).val = (s ⟨0, by decide⟩).val :=
  dot_S8000x10_S10x5_S8000x5_1_0_0_1_n_n.lhsIdx_val_of_single rfl i s
/-- The right operand sits in the row of the summation position, -/
theorem rhs_row (i : S8000x5.Idx) (s : dot_S8000x10_S10x5_S8000x5_1_0_0_1_n_n.contr.Idx) :
    (dot_S8000x10_S10x5_S8000x5_1_0_0_1_n_n.rhsIdx i s 0).val = (s ⟨0, by decide⟩).val :=
  dot_S8000x10_S10x5_S8000x5_1_0_0_1_n_n.rhsIdx_val_of_single rfl i s
/-- and in column `i 1`. -/
theorem rhs_col (i : S8000x5.Idx) (s : dot_S8000x10_S10x5_S8000x5_1_0_0_1_n_n.contr.Idx) :
    (dot_S8000x10_S10x5_S8000x5_1_0_0_1_n_n.rhsIdx i s 1).val = (i 1).val := by
  unfold DotDims.rhsIdx
  rw [dif_neg (show ¬(1 : Fin S10x5.rank) ∈ dot_S8000x10_S10x5_S8000x5_1_0_0_1_n_n.rhsBatch by decide), dif_pos (show (1 : Fin S10x5.rank) ∈ dot_S8000x10_S10x5_S8000x5_1_0_0_1_n_n.rhsNonContracting by decide)]
  rfl

set_option maxHeartbeats 400000 in
/-- The product of a block of rows with the weights, read at an entry. -/
theorem rows_mul_apply (x0 : FVec Ideal S8000x10 .f32) (x1 : FVec Ideal S10x5 .f32) (p : Fin 8000) (q : Fin 5) :
    matmul (F := Ideal) (φ₁ := .f32) (φ₂ := .f32) dot_S8000x10_S10x5_S8000x5_1_0_0_1_n_n none x0 x1 (constant (F := Ideal) S8000x5 .f32 0x00000000#32) (ix2 p q)
      = ∑ k : Fin 10, x0 (ix2 p k) * x1 (ix2 k q) := by
  refine (Ideal.matmul_constant_zero_apply dot_S8000x10_S10x5_S8000x5_1_0_0_1_n_n none x0 x1 (ix2 p q)).trans ?_
  rw [← Equiv.sum_comp (ValueIdx.contrEquiv1 dot_S8000x10_S10x5_S8000x5_1_0_0_1_n_n 10 rfl rfl).symm]
  refine Finset.sum_congr rfl fun k _ => ?_
  have hk := ValueIdx.contrEquiv1_symm_val dot_S8000x10_S10x5_S8000x5_1_0_0_1_n_n 10 rfl rfl k
  have el : dot_S8000x10_S10x5_S8000x5_1_0_0_1_n_n.lhsIdx (ix2 p q) ((ValueIdx.contrEquiv1 dot_S8000x10_S10x5_S8000x5_1_0_0_1_n_n 10 rfl rfl).symm k) = ix2 p k := funext fun a => Fin.ext (by
    match a with
    | ⟨0, _⟩ => exact lhs_row _ _
    | ⟨1, _⟩ => exact (lhs_col _ _).trans hk)
  have er : dot_S8000x10_S10x5_S8000x5_1_0_0_1_n_n.rhsIdx (ix2 p q) ((ValueIdx.contrEquiv1 dot_S8000x10_S10x5_S8000x5_1_0_0_1_n_n 10 rfl rfl).symm k) = ix2 k q := funext fun a => Fin.ext (by
    match a with
    | ⟨0, _⟩ => exact (rhs_row _ _).trans hk
    | ⟨1, _⟩ => exact rhs_col _ _)
  rw [el, er]

set_option maxHeartbeats 400000 in
/-- The body's arithmetic at an entry of the block. -/
theorem payload_apply (x0 : Vec Ideal S8000x10 .f32) (x1 : Vec Ideal S10x5 .f32) (x2 : Vec Ideal S1x5 .f32) (p : Fin 8000) (q : Fin 5) :
    k2_pay1 x0 x1 x2 (ix2 p q) = (∑ k : Fin 10, x0 (ix2 p k) * x1 (ix2 k q)) + x2 (ix2 0 q) := by
  unfold k2_pay1
  refine (addf_apply _ _ _).trans ?_
  rw [shapeCast_self, rows_mul_apply, broadcastTo_1b_ab_apply, shapeCast_self]

/-- The printed index maps, decided once over the 25 points: the row-blocked windows (the features and the
    result) are at block `(t, 0)`, the weights and the bias at block `(0, 0)`. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 400000 in
/-- What point `t` writes back is block `t` of the layer's whole-array function of the arrays the region finds. -/
theorem flushed_eq (c : Dev nD) (t : Fin cfg2.N) :
    (dat2 V c).flushed 3 t = ((cfg2.win 3).blk t).view.read (Elt Ideal)
      (Cert.Layer.lin 200000 10 5 (V c main_v44) (V c main_arg4) (V c main_v46)) := by
  show (cfg2.win 3).cut (grid2.coords t) ((dat2 V c).after 3 t) = _
  rw [after2_3]
  unfold out2_3
  rw [View.canon_unit_zero zero_offsets]
  simp only [View.ld_unit_zero (S := S8000x10) zero_offsets, View.ld_unit_zero (S := S10x5) zero_offsets,
    View.ld_unit_zero (S := S1x5) zero_offsets]
  obtain ⟨e00, e01, e10, e11, e20, e21, e30, e31⟩ := block_index t
  have hN : cfg2.N = 25 := N_2
  have ht : t.val < 25 := by have := t.isLt; omega
  funext j
  obtain ⟨p, q, rfl⟩ : ∃ (p : Fin 8000) (q : Fin 5), j = ix2 p q := ⟨j 0, j 1, eq_ix2 j⟩
  refine (payload_apply (iblk2 V c 0 t) (iblk2 V c 1 t) (iblk2 V c 2 t) p q).trans ?_
  have hp : p.val < 8000 := p.isLt
  have h0 : ∀ k : Fin 10, iblk2 V c 0 t (ix2 p k)
      = V c main_v44 (ix2 (⟨t.val * 8000 + p.val, by omega⟩ : Fin 200000) k) := fun k => by
    show V c main_v44 (((cfg2.win 0).blk t).view.emb (ix2 p k)) = V c main_v44 _
    refine congrArg (V c main_v44) (funext fun a => Fin.ext ?_)
    match a with
    | ⟨0, _⟩ => show win2_0.index t (0 : Fin 2) * 8000 + 1 * p.val = t.val * 8000 + p.val; omega
    | ⟨1, _⟩ => show win2_0.index t (1 : Fin 2) * 10 + 1 * k.val = k.val; omega
  have h1 : ∀ k : Fin 10, iblk2 V c 1 t (ix2 k q) = V c main_arg4 (ix2 k q) := fun k => by
    show V c main_arg4 (((cfg2.win 1).blk t).view.emb (ix2 k q)) = V c main_arg4 _
    refine congrArg (V c main_arg4) (funext fun a => Fin.ext ?_)
    match a with
    | ⟨0, _⟩ => show win2_1.index t (0 : Fin 2) * 10 + 1 * k.val = k.val; omega
    | ⟨1, _⟩ => show win2_1.index t (1 : Fin 2) * 5 + 1 * q.val = q.val; omega
  have h2 : iblk2 V c 2 t (ix2 (0 : Fin 1) q) = V c main_v46 (ix2 (0 : Fin 1) q) := by
    show V c main_v46 (((cfg2.win 2).blk t).view.emb (ix2 (0 : Fin 1) q)) = V c main_v46 _
    refine congrArg (V c main_v46) (funext fun a => Fin.ext ?_)
    match a with
    | ⟨0, _⟩ => show win2_2.index t (0 : Fin 2) * 1 + 1 * 0 = 0; omega
    | ⟨1, _⟩ => show win2_2.index t (1 : Fin 2) * 5 + 1 * q.val = q.val; omega
  have h3 : ((cfg2.win 3).blk t).view.emb (ix2 p q) = ix2 (⟨t.val * 8000 + p.val, by omega⟩ : Fin 200000) q :=
    funext fun a => Fin.ext (by
      match a with
      | ⟨0, _⟩ => show win2_3.index t (0 : Fin 2) * 8000 + 1 * p.val = t.val * 8000 + p.val; omega
      | ⟨1, _⟩ => show win2_3.index t (1 : Fin 2) * 5 + 1 * q.val = q.val; omega)
  rw [View.read_apply, h3, Cert.Layer.lin_apply, h2]
  refine congrArg (· + _) (Finset.sum_congr rfl fun k _ => ?_)
  rw [h0 k, h1 k]

/-- An index of the result array is in point `t`'s block iff each coordinate is in the block's range on its axis. -/
theorem mem_block (t : Fin cfg2.N) (i : S200000x5.Idx) :
    i ∈ ((cfg2.win 3).blk t).view.set ↔ ∀ a : Fin 2, win2_3.index t a * S8000x5.size a ≤ (i a).val ∧ (i a).val < win2_3.index t a * S8000x5.size a + S8000x5.size a := by
  show i ∈ ((View.whole main_v47).slice (win2_3.rect t)).set ↔ _
  rw [View.set_slice_whole, Rect.mem_set_unit]
  exact Iff.rfl

set_option maxHeartbeats 400000 in
/-- Row `r` of the result lies in the block of point `r / 8000`: the 25 blocks of 8000 rows fill the 200000 rows. -/
theorem row_cover (i : S200000x5.Idx) :
    ∃ t : Fin cfg2.N, (cfg2.win 3).flush t = true ∧ i ∈ ((cfg2.win 3).blk t).view.set := by
  have hN : cfg2.N = 25 := N_2
  have hi0 : (i 0).val < 200000 := (i 0).isLt
  have hi1 : (i 1).val < 5 := (i 1).isLt
  have hlt : (i 0).val / 8000 < cfg2.N := by rw [hN]; omega
  obtain ⟨-, -, -, -, -, -, e30, e31⟩ := block_index ⟨(i 0).val / 8000, hlt⟩
  have e30' : win2_3.index ⟨(i 0).val / 8000, hlt⟩ (0 : Fin 2) = (i 0).val / 8000 := e30
  refine ⟨⟨(i 0).val / 8000, hlt⟩, flush2_3 _, ?_⟩
  rw [mem_block]
  intro a
  match a with
  | ⟨0, _⟩ => show win2_3.index ⟨(i 0).val / 8000, hlt⟩ (0 : Fin 2) * 8000 ≤ (i 0).val ∧ (i 0).val < win2_3.index ⟨(i 0).val / 8000, hlt⟩ (0 : Fin 2) * 8000 + 8000; omega
  | ⟨1, _⟩ => show win2_3.index ⟨(i 0).val / 8000, hlt⟩ (1 : Fin 2) * 5 ≤ (i 1).val ∧ (i 1).val < win2_3.index ⟨(i 0).val / 8000, hlt⟩ (1 : Fin 2) * 5 + 5; omega

/-- The result array after the region: the linear layer of the arrays the region finds, entry by entry. -/
theorem final (c : Dev nD) : (dat2 (F := Ideal) V c).arrAt 3 cfg2.N
    = Cert.Layer.lin 200000 10 5 (V c main_v44) (V c main_arg4) (V c main_v46) :=
  (dat2 V c).arrAt_eq_of_cover 3 _ (fun t _ => flushed_eq V c t) row_cover

end Cert.KernelIdeal.Lin2

end
-- ==== Proof.Act3.lean ====
/-
  The second activation step, from its row blocks to the whole array.

  The step adds a one-row bias to a 200000 x 5 array and applies tanh, entry by entry. It runs over 25 grid points;
  point t handles the block of rows 8000 t, ..., 8000 t + 7999 (all 5 columns) and sees the whole one-row bias. Inside
  a block, entry (p, q) of the result is tanh (a (p, q) + b (0, q)) of the block's own entry (p, q) and the bias entry
  in column q: an output entry depends on the input entry at the same place and on one bias entry, nothing else. Entry
  (p, q) of block t is entry (8000 t + p, q) of the array, for the input as for the output, so what point t writes back
  is block t of the one function (r, q) |-> tanh (a (r, q) + b (0, q)) of the whole arrays. Row r lies in block r / 8000,
  and 25 * 8000 = 200000, so the blocks fill the array and the array ends holding that function everywhere.
-/
import proofs.«109775_j67156108640501_1_alg».proof.Proof.Gen.KernelIdeal.Frame
import proofs.«109775_j67156108640501_1_alg».proof.Proof.Layer
import Idealize.ShloMosaic.Lib.Pipeline.Value
import Idealize.ShloMosaic.Lib.ValueIdx
import Idealize.ShloMosaic.Lib.ValueLayout

noncomputable section

namespace Cert.KernelIdeal.Act3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's loads and its store start at the block's corner. -/
theorem corner : (![0, 0] : Fin 2 → Nat) = fun _ => 0 := funext fun a => by fin_cases a <;> rfl

/-- Inside a block: entry (p, q) of the result is tanh of the block's entry (p, q) plus the bias entry of column q. -/
theorem payload_apply (x0 : Vec Ideal S8000x5 .f32) (x1 : Vec Ideal S1x5 .f32) (p : Fin 8000) (q : Fin 5) :
    k3_pay1 x0 x1 (ix2 p q) = Ideal.tanh (x0 (ix2 p q) + x1 (ix2 (0 : Fin 1) q)) := by
  unfold k3_pay1
  show FloatOps.tanh (addf (F := Ideal) (shapeCast (α := Ideal .f32) S8000x5 x0 shapeCasts_S8000x5_S8000x5)
    (broadcastTo (α := Ideal .f32) S8000x5 (shapeCast (α := Ideal .f32) S1x5 x1 shapeCasts_S1x5_S1x5) broadcasts_S1x5_S8000x5)
    (ix2 p q)) = _
  rw [Ideal.tanh_def, addf_apply, shapeCast_self, shapeCast_self]
  exact congrArg (fun z => Ideal.tanh (x0 (ix2 p q) + z)) (broadcastTo_1b_ab_apply x1 broadcasts_S1x5_S8000x5 p q)

/-- The index maps over the grid: the row-blocked windows sit at block (t, 0), the bias window at block (0, 0). -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of a row block at point t is entry (8000 t + p, q) of its array. -/
theorem in_block_emb (t : Fin cfg3.N) (p : Fin 8000) (q : Fin 5) (r : Fin 200000) (hr : r.val = 8000 * t.val + p.val) :
    ((cfg3.win 0).blk t).view.emb (ix2 p q) = ix2 r q := by
  obtain ⟨e0, e1, -, -, -, -⟩ := block_index t
  funext a; apply Fin.ext
  match a with
  | ⟨0, _⟩ => show win3_0.index t (0 : Fin 2) * 8000 + 1 * p.val = r.val; omega
  | ⟨1, _⟩ => show win3_0.index t (1 : Fin 2) * 5 + 1 * q.val = q.val; omega

/-- The same for the output's block. -/
theorem out_block_emb (t : Fin cfg3.N) (p : Fin 8000) (q : Fin 5) (r : Fin 200000) (hr : r.val = 8000 * t.val + p.val) :
    ((cfg3.win 2).blk t).view.emb (ix2 p q) = ix2 r q := by
  obtain ⟨-, -, -, -, e4, e5⟩ := block_index t
  funext a; apply Fin.ext
  match a with
  | ⟨0, _⟩ => show win3_2.index t (0 : Fin 2) * 8000 + 1 * p.val = r.val; omega
  | ⟨1, _⟩ => show win3_2.index t (1 : Fin 2) * 5 + 1 * q.val = q.val; omega

/-- The bias window's block is the whole one-row array at every point. -/
theorem bias_block_emb (t : Fin cfg3.N) (q : Fin 5) :
    ((cfg3.win 1).blk t).view.emb (ix2 (0 : Fin 1) q) = ix2 (0 : Fin 1) q := by
  obtain ⟨-, -, e2, e3, -, -⟩ := block_index t
  funext a; apply Fin.ext
  match a with
  | ⟨0, _⟩ => show win3_1.index t (0 : Fin 2) * 1 + 1 * 0 = 0; omega
  | ⟨1, _⟩ => show win3_1.index t (1 : Fin 2) * 5 + 1 * q.val = q.val; omega

/-- At point t, for any two arrays: the activation of the input block's entry (p, q) and the bias block's entry (0, q) is
    the whole-array function at the place of the output block's entry (p, q). -/
theorem block_entry (a : S200000x5.Idx → EReal) (b : S1x5.Idx → EReal) (t : Fin cfg3.N) (p : Fin 8000) (q : Fin 5) :
    Ideal.tanh (a (((cfg3.win 0).blk t).view.emb (ix2 p q)) + b (((cfg3.win 1).blk t).view.emb (ix2 (0 : Fin 1) q)))
      = Cert.Layer.actRow 200000 5 a b (((cfg3.win 2).blk t).view.emb (ix2 p q)) := by
  have hN : cfg3.N = 25 := N_3
  have ht : t.val < 25 := by have := t.isLt; omega
  obtain ⟨r, hr⟩ : ∃ r : Fin 200000, r.val = 8000 * t.val + p.val :=
    ⟨⟨8000 * t.val + p.val, by have := p.isLt; omega⟩, rfl⟩
  rw [out_block_emb t p q r hr, in_block_emb t p q r hr, bias_block_emb t q]
  exact (Cert.Layer.actRow_apply 200000 5 a b r q).symm

/-- What point t writes back is block t of the whole-array function. -/
theorem block_rows (c : Dev nD) (t : Fin cfg3.N) :
    (dat3 (F := Ideal) V c).flushed 2 t = ((cfg3.win 2).blk t).view.read (Elt Ideal)
      (Cert.Layer.actRow 200000 5 (V c main_v60) (V c main_v61)) := by
  show (cfg3.win 2).cut (grid3.coords t) ((dat3 V c).after 2 t) = _
  rw [after3_2]
  unfold out3_2
  rw [View.canon_unit_zero corner]
  simp only [View.ld_unit_zero (S := S8000x5) corner, View.ld_unit_zero (S := S1x5) corner]
  funext j
  obtain ⟨p, q, rfl⟩ : ∃ (p : Fin 8000) (q : Fin 5), j = ix2 p q := ⟨j 0, j 1, eq_ix2 j⟩
  show k3_pay1 (iblk3 V c 0 t) (iblk3 V c 1 t) (ix2 p q)
    = Cert.Layer.actRow 200000 5 (V c main_v60) (V c main_v61) (((cfg3.win 2).blk t).view.emb (ix2 p q))
  refine (payload_apply (iblk3 V c 0 t) (iblk3 V c 1 t) p q).trans ?_
  exact block_entry (V c main_v60) (V c main_v61) t p q

/-- An entry of the array is in point t's block iff each coordinate is in the block's range on its axis. -/
theorem mem_block (t : Fin cfg3.N) (i : S200000x5.Idx) :
    i ∈ ((cfg3.win 2).blk t).view.set ↔ ∀ a : Fin 2, win3_2.index t a * S8000x5.size a ≤ (i a).val ∧ (i a).val < win3_2.index t a * S8000x5.size a + S8000x5.size a := by
  show i ∈ ((View.whole main_v62).slice (win3_2.rect t)).set ↔ _
  rw [View.set_slice_whole, Rect.mem_set_unit]
  exact Iff.rfl

/-- Row r lies in the block of point r / 8000: the 25 blocks of 8000 rows fill the 200000 rows. -/
theorem row_cover (i : S200000x5.Idx) :
    ∃ t : Fin cfg3.N, (cfg3.win 2).flush t = true ∧ i ∈ ((cfg3.win 2).blk t).view.set := by
  have hi0 : (i 0).val < 200000 := (i 0).isLt
  have hi1 : (i 1).val < 5 := (i 1).isLt
  have hN : cfg3.N = 25 := N_3
  obtain ⟨t, ht⟩ : ∃ t : Fin cfg3.N, t.val = (i 0).val / 8000 := ⟨⟨(i 0).val / 8000, by rw [hN]; omega⟩, rfl⟩
  obtain ⟨-, -, -, -, e4, e5⟩ := block_index t
  refine ⟨t, flush3_2 t, ?_⟩
  rw [mem_block]
  intro a
  match a with
  | ⟨0, _⟩ => show win3_2.index t (0 : Fin 2) * 8000 ≤ (i 0).val ∧ (i 0).val < win3_2.index t (0 : Fin 2) * 8000 + 8000; omega
  | ⟨1, _⟩ => show win3_2.index t (1 : Fin 2) * 5 ≤ (i 1).val ∧ (i 1).val < win3_2.index t (1 : Fin 2) * 5 + 5; omega

/-- The array after the step is the activation of the whole input array. -/
theorem final (c : Dev nD) :
    (dat3 (F := Ideal) V c).arrAt 2 cfg3.N = Cert.Layer.actRow 200000 5 (V c main_v60) (V c main_v61) :=
  (dat3 (F := Ideal) V c).arrAt_eq_of_cover 2 _ (fun t _ => block_rows V c t) row_cover

end Cert.KernelIdeal.Act3

end
-- ==== Proof.Lin4.lean ====
/-
  The third linear layer, from blocks of rows to the whole array.

  The region walks a grid of 25 points. Point `t` sees rows `8000·t … 8000·t + 7999` of the 200000 × 5 feature
  array as a block of 8000 rows, together with the whole 5 × 2 weight matrix and the whole 1 × 2 bias row, and
  writes rows `8000·t … 8000·t + 7999` of the 200000 × 2 result: entry `(p, q)` of its block is
  `∑ k, x (8000·t + p, k) * W (k, q) + b (0, q)` (the body first casts its block of features to the shape it
  already has, which changes nothing).

  So the entry of the result in row `r` depends only on row `r` of the features (and on all of `W` and `b`),
  whichever point writes it: every block is the restriction, to its rows, of ONE function of the whole arrays, the
  layer `lin` of `Proof/Layer.lean`. Row `r` lies in the block of point `r / 8000`, and `25 · 8000 = 200000`, so the
  blocks fill the array, and the array ends holding `lin` of the arrays the region was entered with.

  In order: the product's operand indices at an entry (`lhs_row` … `rhs_col`), the product and the body's arithmetic
  at an entry (`rows_mul_apply`, `payload_apply`), the block indices of the four windows over the grid
  (`block_index`), what a point writes back (`flushed_eq`), the cover (`mem_block`, `row_cover`), the array (`final`).
-/
import proofs.«109775_j67156108640501_1_alg».proof.Proof.Gen.KernelIdeal.Frame
import proofs.«109775_j67156108640501_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The left operand of the product at output entry `i` and summation position `s` sits in row `i 0`. -/
theorem lhs_row (i : S8000x2.Idx) (s : dot_S8000x5_S5x2_S8000x2_1_0_0_1_n_n.contr.Idx) :
    (dot_S8000x5_S5x2_S8000x2_1_0_0_1_n_n.lhsIdx i s 0).val = (i 0).val := by
  unfold DotDims.lhsIdx
  rw [dif_neg (show ¬(0 : Fin S8000x5.rank) ∈ dot_S8000x5_S5x2_S8000x2_1_0_0_1_n_n.lhsBatch by decide), dif_pos (show (0 : Fin S8000x5.rank) ∈ dot_S8000x5_S5x2_S8000x2_1_0_0_1_n_n.lhsNonContracting by decide)]
  rfl
/-- Its column is the summation position. -/
theorem lhs_col (i : S8000x2.Idx) (s : dot_S8000x5_S5x2_S8000x2_1_0_0_1_n_n.contr.Idx) :
    (dot_S8000x5_S5x2_S8000x2_1_0_0_1_n_n.lhsIdx i s 1).val = (s ⟨0, by decide⟩).val :=
  dot_S8000x5_S5x2_S8000x2_1_0_0_1_n_n.lhsIdx_val_of_single rfl i s
/-- The right operand sits in the row of the summation position, -/
theorem rhs_row (i : S8000x2.Idx) (s : dot_S8000x5_S5x2_S8000x2_1_0_0_1_n_n.contr.Idx) :
    (dot_S8000x5_S5x2_S8000x2_1_0_0_1_n_n.rhsIdx i s 0).val = (s ⟨0, by decide⟩).val :=
  dot_S8000x5_S5x2_S8000x2_1_0_0_1_n_n.rhsIdx_val_of_single rfl i s
/-- and in column `i 1`. -/
theorem rhs_col (i : S8000x2.Idx) (s : dot_S8000x5_S5x2_S8000x2_1_0_0_1_n_n.contr.Idx) :
    (dot_S8000x5_S5x2_S8000x2_1_0_0_1_n_n.rhsIdx i s 1).val = (i 1).val := by
  unfold DotDims.rhsIdx
  rw [dif_neg (show ¬(1 : Fin S5x2.rank) ∈ dot_S8000x5_S5x2_S8000x2_1_0_0_1_n_n.rhsBatch by decide), dif_pos (show (1 : Fin S5x2.rank) ∈ dot_S8000x5_S5x2_S8000x2_1_0_0_1_n_n.rhsNonContracting by decide)]
  rfl

set_option maxHeartbeats 400000 in
/-- The product of a block of rows with the weights, read at an entry. -/
theorem rows_mul_apply (x0 : FVec Ideal S8000x5 .f32) (x1 : FVec Ideal S5x2 .f32) (p : Fin 8000) (q : Fin 2) :
    matmul (F := Ideal) (φ₁ := .f32) (φ₂ := .f32) dot_S8000x5_S5x2_S8000x2_1_0_0_1_n_n none x0 x1 (constant (F := Ideal) S8000x2 .f32 0x00000000#32) (ix2 p q)
      = ∑ k : Fin 5, x0 (ix2 p k) * x1 (ix2 k q) := by
  refine (Ideal.matmul_constant_zero_apply dot_S8000x5_S5x2_S8000x2_1_0_0_1_n_n none x0 x1 (ix2 p q)).trans ?_
  rw [← Equiv.sum_comp (ValueIdx.contrEquiv1 dot_S8000x5_S5x2_S8000x2_1_0_0_1_n_n 5 rfl rfl).symm]
  refine Finset.sum_congr rfl fun k _ => ?_
  have hk := ValueIdx.contrEquiv1_symm_val dot_S8000x5_S5x2_S8000x2_1_0_0_1_n_n 5 rfl rfl k
  have el : dot_S8000x5_S5x2_S8000x2_1_0_0_1_n_n.lhsIdx (ix2 p q) ((ValueIdx.contrEquiv1 dot_S8000x5_S5x2_S8000x2_1_0_0_1_n_n 5 rfl rfl).symm k) = ix2 p k := funext fun a => Fin.ext (by
    match a with
    | ⟨0, _⟩ => exact lhs_row _ _
    | ⟨1, _⟩ => exact (lhs_col _ _).trans hk)
  have er : dot_S8000x5_S5x2_S8000x2_1_0_0_1_n_n.rhsIdx (ix2 p q) ((ValueIdx.contrEquiv1 dot_S8000x5_S5x2_S8000x2_1_0_0_1_n_n 5 rfl rfl).symm k) = ix2 k q := funext fun a => Fin.ext (by
    match a with
    | ⟨0, _⟩ => exact (rhs_row _ _).trans hk
    | ⟨1, _⟩ => exact rhs_col _ _)
  rw [el, er]

set_option maxHeartbeats 400000 in
/-- The body's arithmetic at an entry of the block. -/
theorem payload_apply (x0 : Vec Ideal S8000x5 .f32) (x1 : Vec Ideal S5x2 .f32) (x2 : Vec Ideal S1x2 .f32) (p : Fin 8000) (q : Fin 2) :
    k4_pay1 x0 x1 x2 (ix2 p q) = (∑ k : Fin 5, x0 (ix2 p k) * x1 (ix2 k q)) + x2 (ix2 0 q) := by
  unfold k4_pay1
  refine (addf_apply _ _ _).trans ?_
  rw [shapeCast_self, rows_mul_apply, broadcastTo_1b_ab_apply, shapeCast_self]

/-- The printed index maps, decided once over the 25 points: the row-blocked windows (the features and the
    result) are at block `(t, 0)`, the weights and the bias at block `(0, 0)`. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 400000 in
/-- What point `t` writes back is block `t` of the layer's whole-array function of the arrays the region finds. -/
theorem flushed_eq (c : Dev nD) (t : Fin cfg4.N) :
    (dat4 V c).flushed 3 t = ((cfg4.win 3).blk t).view.read (Elt Ideal)
      (Cert.Layer.lin 200000 5 2 (V c main_v62) (V c main_arg6) (V c main_v64)) := by
  show (cfg4.win 3).cut (grid4.coords t) ((dat4 V c).after 3 t) = _
  rw [after4_3]
  unfold out4_3
  rw [View.canon_unit_zero zero_offsets]
  simp only [View.ld_unit_zero (S := S8000x5) zero_offsets, View.ld_unit_zero (S := S5x2) zero_offsets,
    View.ld_unit_zero (S := S1x2) zero_offsets]
  obtain ⟨e00, e01, e10, e11, e20, e21, e30, e31⟩ := block_index t
  have hN : cfg4.N = 25 := N_4
  have ht : t.val < 25 := by have := t.isLt; omega
  funext j
  obtain ⟨p, q, rfl⟩ : ∃ (p : Fin 8000) (q : Fin 2), j = ix2 p q := ⟨j 0, j 1, eq_ix2 j⟩
  refine (payload_apply (iblk4 V c 0 t) (iblk4 V c 1 t) (iblk4 V c 2 t) p q).trans ?_
  have hp : p.val < 8000 := p.isLt
  have h0 : ∀ k : Fin 5, iblk4 V c 0 t (ix2 p k)
      = V c main_v62 (ix2 (⟨t.val * 8000 + p.val, by omega⟩ : Fin 200000) k) := fun k => by
    show V c main_v62 (((cfg4.win 0).blk t).view.emb (ix2 p k)) = V c main_v62 _
    refine congrArg (V c main_v62) (funext fun a => Fin.ext ?_)
    match a with
    | ⟨0, _⟩ => show win4_0.index t (0 : Fin 2) * 8000 + 1 * p.val = t.val * 8000 + p.val; omega
    | ⟨1, _⟩ => show win4_0.index t (1 : Fin 2) * 5 + 1 * k.val = k.val; omega
  have h1 : ∀ k : Fin 5, iblk4 V c 1 t (ix2 k q) = V c main_arg6 (ix2 k q) := fun k => by
    show V c main_arg6 (((cfg4.win 1).blk t).view.emb (ix2 k q)) = V c main_arg6 _
    refine congrArg (V c main_arg6) (funext fun a => Fin.ext ?_)
    match a with
    | ⟨0, _⟩ => show win4_1.index t (0 : Fin 2) * 5 + 1 * k.val = k.val; omega
    | ⟨1, _⟩ => show win4_1.index t (1 : Fin 2) * 2 + 1 * q.val = q.val; omega
  have h2 : iblk4 V c 2 t (ix2 (0 : Fin 1) q) = V c main_v64 (ix2 (0 : Fin 1) q) := by
    show V c main_v64 (((cfg4.win 2).blk t).view.emb (ix2 (0 : Fin 1) q)) = V c main_v64 _
    refine congrArg (V c main_v64) (funext fun a => Fin.ext ?_)
    match a with
    | ⟨0, _⟩ => show win4_2.index t (0 : Fin 2) * 1 + 1 * 0 = 0; omega
    | ⟨1, _⟩ => show win4_2.index t (1 : Fin 2) * 2 + 1 * q.val = q.val; omega
  have h3 : ((cfg4.win 3).blk t).view.emb (ix2 p q) = ix2 (⟨t.val * 8000 + p.val, by omega⟩ : Fin 200000) q :=
    funext fun a => Fin.ext (by
      match a with
      | ⟨0, _⟩ => show win4_3.index t (0 : Fin 2) * 8000 + 1 * p.val = t.val * 8000 + p.val; omega
      | ⟨1, _⟩ => show win4_3.index t (1 : Fin 2) * 2 + 1 * q.val = q.val; omega)
  rw [View.read_apply, h3, Cert.Layer.lin_apply, h2]
  refine congrArg (· + _) (Finset.sum_congr rfl fun k _ => ?_)
  rw [h0 k, h1 k]

/-- An index of the result array is in point `t`'s block iff each coordinate is in the block's range on its axis. -/
theorem mem_block (t : Fin cfg4.N) (i : S200000x2.Idx) :
    i ∈ ((cfg4.win 3).blk t).view.set ↔ ∀ a : Fin 2, win4_3.index t a * S8000x2.size a ≤ (i a).val ∧ (i a).val < win4_3.index t a * S8000x2.size a + S8000x2.size a := by
  show i ∈ ((View.whole main_v65).slice (win4_3.rect t)).set ↔ _
  rw [View.set_slice_whole, Rect.mem_set_unit]
  exact Iff.rfl

set_option maxHeartbeats 400000 in
/-- Row `r` of the result lies in the block of point `r / 8000`: the 25 blocks of 8000 rows fill the 200000 rows. -/
theorem row_cover (i : S200000x2.Idx) :
    ∃ t : Fin cfg4.N, (cfg4.win 3).flush t = true ∧ i ∈ ((cfg4.win 3).blk t).view.set := by
  have hN : cfg4.N = 25 := N_4
  have hi0 : (i 0).val < 200000 := (i 0).isLt
  have hi1 : (i 1).val < 2 := (i 1).isLt
  have hlt : (i 0).val / 8000 < cfg4.N := by rw [hN]; omega
  obtain ⟨-, -, -, -, -, -, e30, e31⟩ := block_index ⟨(i 0).val / 8000, hlt⟩
  have e30' : win4_3.index ⟨(i 0).val / 8000, hlt⟩ (0 : Fin 2) = (i 0).val / 8000 := e30
  refine ⟨⟨(i 0).val / 8000, hlt⟩, flush4_3 _, ?_⟩
  rw [mem_block]
  intro a
  match a with
  | ⟨0, _⟩ => show win4_3.index ⟨(i 0).val / 8000, hlt⟩ (0 : Fin 2) * 8000 ≤ (i 0).val ∧ (i 0).val < win4_3.index ⟨(i 0).val / 8000, hlt⟩ (0 : Fin 2) * 8000 + 8000; omega
  | ⟨1, _⟩ => show win4_3.index ⟨(i 0).val / 8000, hlt⟩ (1 : Fin 2) * 2 ≤ (i 1).val ∧ (i 1).val < win4_3.index ⟨(i 0).val / 8000, hlt⟩ (1 : Fin 2) * 2 + 2; omega

/-- The result array after the region: the linear layer of the arrays the region finds, entry by entry. -/
theorem final (c : Dev nD) : (dat4 (F := Ideal) V c).arrAt 3 cfg4.N
    = Cert.Layer.lin 200000 5 2 (V c main_v62) (V c main_arg6) (V c main_v64) :=
  (dat4 V c).arrAt_eq_of_cover 3 _ (fun t _ => flushed_eq V c t) row_cover

end Cert.KernelIdeal.Lin4

end
-- ==== Proof.Act5.lean ====
/-
  The third activation step, from its row blocks to the whole array.

  The step adds a one-row bias to a 200000 x 2 array and applies tanh, entry by entry. It runs over 25 grid points;
  point t handles the block of rows 8000 t, ..., 8000 t + 7999 (all 2 columns) and sees the whole one-row bias. Inside
  a block, entry (p, q) of the result is tanh (a (p, q) + b (0, q)) of the block's own entry (p, q) and the bias entry
  in column q: an output entry depends on the input entry at the same place and on one bias entry, nothing else. Entry
  (p, q) of block t is entry (8000 t + p, q) of the array, for the input as for the output, so what point t writes back
  is block t of the one function (r, q) |-> tanh (a (r, q) + b (0, q)) of the whole arrays. Row r lies in block r / 8000,
  and 25 * 8000 = 200000, so the blocks fill the array and the array ends holding that function everywhere.
-/
import proofs.«109775_j67156108640501_1_alg».proof.Proof.Gen.KernelIdeal.Frame
import proofs.«109775_j67156108640501_1_alg».proof.Proof.Layer
import Idealize.ShloMosaic.Lib.Pipeline.Value
import Idealize.ShloMosaic.Lib.ValueIdx
import Idealize.ShloMosaic.Lib.ValueLayout

noncomputable section

namespace Cert.KernelIdeal.Act5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's loads and its store start at the block's corner. -/
theorem corner : (![0, 0] : Fin 2 → Nat) = fun _ => 0 := funext fun a => by fin_cases a <;> rfl

/-- Inside a block: entry (p, q) of the result is tanh of the block's entry (p, q) plus the bias entry of column q. -/
theorem payload_apply (x0 : Vec Ideal S8000x2 .f32) (x1 : Vec Ideal S1x2 .f32) (p : Fin 8000) (q : Fin 2) :
    k5_pay1 x0 x1 (ix2 p q) = Ideal.tanh (x0 (ix2 p q) + x1 (ix2 (0 : Fin 1) q)) := by
  unfold k5_pay1
  show FloatOps.tanh (addf (F := Ideal) (shapeCast (α := Ideal .f32) S8000x2 x0 shapeCasts_S8000x2_S8000x2)
    (broadcastTo (α := Ideal .f32) S8000x2 (shapeCast (α := Ideal .f32) S1x2 x1 shapeCasts_S1x2_S1x2) broadcasts_S1x2_S8000x2)
    (ix2 p q)) = _
  rw [Ideal.tanh_def, addf_apply, shapeCast_self, shapeCast_self]
  exact congrArg (fun z => Ideal.tanh (x0 (ix2 p q) + z)) (broadcastTo_1b_ab_apply x1 broadcasts_S1x2_S8000x2 p q)

/-- The index maps over the grid: the row-blocked windows sit at block (t, 0), the bias window at block (0, 0). -/
theorem block_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of a row block at point t is entry (8000 t + p, q) of its array. -/
theorem in_block_emb (t : Fin cfg5.N) (p : Fin 8000) (q : Fin 2) (r : Fin 200000) (hr : r.val = 8000 * t.val + p.val) :
    ((cfg5.win 0).blk t).view.emb (ix2 p q) = ix2 r q := by
  obtain ⟨e0, e1, -, -, -, -⟩ := block_index t
  funext a; apply Fin.ext
  match a with
  | ⟨0, _⟩ => show win5_0.index t (0 : Fin 2) * 8000 + 1 * p.val = r.val; omega
  | ⟨1, _⟩ => show win5_0.index t (1 : Fin 2) * 2 + 1 * q.val = q.val; omega

/-- The same for the output's block. -/
theorem out_block_emb (t : Fin cfg5.N) (p : Fin 8000) (q : Fin 2) (r : Fin 200000) (hr : r.val = 8000 * t.val + p.val) :
    ((cfg5.win 2).blk t).view.emb (ix2 p q) = ix2 r q := by
  obtain ⟨-, -, -, -, e4, e5⟩ := block_index t
  funext a; apply Fin.ext
  match a with
  | ⟨0, _⟩ => show win5_2.index t (0 : Fin 2) * 8000 + 1 * p.val = r.val; omega
  | ⟨1, _⟩ => show win5_2.index t (1 : Fin 2) * 2 + 1 * q.val = q.val; omega

/-- The bias window's block is the whole one-row array at every point. -/
theorem bias_block_emb (t : Fin cfg5.N) (q : Fin 2) :
    ((cfg5.win 1).blk t).view.emb (ix2 (0 : Fin 1) q) = ix2 (0 : Fin 1) q := by
  obtain ⟨-, -, e2, e3, -, -⟩ := block_index t
  funext a; apply Fin.ext
  match a with
  | ⟨0, _⟩ => show win5_1.index t (0 : Fin 2) * 1 + 1 * 0 = 0; omega
  | ⟨1, _⟩ => show win5_1.index t (1 : Fin 2) * 2 + 1 * q.val = q.val; omega

/-- At point t, for any two arrays: the activation of the input block's entry (p, q) and the bias block's entry (0, q) is
    the whole-array function at the place of the output block's entry (p, q). -/
theorem block_entry (a : S200000x2.Idx → EReal) (b : S1x2.Idx → EReal) (t : Fin cfg5.N) (p : Fin 8000) (q : Fin 2) :
    Ideal.tanh (a (((cfg5.win 0).blk t).view.emb (ix2 p q)) + b (((cfg5.win 1).blk t).view.emb (ix2 (0 : Fin 1) q)))
      = Cert.Layer.actRow 200000 2 a b (((cfg5.win 2).blk t).view.emb (ix2 p q)) := by
  have hN : cfg5.N = 25 := N_5
  have ht : t.val < 25 := by have := t.isLt; omega
  obtain ⟨r, hr⟩ : ∃ r : Fin 200000, r.val = 8000 * t.val + p.val :=
    ⟨⟨8000 * t.val + p.val, by have := p.isLt; omega⟩, rfl⟩
  rw [out_block_emb t p q r hr, in_block_emb t p q r hr, bias_block_emb t q]
  exact (Cert.Layer.actRow_apply 200000 2 a b r q).symm

/-- What point t writes back is block t of the whole-array function. -/
theorem block_rows (c : Dev nD) (t : Fin cfg5.N) :
    (dat5 (F := Ideal) V c).flushed 2 t = ((cfg5.win 2).blk t).view.read (Elt Ideal)
      (Cert.Layer.actRow 200000 2 (V c main_v78) (V c main_v79)) := by
  show (cfg5.win 2).cut (grid5.coords t) ((dat5 V c).after 2 t) = _
  rw [after5_2]
  unfold out5_2
  rw [View.canon_unit_zero corner]
  simp only [View.ld_unit_zero (S := S8000x2) corner, View.ld_unit_zero (S := S1x2) corner]
  funext j
  obtain ⟨p, q, rfl⟩ : ∃ (p : Fin 8000) (q : Fin 2), j = ix2 p q := ⟨j 0, j 1, eq_ix2 j⟩
  show k5_pay1 (iblk5 V c 0 t) (iblk5 V c 1 t) (ix2 p q)
    = Cert.Layer.actRow 200000 2 (V c main_v78) (V c main_v79) (((cfg5.win 2).blk t).view.emb (ix2 p q))
  refine (payload_apply (iblk5 V c 0 t) (iblk5 V c 1 t) p q).trans ?_
  exact block_entry (V c main_v78) (V c main_v79) t p q

/-- An entry of the array is in point t's block iff each coordinate is in the block's range on its axis. -/
theorem mem_block (t : Fin cfg5.N) (i : S200000x2.Idx) :
    i ∈ ((cfg5.win 2).blk t).view.set ↔ ∀ a : Fin 2, win5_2.index t a * S8000x2.size a ≤ (i a).val ∧ (i a).val < win5_2.index t a * S8000x2.size a + S8000x2.size a := by
  show i ∈ ((View.whole main_v80).slice (win5_2.rect t)).set ↔ _
  rw [View.set_slice_whole, Rect.mem_set_unit]
  exact Iff.rfl

/-- Row r lies in the block of point r / 8000: the 25 blocks of 8000 rows fill the 200000 rows. -/
theorem row_cover (i : S200000x2.Idx) :
    ∃ t : Fin cfg5.N, (cfg5.win 2).flush t = true ∧ i ∈ ((cfg5.win 2).blk t).view.set := by
  have hi0 : (i 0).val < 200000 := (i 0).isLt
  have hi1 : (i 1).val < 2 := (i 1).isLt
  have hN : cfg5.N = 25 := N_5
  obtain ⟨t, ht⟩ : ∃ t : Fin cfg5.N, t.val = (i 0).val / 8000 := ⟨⟨(i 0).val / 8000, by rw [hN]; omega⟩, rfl⟩
  obtain ⟨-, -, -, -, e4, e5⟩ := block_index t
  refine ⟨t, flush5_2 t, ?_⟩
  rw [mem_block]
  intro a
  match a with
  | ⟨0, _⟩ => show win5_2.index t (0 : Fin 2) * 8000 ≤ (i 0).val ∧ (i 0).val < win5_2.index t (0 : Fin 2) * 8000 + 8000; omega
  | ⟨1, _⟩ => show win5_2.index t (1 : Fin 2) * 2 ≤ (i 1).val ∧ (i 1).val < win5_2.index t (1 : Fin 2) * 2 + 2; omega

/-- The array after the step is the activation of the whole input array. -/
theorem final (c : Dev nD) :
    (dat5 (F := Ideal) V c).arrAt 2 cfg5.N = Cert.Layer.actRow 200000 2 (V c main_v78) (V c main_v79) :=
  (dat5 (F := Ideal) V c).arrAt_eq_of_cover 2 _ (fun t _ => block_rows V c t) row_cover

end Cert.KernelIdeal.Act5

end
-- ==== Proof.Lin6.lean ====
/-
  The last (classifier) linear layer, from blocks of rows to the whole array.

  The region walks a grid of 25 points. Point `t` sees rows `8000·t … 8000·t + 7999` of the 200000 × 2 feature
  array as a block of 8000 rows, together with the whole 2 × 2 weight matrix and the whole 1 × 2 bias row, and
  writes rows `8000·t … 8000·t + 7999` of the 200000 × 2 result: entry `(p, q)` of its block is
  `∑ k, x (8000·t + p, k) * W (k, q) + b (0, q)` (the body first casts its block of features to the shape it
  already has, which changes nothing).

  So the entry of the result in row `r` depends only on row `r` of the features (and on all of `W` and `b`),
  whichever point writes it: every block is the restriction, to its rows, of ONE function of the whole arrays, the
  layer `lin` of `Proof/Layer.lean`. Row `r` lies in the block of point `r / 8000`, and `25 · 8000 = 200000`, so the
  blocks fill the array, and the array ends holding `lin` of the arrays the region was entered with.

  In order: the product's operand indices at an entry (`lhs_row` … `rhs_col`), the product and the body's arithmetic
  at an entry (`rows_mul_apply`, `payload_apply`), the block indices of the four windows over the grid
  (`block_index`), what a point writes back (`flushed_eq`), the cover (`mem_block`, `row_cover`), the array (`final`).
-/
import proofs.«109775_j67156108640501_1_alg».proof.Proof.Gen.KernelIdeal.Frame
import proofs.«109775_j67156108640501_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin6

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-- The left operand of the product at output entry `i` and summation position `s` sits in row `i 0`. -/
theorem lhs_row (i : S8000x2.Idx) (s : dot_S8000x2_S2x2_S8000x2_1_0_0_1_n_n.contr.Idx) :
    (dot_S8000x2_S2x2_S8000x2_1_0_0_1_n_n.lhsIdx i s 0).val = (i 0).val := by
  unfold DotDims.lhsIdx
  rw [dif_neg (show ¬(0 : Fin S8000x2.rank) ∈ dot_S8000x2_S2x2_S8000x2_1_0_0_1_n_n.lhsBatch by decide), dif_pos (show (0 : Fin S8000x2.rank) ∈ dot_S8000x2_S2x2_S8000x2_1_0_0_1_n_n.lhsNonContracting by decide)]
  rfl
/-- Its column is the summation position. -/
theorem lhs_col (i : S8000x2.Idx) (s : dot_S8000x2_S2x2_S8000x2_1_0_0_1_n_n.contr.Idx) :
    (dot_S8000x2_S2x2_S8000x2_1_0_0_1_n_n.lhsIdx i s 1).val = (s ⟨0, by decide⟩).val :=
  dot_S8000x2_S2x2_S8000x2_1_0_0_1_n_n.lhsIdx_val_of_single rfl i s
/-- The right operand sits in the row of the summation position, -/
theorem rhs_row (i : S8000x2.Idx) (s : dot_S8000x2_S2x2_S8000x2_1_0_0_1_n_n.contr.Idx) :
    (dot_S8000x2_S2x2_S8000x2_1_0_0_1_n_n.rhsIdx i s 0).val = (s ⟨0, by decide⟩).val :=
  dot_S8000x2_S2x2_S8000x2_1_0_0_1_n_n.rhsIdx_val_of_single rfl i s
/-- and in column `i 1`. -/
theorem rhs_col (i : S8000x2.Idx) (s : dot_S8000x2_S2x2_S8000x2_1_0_0_1_n_n.contr.Idx) :
    (dot_S8000x2_S2x2_S8000x2_1_0_0_1_n_n.rhsIdx i s 1).val = (i 1).val := by
  unfold DotDims.rhsIdx
  rw [dif_neg (show ¬(1 : Fin S2x2.rank) ∈ dot_S8000x2_S2x2_S8000x2_1_0_0_1_n_n.rhsBatch by decide), dif_pos (show (1 : Fin S2x2.rank) ∈ dot_S8000x2_S2x2_S8000x2_1_0_0_1_n_n.rhsNonContracting by decide)]
  rfl

set_option maxHeartbeats 400000 in
/-- The product of a block of rows with the weights, read at an entry. -/
theorem rows_mul_apply (x0 : FVec Ideal S8000x2 .f32) (x1 : FVec Ideal S2x2 .f32) (p : Fin 8000) (q : Fin 2) :
    matmul (F := Ideal) (φ₁ := .f32) (φ₂ := .f32) dot_S8000x2_S2x2_S8000x2_1_0_0_1_n_n none x0 x1 (constant (F := Ideal) S8000x2 .f32 0x00000000#32) (ix2 p q)
      = ∑ k : Fin 2, x0 (ix2 p k) * x1 (ix2 k q) := by
  refine (Ideal.matmul_constant_zero_apply dot_S8000x2_S2x2_S8000x2_1_0_0_1_n_n none x0 x1 (ix2 p q)).trans ?_
  rw [← Equiv.sum_comp (ValueIdx.contrEquiv1 dot_S8000x2_S2x2_S8000x2_1_0_0_1_n_n 2 rfl rfl).symm]
  refine Finset.sum_congr rfl fun k _ => ?_
  have hk := ValueIdx.contrEquiv1_symm_val dot_S8000x2_S2x2_S8000x2_1_0_0_1_n_n 2 rfl rfl k
  have el : dot_S8000x2_S2x2_S8000x2_1_0_0_1_n_n.lhsIdx (ix2 p q) ((ValueIdx.contrEquiv1 dot_S8000x2_S2x2_S8000x2_1_0_0_1_n_n 2 rfl rfl).symm k) = ix2 p k := funext fun a => Fin.ext (by
    match a with
    | ⟨0, _⟩ => exact lhs_row _ _
    | ⟨1, _⟩ => exact (lhs_col _ _).trans hk)
  have er : dot_S8000x2_S2x2_S8000x2_1_0_0_1_n_n.rhsIdx (ix2 p q) ((ValueIdx.contrEquiv1 dot_S8000x2_S2x2_S8000x2_1_0_0_1_n_n 2 rfl rfl).symm k) = ix2 k q := funext fun a => Fin.ext (by
    match a with
    | ⟨0, _⟩ => exact (rhs_row _ _).trans hk
    | ⟨1, _⟩ => exact rhs_col _ _)
  rw [el, er]

set_option maxHeartbeats 400000 in
/-- The body's arithmetic at an entry of the block. -/
theorem payload_apply (x0 : Vec Ideal S8000x2 .f32) (x1 : Vec Ideal S2x2 .f32) (x2 : Vec Ideal S1x2 .f32) (p : Fin 8000) (q : Fin 2) :
    k6_pay1 x0 x1 x2 (ix2 p q) = (∑ k : Fin 2, x0 (ix2 p k) * x1 (ix2 k q)) + x2 (ix2 0 q) := by
  unfold k6_pay1
  refine (addf_apply _ _ _).trans ?_
  rw [shapeCast_self, rows_mul_apply, broadcastTo_1b_ab_apply, shapeCast_self]

/-- The printed index maps, decided once over the 25 points: the row-blocked windows (the features and the
    result) are at block `(t, 0)`, the weights and the bias at block `(0, 0)`. -/
theorem block_index : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

set_option maxHeartbeats 400000 in
/-- What point `t` writes back is block `t` of the layer's whole-array function of the arrays the region finds. -/
theorem flushed_eq (c : Dev nD) (t : Fin cfg6.N) :
    (dat6 V c).flushed 3 t = ((cfg6.win 3).blk t).view.read (Elt Ideal)
      (Cert.Layer.lin 200000 2 2 (V c main_v80) (V c main_arg8) (V c main_v81)) := by
  show (cfg6.win 3).cut (grid6.coords t) ((dat6 V c).after 3 t) = _
  rw [after6_3]
  unfold out6_3
  rw [View.canon_unit_zero zero_offsets]
  simp only [View.ld_unit_zero (S := S8000x2) zero_offsets, View.ld_unit_zero (S := S2x2) zero_offsets,
    View.ld_unit_zero (S := S1x2) zero_offsets]
  obtain ⟨e00, e01, e10, e11, e20, e21, e30, e31⟩ := block_index t
  have hN : cfg6.N = 25 := N_6
  have ht : t.val < 25 := by have := t.isLt; omega
  funext j
  obtain ⟨p, q, rfl⟩ : ∃ (p : Fin 8000) (q : Fin 2), j = ix2 p q := ⟨j 0, j 1, eq_ix2 j⟩
  refine (payload_apply (iblk6 V c 0 t) (iblk6 V c 1 t) (iblk6 V c 2 t) p q).trans ?_
  have hp : p.val < 8000 := p.isLt
  have h0 : ∀ k : Fin 2, iblk6 V c 0 t (ix2 p k)
      = V c main_v80 (ix2 (⟨t.val * 8000 + p.val, by omega⟩ : Fin 200000) k) := fun k => by
    show V c main_v80 (((cfg6.win 0).blk t).view.emb (ix2 p k)) = V c main_v80 _
    refine congrArg (V c main_v80) (funext fun a => Fin.ext ?_)
    match a with
    | ⟨0, _⟩ => show win6_0.index t (0 : Fin 2) * 8000 + 1 * p.val = t.val * 8000 + p.val; omega
    | ⟨1, _⟩ => show win6_0.index t (1 : Fin 2) * 2 + 1 * k.val = k.val; omega
  have h1 : ∀ k : Fin 2, iblk6 V c 1 t (ix2 k q) = V c main_arg8 (ix2 k q) := fun k => by
    show V c main_arg8 (((cfg6.win 1).blk t).view.emb (ix2 k q)) = V c main_arg8 _
    refine congrArg (V c main_arg8) (funext fun a => Fin.ext ?_)
    match a with
    | ⟨0, _⟩ => show win6_1.index t (0 : Fin 2) * 2 + 1 * k.val = k.val; omega
    | ⟨1, _⟩ => show win6_1.index t (1 : Fin 2) * 2 + 1 * q.val = q.val; omega
  have h2 : iblk6 V c 2 t (ix2 (0 : Fin 1) q) = V c main_v81 (ix2 (0 : Fin 1) q) := by
    show V c main_v81 (((cfg6.win 2).blk t).view.emb (ix2 (0 : Fin 1) q)) = V c main_v81 _
    refine congrArg (V c main_v81) (funext fun a => Fin.ext ?_)
    match a with
    | ⟨0, _⟩ => show win6_2.index t (0 : Fin 2) * 1 + 1 * 0 = 0; omega
    | ⟨1, _⟩ => show win6_2.index t (1 : Fin 2) * 2 + 1 * q.val = q.val; omega
  have h3 : ((cfg6.win 3).blk t).view.emb (ix2 p q) = ix2 (⟨t.val * 8000 + p.val, by omega⟩ : Fin 200000) q :=
    funext fun a => Fin.ext (by
      match a with
      | ⟨0, _⟩ => show win6_3.index t (0 : Fin 2) * 8000 + 1 * p.val = t.val * 8000 + p.val; omega
      | ⟨1, _⟩ => show win6_3.index t (1 : Fin 2) * 2 + 1 * q.val = q.val; omega)
  rw [View.read_apply, h3, Cert.Layer.lin_apply, h2]
  refine congrArg (· + _) (Finset.sum_congr rfl fun k _ => ?_)
  rw [h0 k, h1 k]

/-- An index of the result array is in point `t`'s block iff each coordinate is in the block's range on its axis. -/
theorem mem_block (t : Fin cfg6.N) (i : S200000x2.Idx) :
    i ∈ ((cfg6.win 3).blk t).view.set ↔ ∀ a : Fin 2, win6_3.index t a * S8000x2.size a ≤ (i a).val ∧ (i a).val < win6_3.index t a * S8000x2.size a + S8000x2.size a := by
  show i ∈ ((View.whole main_v82).slice (win6_3.rect t)).set ↔ _
  rw [View.set_slice_whole, Rect.mem_set_unit]
  exact Iff.rfl

set_option maxHeartbeats 400000 in
/-- Row `r` of the result lies in the block of point `r / 8000`: the 25 blocks of 8000 rows fill the 200000 rows. -/
theorem row_cover (i : S200000x2.Idx) :
    ∃ t : Fin cfg6.N, (cfg6.win 3).flush t = true ∧ i ∈ ((cfg6.win 3).blk t).view.set := by
  have hN : cfg6.N = 25 := N_6
  have hi0 : (i 0).val < 200000 := (i 0).isLt
  have hi1 : (i 1).val < 2 := (i 1).isLt
  have hlt : (i 0).val / 8000 < cfg6.N := by rw [hN]; omega
  obtain ⟨-, -, -, -, -, -, e30, e31⟩ := block_index ⟨(i 0).val / 8000, hlt⟩
  have e30' : win6_3.index ⟨(i 0).val / 8000, hlt⟩ (0 : Fin 2) = (i 0).val / 8000 := e30
  refine ⟨⟨(i 0).val / 8000, hlt⟩, flush6_3 _, ?_⟩
  rw [mem_block]
  intro a
  match a with
  | ⟨0, _⟩ => show win6_3.index ⟨(i 0).val / 8000, hlt⟩ (0 : Fin 2) * 8000 ≤ (i 0).val ∧ (i 0).val < win6_3.index ⟨(i 0).val / 8000, hlt⟩ (0 : Fin 2) * 8000 + 8000; omega
  | ⟨1, _⟩ => show win6_3.index ⟨(i 0).val / 8000, hlt⟩ (1 : Fin 2) * 2 ≤ (i 1).val ∧ (i 1).val < win6_3.index ⟨(i 0).val / 8000, hlt⟩ (1 : Fin 2) * 2 + 2; omega

/-- The result array after the region: the linear layer of the arrays the region finds, entry by entry. -/
theorem final (c : Dev nD) : (dat6 (F := Ideal) V c).arrAt 3 cfg6.N
    = Cert.Layer.lin 200000 2 2 (V c main_v80) (V c main_arg8) (V c main_v81) :=
  (dat6 V c).arrAt_eq_of_cover 3 _ (fun t _ => flushed_eq V c t) row_cover

end Cert.KernelIdeal.Lin6

end
-- ==== Proof.RGlue.lean ====
/-
  The edge aggregation that both programs apply between a projection and an activation, named once so that no proof
  ever has to open it.

  From the edge list `e` (row 0 the sources, row 1 the destinations): `src e` and `dst e` append one self loop per node;
  `col s` is an index vector with a negative entry wrapped by the node count, as a column; `deg d` is
  `1 / sqrt` of each node's in-degree (a scatter-add of ones over the destinations); `norm s d` is the edge weight
  `deg[src] * deg[dst]`; and `aggD proj s d n` sums, into each destination node, the source node's row of `proj` times the
  edge weight — a gather of rows, a product with the weight broadcast along the row, a scatter-add of rows into zeros.
-/
import proofs.«109775_j67156108640501_1_alg».proof.Proof.Gen.ReferenceIdeal

noncomputable section

namespace Cert.ReferenceIdeal.Glue

open Cert.ReferenceIdeal Cert.ReferenceIdeal.Gen Idealize.ShloMosaic

variable {F : FTy → Type} [FloatOps F]

/-- The source node of every message: the edge list's row 0, then one self loop per node. -/
def src (e : (⟨S2x6400000, .i32⟩ : BufTy).Contents (Elt F)) : (⟨S6600000, .i32⟩ : BufTy).Contents (Elt F) :=
  concatenate S6600000 0 [⟨S6400000, (shapeCast _ (extractStridedSlice S1x6400000 ![0, 0] e slices_S2x6400000_S1x6400000_0_0) shapeCasts_S1x6400000_S6400000)⟩, ⟨S200000, (iotaInDim S200000 32 0)⟩] concatenates_S6400000_S200000_S6600000_d0

/-- The destination node of every message: the edge list's row 1, then one self loop per node. -/
def dst (e : (⟨S2x6400000, .i32⟩ : BufTy).Contents (Elt F)) : (⟨S6600000, .i32⟩ : BufTy).Contents (Elt F) :=
  concatenate S6600000 0 [⟨S6400000, (shapeCast _ (extractStridedSlice S1x6400000 ![1, 0] e slices_S2x6400000_S1x6400000_1_0) shapeCasts_S1x6400000_S6400000)⟩, ⟨S200000, (iotaInDim S200000 32 0)⟩] concatenates_S6400000_S200000_S6600000_d0

/-- A node index vector as a column of gather indices, a negative index wrapped by the node count. -/
def col (s : (⟨S6600000, .i32⟩ : BufTy).Contents (Elt F)) : (⟨S6600000x1, .i32⟩ : BufTy).Contents (Elt F) :=
  broadcastInDim S6600000x1 ![0] bcast_S6600000_S6600000x1_0 (select (cmpi .slt s (broadcastInDim S6600000 ![] bcast_S_S6600000 (constantI S_ 32 0#32))) (addi s (broadcastInDim S6600000 ![] bcast_S_S6600000 (constantI S_ 32 200000#32))) s)

/-- `1 / sqrt` of each node's in-degree: ones scatter-added over the destinations, then `rsqrt`. -/
def deg (d : (⟨S6600000, .i32⟩ : BufTy).Contents (Elt F)) : (⟨S200000, .f32⟩ : BufTy).Contents (Elt F) :=
  Host.rsqrt (Host.scatterAdd scatter_S200000_S6600000x1_S6600000_n_0_0_1 (broadcastInDim S200000 ![] bcast_S_S200000 (constant S_ .f32 0x00000000#32)) (broadcastInDim S6600000x1 ![0] bcast_S6600000_S6600000x1_0 d) (broadcastInDim S6600000 ![] bcast_S_S6600000 (constant S_ .f32 0x3F800000#32)))

/-- The weight of every message: `deg[src] * deg[dst]`. -/
def norm (s d : (⟨S6600000, .i32⟩ : BufTy).Contents (Elt F)) : (⟨S6600000, .f32⟩ : BufTy).Contents (Elt F) :=
  mulf (Host.gather gather_S200000_S6600000x1_S6600000_n_0_n_n_0_1_1 (deg d) (col s)) (Host.gather gather_S200000_S6600000x1_S6600000_n_0_n_n_0_1_1 (deg d) (col d))

/-- Width 10: each destination node's sum of its messages, a message being the source node's row times the edge weight. -/
def agg10 (proj : (⟨S200000x10, .f32⟩ : BufTy).Contents (Elt F)) (s d : (⟨S6600000, .i32⟩ : BufTy).Contents (Elt F))
    (n : (⟨S6600000, .f32⟩ : BufTy).Contents (Elt F)) : (⟨S200000x10, .f32⟩ : BufTy).Contents (Elt F) :=
  Host.scatterAdd scatter_S200000x10_S6600000x1_S6600000x10_1_0_0_1 (broadcastInDim S200000x10 ![] bcast_S_S200000x10 (constant S_ .f32 0x00000000#32)) (broadcastInDim S6600000x1 ![0] bcast_S6600000_S6600000x1_0 d) (mulf (Host.gather gather_S200000x10_S6600000x1_S6600000x10_1_0_n_n_0_1_110 proj (col s)) (broadcastInDim S6600000x10 ![0, 1] bcast_S6600000x1_S6600000x10_0_1 (broadcastInDim S6600000x1 ![0] bcast_S6600000_S6600000x1_0 n)))

/-- Width 5: the same aggregation. -/
def agg5 (proj : (⟨S200000x5, .f32⟩ : BufTy).Contents (Elt F)) (s d : (⟨S6600000, .i32⟩ : BufTy).Contents (Elt F))
    (n : (⟨S6600000, .f32⟩ : BufTy).Contents (Elt F)) : (⟨S200000x5, .f32⟩ : BufTy).Contents (Elt F) :=
  Host.scatterAdd scatter_S200000x5_S6600000x1_S6600000x5_1_0_0_1 (broadcastInDim S200000x5 ![] bcast_S_S200000x5 (constant S_ .f32 0x00000000#32)) (broadcastInDim S6600000x1 ![0] bcast_S6600000_S6600000x1_0 d) (mulf (Host.gather gather_S200000x5_S6600000x1_S6600000x5_1_0_n_n_0_1_15 proj (col s)) (broadcastInDim S6600000x5 ![0, 1] bcast_S6600000x1_S6600000x5_0_1 (broadcastInDim S6600000x1 ![0] bcast_S6600000_S6600000x1_0 n)))

/-- Width 2: the same aggregation. -/
def agg2 (proj : (⟨S200000x2, .f32⟩ : BufTy).Contents (Elt F)) (s d : (⟨S6600000, .i32⟩ : BufTy).Contents (Elt F))
    (n : (⟨S6600000, .f32⟩ : BufTy).Contents (Elt F)) : (⟨S200000x2, .f32⟩ : BufTy).Contents (Elt F) :=
  Host.scatterAdd scatter_S200000x2_S6600000x1_S6600000x2_1_0_0_1 (broadcastInDim S200000x2 ![] bcast_S_S200000x2 (constant S_ .f32 0x00000000#32)) (broadcastInDim S6600000x1 ![0] bcast_S6600000_S6600000x1_0 d) (mulf (Host.gather gather_S200000x2_S6600000x1_S6600000x2_1_0_n_n_0_1_12 proj (col s)) (broadcastInDim S6600000x2 ![0, 1] bcast_S6600000x1_S6600000x2_0_1 (broadcastInDim S6600000x1 ![0] bcast_S6600000_S6600000x1_0 n)))

end Cert.ReferenceIdeal.Glue

end
-- ==== Proof.RLayers.lean ====
/-
  The reference's projections and activations as whole-array functions over the extended reals.

  A projection contracts the second axis of a node-feature array with the first axis of a weight matrix:
  its entry (i, j) is the sum over k of x (i, k) * W (k, j). Over the extended reals, where the host's contraction
  is that exact sum, this is the layer function mm, at each of the four widths 128 to 10, 10 to 5, 5 to 2, 2 to 2.
  The contraction is indexed by a one-axis index set; the sum is carried over to the sum over k : Fin K along the
  bijection between the two, and the operand indices at (i, k) are then (i 0, k) and (k, i 1), coordinate by coordinate.

  A bias vector reaches an activation broadcast twice, first to a one-row matrix and then down the rows, so at
  entry (i, j) it reads b j. An activation adds it and takes tanh entry by entry: the layer function act.
  The classifier adds the same twice-broadcast bias to a projection: the layer function linB.
-/
import proofs.«109775_j67156108640501_1_alg».proof.Proof.Gen.ReferenceIdeal.Read
import proofs.«109775_j67156108640501_1_alg».proof.Proof.Layer

noncomputable section

namespace Cert.ReferenceIdeal.Form

open Cert.ReferenceIdeal Cert.ReferenceIdeal.Gen Idealize.ShloMosaic Idealize.ShloMosaic.ValueIdx

/-! ## Projections -/

set_option maxHeartbeats 400000 in
/-- The first projection, 128 features to 10: entry (i, j) is the sum over k of x (i, k) * W (k, j). -/
theorem dot_128_10 (x : (⟨S200000x128, .f32⟩ : BufTy).Contents (Elt Ideal)) (W : (⟨S128x10, .f32⟩ : BufTy).Contents (Elt Ideal)) :
    Host.dotGeneral (F := Ideal) (φ₁ := .f32) (φ₂ := .f32) dot_S200000x128_S128x10_S200000x10_1_0_0_1_n_n none x W = Cert.Layer.mm 200000 128 10 x W := by
  funext i
  refine (Read.val_main_v27_apply x W i).trans ?_
  show ∑ k : Fin 128, x (Read.lidx_main_v27 i k) * W (Read.ridx_main_v27 i k) = ∑ k : Fin 128, x (ix2 (i 0) k) * W (ix2 k (i 1))
  refine Finset.sum_congr rfl fun k _ => ?_
  have el : Read.lidx_main_v27 i k = ix2 (i 0) k := funext fun a => match a with | ⟨0, _⟩ => rfl | ⟨1, _⟩ => rfl
  have er : Read.ridx_main_v27 i k = ix2 k (i 1) := funext fun a => match a with | ⟨0, _⟩ => rfl | ⟨1, _⟩ => rfl
  rw [el, er]
  rfl

set_option maxHeartbeats 400000 in
/-- The second projection, 10 features to 5, of any node-feature array. -/
theorem dot_10_5 (y : (⟨S200000x10, .f32⟩ : BufTy).Contents (Elt Ideal)) (W : (⟨S10x5, .f32⟩ : BufTy).Contents (Elt Ideal)) :
    Host.dotGeneral (F := Ideal) (φ₁ := .f32) (φ₂ := .f32) dot_S200000x10_S10x5_S200000x5_1_0_0_1_n_n none y W = Cert.Layer.mm 200000 10 5 y W := by
  funext i
  show Host.dotGeneral (F := Ideal) (φ₁ := .f32) (φ₂ := .f32) dot_S200000x10_S10x5_S200000x5_1_0_0_1_n_n none y W i = ∑ k : Fin 10, y (ix2 (i 0) k) * W (ix2 k (i 1))
  simp only [Host.dotGeneral]
  rw [Ideal.dotGeneral_apply, ← Equiv.sum_comp (ValueIdx.contrEquiv1 dot_S200000x10_S10x5_S200000x5_1_0_0_1_n_n 10 rfl rfl).symm]
  refine Finset.sum_congr rfl fun k _ => ?_
  have hk := ValueIdx.contrEquiv1_symm_val dot_S200000x10_S10x5_S200000x5_1_0_0_1_n_n 10 rfl rfl k
  have el : dot_S200000x10_S10x5_S200000x5_1_0_0_1_n_n.lhsIdx i ((ValueIdx.contrEquiv1 dot_S200000x10_S10x5_S200000x5_1_0_0_1_n_n 10 rfl rfl).symm k) = ix2 (i 0) k := funext fun a => Fin.ext (by
    match a with
    | ⟨0, _⟩ => exact Read.lhs_main_v45_0 _ _
    | ⟨1, _⟩ => exact (Read.lhs_main_v45_1 _ _).trans hk)
  have er : dot_S200000x10_S10x5_S200000x5_1_0_0_1_n_n.rhsIdx i ((ValueIdx.contrEquiv1 dot_S200000x10_S10x5_S200000x5_1_0_0_1_n_n 10 rfl rfl).symm k) = ix2 k (i 1) := funext fun a => Fin.ext (by
    match a with
    | ⟨0, _⟩ => exact (Read.rhs_main_v45_0 _ _).trans hk
    | ⟨1, _⟩ => exact Read.rhs_main_v45_1 _ _)
  rw [el, er]
  rfl

set_option maxHeartbeats 400000 in
/-- The third projection, 5 features to 2, of any node-feature array. -/
theorem dot_5_2 (y : (⟨S200000x5, .f32⟩ : BufTy).Contents (Elt Ideal)) (W : (⟨S5x2, .f32⟩ : BufTy).Contents (Elt Ideal)) :
    Host.dotGeneral (F := Ideal) (φ₁ := .f32) (φ₂ := .f32) dot_S200000x5_S5x2_S200000x2_1_0_0_1_n_n none y W = Cert.Layer.mm 200000 5 2 y W := by
  funext i
  show Host.dotGeneral (F := Ideal) (φ₁ := .f32) (φ₂ := .f32) dot_S200000x5_S5x2_S200000x2_1_0_0_1_n_n none y W i = ∑ k : Fin 5, y (ix2 (i 0) k) * W (ix2 k (i 1))
  simp only [Host.dotGeneral]
  rw [Ideal.dotGeneral_apply, ← Equiv.sum_comp (ValueIdx.contrEquiv1 dot_S200000x5_S5x2_S200000x2_1_0_0_1_n_n 5 rfl rfl).symm]
  refine Finset.sum_congr rfl fun k _ => ?_
  have hk := ValueIdx.contrEquiv1_symm_val dot_S200000x5_S5x2_S200000x2_1_0_0_1_n_n 5 rfl rfl k
  have el : dot_S200000x5_S5x2_S200000x2_1_0_0_1_n_n.lhsIdx i ((ValueIdx.contrEquiv1 dot_S200000x5_S5x2_S200000x2_1_0_0_1_n_n 5 rfl rfl).symm k) = ix2 (i 0) k := funext fun a => Fin.ext (by
    match a with
    | ⟨0, _⟩ => exact Read.lhs_main_v63_0 _ _
    | ⟨1, _⟩ => exact (Read.lhs_main_v63_1 _ _).trans hk)
  have er : dot_S200000x5_S5x2_S200000x2_1_0_0_1_n_n.rhsIdx i ((ValueIdx.contrEquiv1 dot_S200000x5_S5x2_S200000x2_1_0_0_1_n_n 5 rfl rfl).symm k) = ix2 k (i 1) := funext fun a => Fin.ext (by
    match a with
    | ⟨0, _⟩ => exact (Read.rhs_main_v63_0 _ _).trans hk
    | ⟨1, _⟩ => exact Read.rhs_main_v63_1 _ _)
  rw [el, er]
  rfl

set_option maxHeartbeats 400000 in
/-- The classifier's projection, 2 features to 2, of any node-feature array. -/
theorem dot_2_2 (y : (⟨S200000x2, .f32⟩ : BufTy).Contents (Elt Ideal)) (W : (⟨S2x2, .f32⟩ : BufTy).Contents (Elt Ideal)) :
    Host.dotGeneral (F := Ideal) (φ₁ := .f32) (φ₂ := .f32) dot_S200000x2_S2x2_S200000x2_1_0_0_1_n_n none y W = Cert.Layer.mm 200000 2 2 y W := by
  funext i
  show Host.dotGeneral (F := Ideal) (φ₁ := .f32) (φ₂ := .f32) dot_S200000x2_S2x2_S200000x2_1_0_0_1_n_n none y W i = ∑ k : Fin 2, y (ix2 (i 0) k) * W (ix2 k (i 1))
  simp only [Host.dotGeneral]
  rw [Ideal.dotGeneral_apply, ← Equiv.sum_comp (ValueIdx.contrEquiv1 dot_S200000x2_S2x2_S200000x2_1_0_0_1_n_n 2 rfl rfl).symm]
  refine Finset.sum_congr rfl fun k _ => ?_
  have hk := ValueIdx.contrEquiv1_symm_val dot_S200000x2_S2x2_S200000x2_1_0_0_1_n_n 2 rfl rfl k
  have el : dot_S200000x2_S2x2_S200000x2_1_0_0_1_n_n.lhsIdx i ((ValueIdx.contrEquiv1 dot_S200000x2_S2x2_S200000x2_1_0_0_1_n_n 2 rfl rfl).symm k) = ix2 (i 0) k := funext fun a => Fin.ext (by
    match a with
    | ⟨0, _⟩ => exact Read.lhs_main_v81_0 _ _
    | ⟨1, _⟩ => exact (Read.lhs_main_v81_1 _ _).trans hk)
  have er : dot_S200000x2_S2x2_S200000x2_1_0_0_1_n_n.rhsIdx i ((ValueIdx.contrEquiv1 dot_S200000x2_S2x2_S200000x2_1_0_0_1_n_n 2 rfl rfl).symm k) = ix2 k (i 1) := funext fun a => Fin.ext (by
    match a with
    | ⟨0, _⟩ => exact (Read.rhs_main_v81_0 _ _).trans hk
    | ⟨1, _⟩ => exact Read.rhs_main_v81_1 _ _)
  rw [el, er]
  rfl

/-! ## Biases and activations -/

/-- A bias vector of length 10, broadcast to one row and then down the rows, reads b j at entry (i, j). -/
theorem bias_10 (b : (⟨S10, .f32⟩ : BufTy).Contents (Elt Ideal)) (i : S200000x10.Idx) :
    broadcastInDim S200000x10 ![0, 1] bcast_S1x10_S200000x10_0_1 (broadcastInDim S1x10 ![1] bcast_S10_S1x10_1 b) i = b (ix1 (i 1)) :=
  (Read.val_main_v42_apply b i).trans ((Read.val_main_v41_apply b _).trans
    (congrArg b (funext fun a => match a with | ⟨0, _⟩ => rfl)))

/-- The activation at width 10: tanh of each entry plus the bias of its column. -/
theorem act_10 (a : (⟨S200000x10, .f32⟩ : BufTy).Contents (Elt Ideal)) (b : (⟨S10, .f32⟩ : BufTy).Contents (Elt Ideal)) :
    Host.tanh (F := Ideal) (φ := .f32) (addf (F := Ideal) (φ := .f32) a (broadcastInDim S200000x10 ![0, 1] bcast_S1x10_S200000x10_0_1 (broadcastInDim S1x10 ![1] bcast_S10_S1x10_1 b)))
      = Cert.Layer.act 200000 10 a b := by
  funext i
  show Ideal.tanh (a i + broadcastInDim S200000x10 ![0, 1] bcast_S1x10_S200000x10_0_1 (broadcastInDim S1x10 ![1] bcast_S10_S1x10_1 b) i)
    = Ideal.tanh (a i + b (ix1 (i 1)))
  rw [bias_10]

/-- A bias vector of length 5, broadcast to one row and then down the rows, reads b j at entry (i, j). -/
theorem bias_5 (b : (⟨S5, .f32⟩ : BufTy).Contents (Elt Ideal)) (i : S200000x5.Idx) :
    broadcastInDim S200000x5 ![0, 1] bcast_S1x5_S200000x5_0_1 (broadcastInDim S1x5 ![1] bcast_S5_S1x5_1 b) i = b (ix1 (i 1)) :=
  (Read.val_main_v60_apply b i).trans ((Read.val_main_v59_apply b _).trans
    (congrArg b (funext fun a => match a with | ⟨0, _⟩ => rfl)))

/-- The activation at width 5: tanh of each entry plus the bias of its column. -/
theorem act_5 (a : (⟨S200000x5, .f32⟩ : BufTy).Contents (Elt Ideal)) (b : (⟨S5, .f32⟩ : BufTy).Contents (Elt Ideal)) :
    Host.tanh (F := Ideal) (φ := .f32) (addf (F := Ideal) (φ := .f32) a (broadcastInDim S200000x5 ![0, 1] bcast_S1x5_S200000x5_0_1 (broadcastInDim S1x5 ![1] bcast_S5_S1x5_1 b)))
      = Cert.Layer.act 200000 5 a b := by
  funext i
  show Ideal.tanh (a i + broadcastInDim S200000x5 ![0, 1] bcast_S1x5_S200000x5_0_1 (broadcastInDim S1x5 ![1] bcast_S5_S1x5_1 b) i)
    = Ideal.tanh (a i + b (ix1 (i 1)))
  rw [bias_5]

/-- A bias vector of length 2, broadcast to one row and then down the rows, reads b j at entry (i, j). -/
theorem bias_2 (b : (⟨S2, .f32⟩ : BufTy).Contents (Elt Ideal)) (i : S200000x2.Idx) :
    broadcastInDim S200000x2 ![0, 1] bcast_S1x2_S200000x2_0_1 (broadcastInDim S1x2 ![1] bcast_S2_S1x2_1 b) i = b (ix1 (i 1)) :=
  (Read.val_main_v78_apply b i).trans ((Read.val_main_v77_apply b _).trans
    (congrArg b (funext fun a => match a with | ⟨0, _⟩ => rfl)))

/-- The activation at width 2: tanh of each entry plus the bias of its column. -/
theorem act_2 (a : (⟨S200000x2, .f32⟩ : BufTy).Contents (Elt Ideal)) (b : (⟨S2, .f32⟩ : BufTy).Contents (Elt Ideal)) :
    Host.tanh (F := Ideal) (φ := .f32) (addf (F := Ideal) (φ := .f32) a (broadcastInDim S200000x2 ![0, 1] bcast_S1x2_S200000x2_0_1 (broadcastInDim S1x2 ![1] bcast_S2_S1x2_1 b)))
      = Cert.Layer.act 200000 2 a b := by
  funext i
  show Ideal.tanh (a i + broadcastInDim S200000x2 ![0, 1] bcast_S1x2_S200000x2_0_1 (broadcastInDim S1x2 ![1] bcast_S2_S1x2_1 b) i)
    = Ideal.tanh (a i + b (ix1 (i 1)))
  rw [bias_2]

/-! ## The classifier -/

/-- The classifier: the 2-to-2 projection plus the twice-broadcast bias vector. -/
theorem lin_2_2 (h : (⟨S200000x2, .f32⟩ : BufTy).Contents (Elt Ideal)) (Wc : (⟨S2x2, .f32⟩ : BufTy).Contents (Elt Ideal)) (bc : (⟨S2, .f32⟩ : BufTy).Contents (Elt Ideal)) :
    addf (F := Ideal) (φ := .f32) (Host.dotGeneral (F := Ideal) (φ₁ := .f32) (φ₂ := .f32) dot_S200000x2_S2x2_S200000x2_1_0_0_1_n_n none h Wc)
        (broadcastInDim S200000x2 ![0, 1] bcast_S1x2_S200000x2_0_1 (broadcastInDim S1x2 ![1] bcast_S2_S1x2_1 bc))
      = Cert.Layer.linB 200000 2 2 h Wc bc := by
  funext i
  show Host.dotGeneral (F := Ideal) (φ₁ := .f32) (φ₂ := .f32) dot_S200000x2_S2x2_S200000x2_1_0_0_1_n_n none h Wc i
      + broadcastInDim S200000x2 ![0, 1] bcast_S1x2_S200000x2_0_1 (broadcastInDim S1x2 ![1] bcast_S2_S1x2_1 bc) i
    = Cert.Layer.mm 200000 2 2 h Wc i + bc (ix1 (i 1))
  rw [dot_2_2, bias_2]

end Cert.ReferenceIdeal.Form

end
-- ==== Proof.RForm.lean ====
/-
  The reference's two results in layered form, over the extended reals.

  The reference computes, three times over, a projection of the node features (rows times a weight matrix), the edge
  aggregation of the projected rows (each destination node's sum of its messages, a message being the source node's
  row times the edge weight), and an activation (tanh of the aggregate plus a bias), at the widths 128 to 10, 10 to 5 and
  5 to 2; its second result is the third activation, and its first result is a linear classifier (a 2-to-2 projection
  plus a bias) of that. The edge aggregation is kept closed: the message sources, destinations and weights are the
  named functions of the edge list, and only the projections, the activations and the classifier are read entry by
  entry, as the layer functions mm, act and linB.

  First the result's composed term is regrouped under those names, which changes nothing but the spelling; then
  each projection and activation is replaced by its layer function, innermost first.
-/
import proofs.«109775_j67156108640501_1_alg».proof.Proof.Gen.ReferenceIdeal.Read
import proofs.«109775_j67156108640501_1_alg».proof.Proof.RGlue
import proofs.«109775_j67156108640501_1_alg».proof.Proof.Layer
import proofs.«109775_j67156108640501_1_alg».proof.Proof.RLayers

noncomputable section

namespace Cert.ReferenceIdeal.Form

open Cert.ReferenceIdeal Cert.ReferenceIdeal.Gen Idealize.ShloMosaic Idealize.ShloMosaic.TcCoe Idealize.SL.Sem Idealize.ShloMosaic.ValueIdx

variable (m : (ℓ : Loc nD τ sig) → Buf (Elt Ideal) ℓ) (c : Dev nD)

/-- The third layer's node features as a function of the arguments: activation of aggregation of projection, three
    times, at the widths 128 to 10, 10 to 5, 5 to 2; the message sources, destinations and weights come from the edge list. -/
def hidden : (⟨S200000x2, .f32⟩ : BufTy).Contents (Elt Ideal) :=
  Cert.Layer.act 200000 2 (Glue.agg2 (Cert.Layer.mm 200000 5 2 (Cert.Layer.act 200000 5 (Glue.agg5 (Cert.Layer.mm 200000 10 5 (Cert.Layer.act 200000 10 (Glue.agg10 (Cert.Layer.mm 200000 128 10 (m ((c.tc : Thread nD τ).loc main_arg0)) (m ((c.tc : Thread nD τ).loc main_arg2))) (Glue.src (F := Ideal) (m ((c.tc : Thread nD τ).loc main_arg1))) (Glue.dst (F := Ideal) (m ((c.tc : Thread nD τ).loc main_arg1))) (Glue.norm (Glue.src (F := Ideal) (m ((c.tc : Thread nD τ).loc main_arg1))) (Glue.dst (F := Ideal) (m ((c.tc : Thread nD τ).loc main_arg1))))) (m ((c.tc : Thread nD τ).loc main_arg3))) (m ((c.tc : Thread nD τ).loc main_arg4))) (Glue.src (F := Ideal) (m ((c.tc : Thread nD τ).loc main_arg1))) (Glue.dst (F := Ideal) (m ((c.tc : Thread nD τ).loc main_arg1))) (Glue.norm (Glue.src (F := Ideal) (m ((c.tc : Thread nD τ).loc main_arg1))) (Glue.dst (F := Ideal) (m ((c.tc : Thread nD τ).loc main_arg1))))) (m ((c.tc : Thread nD τ).loc main_arg5))) (m ((c.tc : Thread nD τ).loc main_arg6))) (Glue.src (F := Ideal) (m ((c.tc : Thread nD τ).loc main_arg1))) (Glue.dst (F := Ideal) (m ((c.tc : Thread nD τ).loc main_arg1))) (Glue.norm (Glue.src (F := Ideal) (m ((c.tc : Thread nD τ).loc main_arg1))) (Glue.dst (F := Ideal) (m ((c.tc : Thread nD τ).loc main_arg1))))) (m ((c.tc : Thread nD τ).loc main_arg7))

set_option maxRecDepth 8192 in
set_option maxHeartbeats 400000 in
/-- The second result's composed term, regrouped: the same host operations with the edge aggregation under its names. -/
theorem res_v80_host : Cert.ReferenceIdeal.Value.res_main_v80 (F := Ideal) m c =
    Host.tanh (F := Ideal) (φ := .f32) (addf (F := Ideal) (φ := .f32) (Glue.agg2 (Host.dotGeneral (F := Ideal) (φ₁ := .f32) (φ₂ := .f32) dot_S200000x5_S5x2_S200000x2_1_0_0_1_n_n none (Host.tanh (F := Ideal) (φ := .f32) (addf (F := Ideal) (φ := .f32) (Glue.agg5 (Host.dotGeneral (F := Ideal) (φ₁ := .f32) (φ₂ := .f32) dot_S200000x10_S10x5_S200000x5_1_0_0_1_n_n none (Host.tanh (F := Ideal) (φ := .f32) (addf (F := Ideal) (φ := .f32) (Glue.agg10 (Host.dotGeneral (F := Ideal) (φ₁ := .f32) (φ₂ := .f32) dot_S200000x128_S128x10_S200000x10_1_0_0_1_n_n none (m ((c.tc : Thread nD τ).loc main_arg0)) (m ((c.tc : Thread nD τ).loc main_arg2))) (Glue.src (F := Ideal) (m ((c.tc : Thread nD τ).loc main_arg1))) (Glue.dst (F := Ideal) (m ((c.tc : Thread nD τ).loc main_arg1))) (Glue.norm (Glue.src (F := Ideal) (m ((c.tc : Thread nD τ).loc main_arg1))) (Glue.dst (F := Ideal) (m ((c.tc : Thread nD τ).loc main_arg1))))) (broadcastInDim S200000x10 ![0, 1] bcast_S1x10_S200000x10_0_1 (broadcastInDim S1x10 ![1] bcast_S10_S1x10_1 (m ((c.tc : Thread nD τ).loc main_arg3)))))) (m ((c.tc : Thread nD τ).loc main_arg4))) (Glue.src (F := Ideal) (m ((c.tc : Thread nD τ).loc main_arg1))) (Glue.dst (F := Ideal) (m ((c.tc : Thread nD τ).loc main_arg1))) (Glue.norm (Glue.src (F := Ideal) (m ((c.tc : Thread nD τ).loc main_arg1))) (Glue.dst (F := Ideal) (m ((c.tc : Thread nD τ).loc main_arg1))))) (broadcastInDim S200000x5 ![0, 1] bcast_S1x5_S200000x5_0_1 (broadcastInDim S1x5 ![1] bcast_S5_S1x5_1 (m ((c.tc : Thread nD τ).loc main_arg5)))))) (m ((c.tc : Thread nD τ).loc main_arg6))) (Glue.src (F := Ideal) (m ((c.tc : Thread nD τ).loc main_arg1))) (Glue.dst (F := Ideal) (m ((c.tc : Thread nD τ).loc main_arg1))) (Glue.norm (Glue.src (F := Ideal) (m ((c.tc : Thread nD τ).loc main_arg1))) (Glue.dst (F := Ideal) (m ((c.tc : Thread nD τ).loc main_arg1))))) (broadcastInDim S200000x2 ![0, 1] bcast_S1x2_S200000x2_0_1 (broadcastInDim S1x2 ![1] bcast_S2_S1x2_1 (m ((c.tc : Thread nD τ).loc main_arg7))))) := by
  unfold Cert.ReferenceIdeal.Value.res_main_v80 Glue.agg2 Glue.agg5 Glue.agg10 Glue.norm Glue.deg Glue.col Glue.src Glue.dst
  rfl

set_option maxRecDepth 8192 in
set_option maxHeartbeats 400000 in
/-- The first result's composed term is the classifier's host operations applied to the second result's term. -/
theorem res_v84_host : Cert.ReferenceIdeal.Value.res_main_v84 (F := Ideal) m c =
    addf (F := Ideal) (φ := .f32) (Host.dotGeneral (F := Ideal) (φ₁ := .f32) (φ₂ := .f32) dot_S200000x2_S2x2_S200000x2_1_0_0_1_n_n none (Cert.ReferenceIdeal.Value.res_main_v80 (F := Ideal) m c) (m ((c.tc : Thread nD τ).loc main_arg8))) (broadcastInDim S200000x2 ![0, 1] bcast_S1x2_S200000x2_0_1 (broadcastInDim S1x2 ![1] bcast_S2_S1x2_1 (m ((c.tc : Thread nD τ).loc main_arg9)))) := by
  unfold Cert.ReferenceIdeal.Value.res_main_v84 Cert.ReferenceIdeal.Value.res_main_v80
  rfl

set_option maxHeartbeats 400000 in
/-- The second result is the third layer's node features. -/
theorem out1 : Cert.ReferenceIdeal.Value.res_main_v80 (F := Ideal) m c = hidden m c := by
  refine (res_v80_host m c).trans ?_
  unfold hidden
  rw [dot_128_10, act_10, dot_10_5, act_5, dot_5_2, act_2]

set_option maxHeartbeats 400000 in
/-- The first result is the linear classifier of the third layer's node features. -/
theorem out0 : Cert.ReferenceIdeal.Value.res_main_v84 (F := Ideal) m c
    = Cert.Layer.linB 200000 2 2 (hidden m c) (m ((c.tc : Thread nD τ).loc main_arg8)) (m ((c.tc : Thread nD τ).loc main_arg9)) := by
  refine (res_v84_host m c).trans ?_
  rw [out1 m c, lin_2_2]

end Cert.ReferenceIdeal.Form

end
-- ==== Proof.GlueEq.lean ====
/-
  The two programs print the same edge aggregation, each with its own copy of the shapes and of the gather and scatter
  dimension records. The copies are the same shapes and records (their side conditions are propositions), so the two
  namings of each step are one function.
-/
import proofs.«109775_j67156108640501_1_alg».proof.Proof.KGlue
import proofs.«109775_j67156108640501_1_alg».proof.Proof.RGlue

noncomputable section

namespace Cert.GlueEq

open Idealize.ShloMosaic

variable {F : FTy → Type} [FloatOps F]

theorem src_eq (e : (⟨Cert.KernelIdeal.S2x6400000, .i32⟩ : BufTy).Contents (Elt F)) : Cert.KernelIdeal.Glue.src (F := F) e = Cert.ReferenceIdeal.Glue.src (F := F) e := rfl
theorem dst_eq (e : (⟨Cert.KernelIdeal.S2x6400000, .i32⟩ : BufTy).Contents (Elt F)) : Cert.KernelIdeal.Glue.dst (F := F) e = Cert.ReferenceIdeal.Glue.dst (F := F) e := rfl
theorem col_eq (s : (⟨Cert.KernelIdeal.S6600000, .i32⟩ : BufTy).Contents (Elt F)) : Cert.KernelIdeal.Glue.col (F := F) s = Cert.ReferenceIdeal.Glue.col (F := F) s := rfl
theorem deg_eq (d : (⟨Cert.KernelIdeal.S6600000, .i32⟩ : BufTy).Contents (Elt F)) : Cert.KernelIdeal.Glue.deg (F := F) d = Cert.ReferenceIdeal.Glue.deg (F := F) d := rfl
theorem norm_eq (s d : (⟨Cert.KernelIdeal.S6600000, .i32⟩ : BufTy).Contents (Elt F)) : Cert.KernelIdeal.Glue.norm (F := F) s d = Cert.ReferenceIdeal.Glue.norm (F := F) s d := rfl
theorem agg10_eq (p : (⟨Cert.KernelIdeal.S200000x10, .f32⟩ : BufTy).Contents (Elt F)) (s d : (⟨Cert.KernelIdeal.S6600000, .i32⟩ : BufTy).Contents (Elt F)) (n : (⟨Cert.KernelIdeal.S6600000, .f32⟩ : BufTy).Contents (Elt F)) :
    Cert.KernelIdeal.Glue.agg10 (F := F) p s d n = Cert.ReferenceIdeal.Glue.agg10 (F := F) p s d n := rfl
theorem agg5_eq (p : (⟨Cert.KernelIdeal.S200000x5, .f32⟩ : BufTy).Contents (Elt F)) (s d : (⟨Cert.KernelIdeal.S6600000, .i32⟩ : BufTy).Contents (Elt F)) (n : (⟨Cert.KernelIdeal.S6600000, .f32⟩ : BufTy).Contents (Elt F)) :
    Cert.KernelIdeal.Glue.agg5 (F := F) p s d n = Cert.ReferenceIdeal.Glue.agg5 (F := F) p s d n := rfl
theorem agg2_eq (p : (⟨Cert.KernelIdeal.S200000x2, .f32⟩ : BufTy).Contents (Elt F)) (s d : (⟨Cert.KernelIdeal.S6600000, .i32⟩ : BufTy).Contents (Elt F)) (n : (⟨Cert.KernelIdeal.S6600000, .f32⟩ : BufTy).Contents (Elt F)) :
    Cert.KernelIdeal.Glue.agg2 (F := F) p s d n = Cert.ReferenceIdeal.Glue.agg2 (F := F) p s d n := rfl

end Cert.GlueEq

end
-- ==== Proof.Claims.lean ====
/-
  The five claims.

  The three frames: the word-level kernel program and its idealization run to the end with their arguments unchanged
  (the generated frames), and so does the reference (its generated run, the results dropped). The idealization rewrote no
  operation, so there is nothing to preserve. The algebraic claim: at the extended reals, from memories that agree on the
  arguments, both programs end with the same two results. The kernel program's results are the third layer's features
  `h3` and the classifier applied to them (read off its run through the regions); the reference's results are the same
  layered form (its run's result terms regrouped); the only difference left is that each program names its own copy of the
  edge aggregation, and the copies are one function.
-/
import proofs.«109775_j67156108640501_1_alg».proof.Defs
import proofs.«109775_j67156108640501_1_alg».proof.Proof.Gen.Kernel.Frame
import proofs.«109775_j67156108640501_1_alg».proof.Proof.Gen.KernelIdeal.Frame
import proofs.«109775_j67156108640501_1_alg».proof.Proof.Gen.ReferenceIdeal.Run
import proofs.«109775_j67156108640501_1_alg».proof.Proof.Gen.Pre_finite_inputs
import proofs.«109775_j67156108640501_1_alg».proof.Proof.RunW
import proofs.«109775_j67156108640501_1_alg».proof.Proof.KChain
import proofs.«109775_j67156108640501_1_alg».proof.Proof.Lin0
import proofs.«109775_j67156108640501_1_alg».proof.Proof.Act1
import proofs.«109775_j67156108640501_1_alg».proof.Proof.Lin2
import proofs.«109775_j67156108640501_1_alg».proof.Proof.Act3
import proofs.«109775_j67156108640501_1_alg».proof.Proof.Lin4
import proofs.«109775_j67156108640501_1_alg».proof.Proof.Act5
import proofs.«109775_j67156108640501_1_alg».proof.Proof.Lin6
import proofs.«109775_j67156108640501_1_alg».proof.Proof.RForm
import proofs.«109775_j67156108640501_1_alg».proof.Proof.GlueEq

noncomputable section

open Idealize.ShloMosaic Idealize.ShloMosaic.TcCoe Idealize.SL.Sem

namespace Cert.Proof.Claims

/-- Each region's output array as a whole-array function of the arrays it reads, region by region. -/
theorem regionValues : Cert.KernelIdeal.Chain.RegionValues :=
  ⟨Cert.KernelIdeal.Lin0.final, Cert.KernelIdeal.Act1.final, Cert.KernelIdeal.Lin2.final, Cert.KernelIdeal.Act3.final,
    Cert.KernelIdeal.Lin4.final, Cert.KernelIdeal.Act5.final, Cert.KernelIdeal.Lin6.final⟩

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- From memories agreeing on the arguments, the reference's third-layer features are the kernel program's: the same
    layers of the same arguments, each program's copy of the edge aggregation being the same function. -/
theorem hidden_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0)))
    (h1 : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1)))
    (h2 : m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2)))
    (h3 : m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3)))
    (h4 : m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4)))
    (h5 : m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5)))
    (h6 : m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6)))
    (h7 : m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7))) :
    Cert.ReferenceIdeal.Form.hidden m' c = Cert.KernelIdeal.Chain.h3 m c := by
  unfold Cert.ReferenceIdeal.Form.hidden Cert.KernelIdeal.Chain.h3 Cert.KernelIdeal.Chain.h2 Cert.KernelIdeal.Chain.h1
    Cert.KernelIdeal.Chain.Nw Cert.KernelIdeal.Chain.S Cert.KernelIdeal.Chain.D
  rw [h0, h1, h2, h3, h4, h5, h6, h7]
  simp only [Cert.GlueEq.agg10_eq, Cert.GlueEq.agg5_eq, Cert.GlueEq.agg2_eq, Cert.GlueEq.norm_eq, Cert.GlueEq.src_eq,
    Cert.GlueEq.dst_eq]

theorem algebraic : Cert.algebraic_KernelIdeal_ReferenceIdeal := by
  intro m ρ m' ρ' _ hagree
  refine ⟨fun c => Cert.Layer.linB 200000 2 2 (Cert.KernelIdeal.Chain.h3 m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Chain.h3 m c, ?_, ?_⟩
  · exact (θ_run Cert.KernelIdeal.defs _ _).mono (fun r h c =>
      ⟨(h c).1.trans (Cert.KernelIdeal.Chain.out0 m ρ c regionValues),
       (h c).2.1.trans (Cert.KernelIdeal.Chain.out1 m ρ c regionValues), (h c).2.2⟩)
      (Cert.KernelIdeal.RunW.run m ρ)
  · refine (θ_run Cert.ReferenceIdeal.defs _ _).mono (fun r h c => ?_)
      (Cert.ReferenceIdeal.Value.run (F := Ideal) m' ρ')
    obtain ⟨a0, a1, a2, a3, a4, a5, a6, a7, a8, a9⟩ := hagree c
    have hh := hidden_eq m m' c a0 a1 a2 a3 a4 a5 a6 a7
    refine ⟨(h c).1.trans ?_, (h c).2.1.trans ?_, (h c).2.2⟩
    · rw [Cert.ReferenceIdeal.Form.out0 m' c, hh, a8, a9]
    · rw [Cert.ReferenceIdeal.Form.out1 m' c, hh]

end Cert.Proof.Claims

end
-- ==== Proof.lean ====
/-
  The certificate: a three-layer graph convolution network with a linear classifier, computed by a program of seven
  row-blocked regions (four projections, three bias-add-and-tanh activations) among host operations that aggregate node
  features over the edges, against the same network written as one host program.

  Over the extended reals the two programs compute the same function. A projection region adds, to rows times weights, a
  bias row of zeros where the reference adds nothing: `x + 0 = x` on every extended real. An activation region and the
  classifier add a bias recast as a one-row matrix where the reference broadcasts the vector: the same entries. A matrix
  product accumulated into zeros is the host's dot product. Everything else — the degrees, the edge weights, the gather
  of source rows and the scatter-add into destination rows — is the same operations of the same values in both programs,
  and is never opened. No law used needs the inputs to be finite.
-/
import proofs.«109775_j67156108640501_1_alg».proof.Defs
import proofs.«109775_j67156108640501_1_alg».proof.Proof.Gen.Kernel
import proofs.«109775_j67156108640501_1_alg».proof.Proof.Gen.KernelIdeal
import proofs.«109775_j67156108640501_1_alg».proof.Proof.Gen.ReferenceIdeal
import proofs.«109775_j67156108640501_1_alg».proof.Proof.Gen.Pre_finite_inputs
import proofs.«109775_j67156108640501_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
